-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S3 : Shape := ⟨1, ![3]⟩
abbrev S3x128 : Shape := ⟨2, ![3, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S128x1 : Shape := ⟨2, ![128, 1]⟩
abbrev S1 : Shape := ⟨1, ![1]⟩
abbrev S2x128 : Shape := ⟨2, ![2, 128]⟩
abbrev S128x3 : Shape := ⟨2, ![128, 3]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S3 : S_.BroadcastsInDim S3 (![] : Fin 0 → Fin S3.rank)
  reducesTo_S3_S_d0 : S3.ReducesTo [0] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x128 : S_.BroadcastsInDim S2x128 (![] : Fin 0 → Fin S2x128.rank)
  reducesTo_S2x128_S_d0_1 : S2x128.ReducesTo [0, 1] S_
  bcast_S_S128x3 : S_.BroadcastsInDim S128x3 (![] : Fin 0 → Fin S128x3.rank)
  reducesTo_S128x3_S_d0_1 : S128x3.ReducesTo [0, 1] S_

variable [Facts]

def fn_part9 {F : FTy → Type} [FloatOps F] (main_arg31 : FVec F S1 .f32) (main_v153 : IVec S_ 1) : IVec S_ 1 :=
  let main_v154 : FVec F S1 .f32 := Host.absf main_arg31
  let main_cst_60 : FVec F S_ .f32 := constant S_ .f32 0x7F800000#32
  let main_v155 : FVec F S1 .f32 := broadcastInDim S1 ![] bcast_S_S1 main_cst_60
  let main_v156 : IVec S1 1 := cmpf .olt main_v154 main_v155
  let main_c_61 : IVec S_ 1 := constantI S_ 1 1#1
  let main_v157 : IVec S_ 1 := (fun x v => Host.reduce IntOp.andi x v reducesTo_S1_S_d0 h_S_) main_v156 main_c_61
  let main_v158 : IVec S_ 1 := andi main_v153 main_v157
  main_v158

def fn_part8 {F : FTy → Type} [FloatOps F] (main_arg28 : FVec F S128x128 .f32) (main_arg29 : FVec F S128 .f32) (main_arg30 : FVec F S128x1 .f32) (main_arg31 : FVec F S1 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128x128 .f32 := Host.absf main_arg28
  let main_cst_54 : FVec F S_ .f32 := constant S_ .f32 0x7F800000#32
  let main_v140 : FVec F S128x128 .f32 := broadcastInDim S128x128 ![] bcast_S_S128x128 main_cst_54
  let main_v141 : IVec S128x128 1 := cmpf .olt main_v139 main_v140
  let main_c_55 : IVec S_ 1 := constantI S_ 1 1#1
  let main_v142 : IVec S_ 1 := (fun x v => Host.reduce IntOp.andi x v reducesTo_S128x128_S_d0_1 h_S_) main_v141 main_c_55
  let main_v143 : IVec S_ 1 := andi main_v138 main_v142
  let main_v144 : FVec F S128 .f32 := Host.absf main_arg29
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_v149 : FVec F S128x1 .f32 := Host.absf main_arg30
  let main_cst_58 : FVec F S_ .f32 := constant S_ .f32 0x7F800000#32
  let main_v150 : FVec F S128x1 .f32 := broadcastInDim S128x1 ![] bcast_S_S128x1 main_cst_58
  let main_v151 : IVec S128x1 1 := cmpf .olt main_v149 main_v150
  let main_c_59 : IVec S_ 1 := constantI S_ 1 1#1
  let main_v152 : IVec S_ 1 := (fun x v => Host.reduce IntOp.andi x v reducesTo_S128x1_S_d0_1 h_S_) main_v151 main_c_59
  let main_v153 : IVec S_ 1 := andi main_v148 main_v152
  fn_part9 (F := F) main_arg31 main_v153

def fn_part7 {F : FTy → Type} [FloatOps F] (main_arg25 : FVec F S3 .f32) (main_arg26 : FVec F S2x128 .f32) (main_arg27 : FVec F S128 .f32) (main_arg28 : FVec F S128x128 .f32) (main_arg29 : FVec F S128 .f32) (main_arg30 : FVec F S128x1 .f32) (main_arg31 : FVec F S1 .f32) (main_v118 : IVec S_ 1) (main_v119 : FVec F S128x3 .f32) : IVec S_ 1 :=
  let main_cst_46 : FVec F S_ .f32 := constant S_ .f32 0x7F800000#32
  let main_v120 : FVec F S128x3 .f32 := broadcastInDim S128x3 ![] bcast_S_S128x3 main_cst_46
  let main_v121 : IVec S128x3 1 := cmpf .olt main_v119 main_v120
  let main_c_47 : IVec S_ 1 := constantI S_ 1 1#1
  let main_v122 : IVec S_ 1 := (fun x v => Host.reduce IntOp.andi x v reducesTo_S128x3_S_d0_1 h_S_) main_v121 main_c_47
  let main_v123 : IVec S_ 1 := andi main_v118 main_v122
  let main_v124 : FVec F S3 .f32 := Host.absf main_arg25
  let main_cst_48 : FVec F S_ .f32 := constant S_ .f32 0x7F800000#32
  let main_v125 : FVec F S3 .f32 := broadcastInDim S3 ![] bcast_S_S3 main_cst_48
  let main_v126 : IVec S3 1 := cmpf .olt main_v124 main_v125
  let main_c_49 : IVec S_ 1 := constantI S_ 1 1#1
  let main_v127 : IVec S_ 1 := (fun x v => Host.reduce IntOp.andi x v reducesTo_S3_S_d0 h_S_) main_v126 main_c_49
  let main_v128 : IVec S_ 1 := andi main_v123 main_v127
  let main_v129 : FVec F S2x128 .f32 := Host.absf main_arg26
  let main_cst_50 : FVec F S_ .f32 := constant S_ .f32 0x7F800000#32
  let main_v130 : FVec F S2x128 .f32 := broadcastInDim S2x128 ![] bcast_S_S2x128 main_cst_50
  let main_v131 : IVec S2x128 1 := cmpf .olt main_v129 main_v130
  let main_c_51 : IVec S_ 1 := constantI S_ 1 1#1
  let main_v132 : IVec S_ 1 := (fun x v => Host.reduce IntOp.andi x v reducesTo_S2x128_S_d0_1 h_S_) main_v131 main_c_51
  let main_v133 : IVec S_ 1 := andi main_v128 main_v132
  let main_v134 : FVec F S128 .f32 := Host.absf main_arg27
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg28 main_arg29 main_arg30 main_arg31 main_v133 main_v136

def fn_part6 {F : FTy → Type} [FloatOps F] (main_arg21 : FVec F S128 .f32) (main_arg22 : FVec F S128x128 .f32) (main_arg23 : FVec F S128 .f32) (main_arg24 : FVec F S128x3 .f32) (main_arg25 : FVec F S3 .f32) (main_arg26 : FVec F S2x128 .f32) (main_arg27 : FVec F S128 .f32) (main_arg28 : FVec F S128x128 .f32) (main_arg29 : FVec F S128 .f32) (main_arg30 : FVec F S128x1 .f32) (main_arg31 : FVec F S1 .f32) (main_v98 : IVec S_ 1) (main_v101 : IVec S3x128 1) (main_c_39 : IVec S_ 1) : IVec S_ 1 :=
  let main_v102 : IVec S_ 1 := (fun x v => Host.reduce IntOp.andi x v reducesTo_S3x128_S_d0_1 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg22
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x3 .f32 := Host.absf main_arg24
  fn_part7 (F := F) main_arg25 main_arg26 main_arg27 main_arg28 main_arg29 main_arg30 main_arg31 main_v118 main_v119

def fn_part5 {F : FTy → Type} [FloatOps F] (main_arg18 : FVec F S128x3 .f32) (main_arg19 : FVec F S3 .f32) (main_arg20 : FVec F S3x128 .f32) (main_arg21 : FVec F S128 .f32) (main_arg22 : FVec F S128x128 .f32) (main_arg23 : FVec F S128 .f32) (main_arg24 : FVec F S128x3 .f32) (main_arg25 : FVec F S3 .f32) (main_arg26 : FVec F S2x128 .f32) (main_arg27 : FVec F S128 .f32) (main_arg28 : FVec F S128x128 .f32) (main_arg29 : FVec F S128 .f32) (main_arg30 : FVec F S128x1 .f32) (main_arg31 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x3 .f32 := Host.absf main_arg18
  let main_cst_34 : FVec F S_ .f32 := constant S_ .f32 0x7F800000#32
  let main_v90 : FVec F S128x3 .f32 := broadcastInDim S128x3 ![] bcast_S_S128x3 main_cst_34
  let main_v91 : IVec S128x3 1 := cmpf .olt main_v89 main_v90
  let main_c_35 : IVec S_ 1 := constantI S_ 1 1#1
  let main_v92 : IVec S_ 1 := (fun x v => Host.reduce IntOp.andi x v reducesTo_S128x3_S_d0_1 h_S_) main_v91 main_c_35
  let main_v93 : IVec S_ 1 := andi main_v88 main_v92
  let main_v94 : FVec F S3 .f32 := Host.absf main_arg19
  let main_cst_36 : FVec F S_ .f32 := constant S_ .f32 0x7F800000#32
  let main_v95 : FVec F S3 .f32 := broadcastInDim S3 ![] bcast_S_S3 main_cst_36
  let main_v96 : IVec S3 1 := cmpf .olt main_v94 main_v95
  let main_c_37 : IVec S_ 1 := constantI S_ 1 1#1
  let main_v97 : IVec S_ 1 := (fun x v => Host.reduce IntOp.andi x v reducesTo_S3_S_d0 h_S_) main_v96 main_c_37
  let main_v98 : IVec S_ 1 := andi main_v93 main_v97
  let main_v99 : FVec F S3x128 .f32 := Host.absf main_arg20
  let main_cst_38 : FVec F S_ .f32 := constant S_ .f32 0x7F800000#32
  let main_v100 : FVec F S3x128 .f32 := broadcastInDim S3x128 ![] bcast_S_S3x128 main_cst_38
  let main_v101 : IVec S3x128 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_v98 main_v101 main_c_39

def fn_part4 {F : FTy → Type} [FloatOps F] (main_arg14 : FVec F S2x128 .f32) (main_arg15 : FVec F S128 .f32) (main_arg16 : FVec F S128x128 .f32) (main_arg17 : FVec F S128 .f32) (main_arg18 : FVec F S128x3 .f32) (main_arg19 : FVec F S3 .f32) (main_arg20 : FVec F S3x128 .f32) (main_arg21 : FVec F S128 .f32) (main_arg22 : FVec F S128x128 .f32) (main_arg23 : FVec F S128 .f32) (main_arg24 : FVec F S128x3 .f32) (main_arg25 : FVec F S3 .f32) (main_arg26 : FVec F S2x128 .f32) (main_arg27 : FVec F S128 .f32) (main_arg28 : FVec F S128x128 .f32) (main_arg29 : FVec F S128 .f32) (main_arg30 : FVec F S128x1 .f32) (main_arg31 : FVec F S1 .f32) (main_v63 : IVec S_ 1) (main_v67 : IVec S_ 1) : IVec S_ 1 :=
  let main_v68 : IVec S_ 1 := andi main_v63 main_v67
  let main_v69 : FVec F S2x128 .f32 := Host.absf main_arg14
  let main_cst_26 : FVec F S_ .f32 := constant S_ .f32 0x7F800000#32
  let main_v70 : FVec F S2x128 .f32 := broadcastInDim S2x128 ![] bcast_S_S2x128 main_cst_26
  let main_v71 : IVec S2x128 1 := cmpf .olt main_v69 main_v70
  let main_c_27 : IVec S_ 1 := constantI S_ 1 1#1
  let main_v72 : IVec S_ 1 := (fun x v => Host.reduce IntOp.andi x v reducesTo_S2x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_v83 main_v84 main_cst_32

def fn_part3 {F : FTy → Type} [FloatOps F] (main_arg11 : FVec F S128 .f32) (main_arg12 : FVec F S128x1 .f32) (main_arg13 : FVec F S1 .f32) (main_arg14 : FVec F S2x128 .f32) (main_arg15 : FVec F S128 .f32) (main_arg16 : FVec F S128x128 .f32) (main_arg17 : FVec F S128 .f32) (main_arg18 : FVec F S128x3 .f32) (main_arg19 : FVec F S3 .f32) (main_arg20 : FVec F S3x128 .f32) (main_arg21 : FVec F S128 .f32) (main_arg22 : FVec F S128x128 .f32) (main_arg23 : FVec F S128 .f32) (main_arg24 : FVec F S128x3 .f32) (main_arg25 : FVec F S3 .f32) (main_arg26 : FVec F S2x128 .f32) (main_arg27 : FVec F S128 .f32) (main_arg28 : FVec F S128x128 .f32) (main_arg29 : FVec F S128 .f32) (main_arg30 : FVec F S128x1 .f32) (main_arg31 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg12
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg7 : FVec F S2 .f32) (main_arg8 : FVec F S3x128 .f32) (main_arg9 : FVec F S128 .f32) (main_arg10 : FVec F S128x128 .f32) (main_arg11 : FVec F S128 .f32) (main_arg12 : FVec F S128x1 .f32) (main_arg13 : FVec F S1 .f32) (main_arg14 : FVec F S2x128 .f32) (main_arg15 : FVec F S128 .f32) (main_arg16 : FVec F S128x128 .f32) (main_arg17 : FVec F S128 .f32) (main_arg18 : FVec F S128x3 .f32) (main_arg19 : FVec F S3 .f32) (main_arg20 : FVec F S3x128 .f32) (main_arg21 : FVec F S128 .f32) (main_arg22 : FVec F S128x128 .f32) (main_arg23 : FVec F S128 .f32) (main_arg24 : FVec F S128x3 .f32) (main_arg25 : FVec F S3 .f32) (main_arg26 : FVec F S2x128 .f32) (main_arg27 : FVec F S128 .f32) (main_arg28 : FVec F S128x128 .f32) (main_arg29 : FVec F S128 .f32) (main_arg30 : FVec F S128x1 .f32) (main_arg31 : FVec F S1 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S3x128 .f32 := Host.absf main_arg8
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg4 : FVec F S128x128 .f32) (main_arg5 : FVec F S128 .f32) (main_arg6 : FVec F S128x2 .f32) (main_arg7 : FVec F S2 .f32) (main_arg8 : FVec F S3x128 .f32) (main_arg9 : FVec F S128 .f32) (main_arg10 : FVec F S128x128 .f32) (main_arg11 : FVec F S128 .f32) (main_arg12 : FVec F S128x1 .f32) (main_arg13 : FVec F S1 .f32) (main_arg14 : FVec F S2x128 .f32) (main_arg15 : FVec F S128 .f32) (main_arg16 : FVec F S128x128 .f32) (main_arg17 : FVec F S128 .f32) (main_arg18 : FVec F S128x3 .f32) (main_arg19 : FVec F S3 .f32) (main_arg20 : FVec F S3x128 .f32) (main_arg21 : FVec F S128 .f32) (main_arg22 : FVec F S128x128 .f32) (main_arg23 : FVec F S128 .f32) (main_arg24 : FVec F S128x3 .f32) (main_arg25 : FVec F S3 .f32) (main_arg26 : FVec F S2x128 .f32) (main_arg27 : FVec F S128 .f32) (main_arg28 : FVec F S128x128 .f32) (main_arg29 : FVec F S128 .f32) (main_arg30 : FVec F S128x1 .f32) (main_arg31 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x2 .f32 := Host.absf main_arg6
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S262144x3 .f32) (main_arg1 : FVec F S3 .f32) (main_arg2 : FVec F S3x128 .f32) (main_arg3 : FVec F S128 .f32) (main_arg4 : FVec F S128x128 .f32) (main_arg5 : FVec F S128 .f32) (main_arg6 : FVec F S128x2 .f32) (main_arg7 : FVec F S2 .f32) (main_arg8 : FVec F S3x128 .f32) (main_arg9 : FVec F S128 .f32) (main_arg10 : FVec F S128x128 .f32) (main_arg11 : FVec F S128 .f32) (main_arg12 : FVec F S128x1 .f32) (main_arg13 : FVec F S1 .f32) (main_arg14 : FVec F S2x128 .f32) (main_arg15 : FVec F S128 .f32) (main_arg16 : FVec F S128x128 .f32) (main_arg17 : FVec F S128 .f32) (main_arg18 : FVec F S128x3 .f32) (main_arg19 : FVec F S3 .f32) (main_arg20 : FVec F S3x128 .f32) (main_arg21 : FVec F S128 .f32) (main_arg22 : FVec F S128x128 .f32) (main_arg23 : FVec F S128 .f32) (main_arg24 : FVec F S128x3 .f32) (main_arg25 : FVec F S3 .f32) (main_arg26 : FVec F S2x128 .f32) (main_arg27 : FVec F S128 .f32) (main_arg28 : FVec F S128x128 .f32) (main_arg29 : FVec F S128 .f32) (main_arg30 : FVec F S128x1 .f32) (main_arg31 : FVec F S1 .f32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S3 .f32 := Host.absf main_arg1
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S262144x3 : Shape := ⟨2, ![262144, 3]⟩
abbrev S3 : Shape := ⟨1, ![3]⟩
abbrev S3x128 : Shape := ⟨2, ![3, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S128x1 : Shape := ⟨2, ![128, 1]⟩
abbrev S1 : Shape := ⟨1, ![1]⟩
abbrev S2x128 : Shape := ⟨2, ![2, 128]⟩
abbrev S128x3 : Shape := ⟨2, ![128, 3]⟩
abbrev S1x3 : Shape := ⟨2, ![1, 3]⟩
abbrev S3x256 : Shape := ⟨2, ![3, 256]⟩
abbrev S256 : Shape := ⟨1, ![256]⟩
abbrev S1x256 : Shape := ⟨2, ![1, 256]⟩
abbrev S_ : Shape := ⟨0, ![]⟩
abbrev S128x256 : Shape := ⟨2, ![128, 256]⟩
abbrev S256x256 : Shape := ⟨2, ![256, 256]⟩
abbrev S256x3 : Shape := ⟨2, ![256, 3]⟩
abbrev S1x128 : Shape := ⟨2, ![1, 128]⟩
abbrev S3x384 : Shape := ⟨2, ![3, 384]⟩
abbrev S384 : Shape := ⟨1, ![384]⟩
abbrev S1x384 : Shape := ⟨2, ![1, 384]⟩
abbrev S256x128 : Shape := ⟨2, ![256, 128]⟩
abbrev S256x384 : Shape := ⟨2, ![256, 384]⟩
abbrev S128x384 : Shape := ⟨2, ![128, 384]⟩
abbrev S384x384 : Shape := ⟨2, ![384, 384]⟩
abbrev S128x6 : Shape := ⟨2, ![128, 6]⟩
abbrev S256x6 : Shape := ⟨2, ![256, 6]⟩
abbrev S256x1 : Shape := ⟨2, ![256, 1]⟩
abbrev S256x7 : Shape := ⟨2, ![256, 7]⟩
abbrev S128x7 : Shape := ⟨2, ![128, 7]⟩
abbrev S384x7 : Shape := ⟨2, ![384, 7]⟩
abbrev S7 : Shape := ⟨1, ![7]⟩
abbrev S1x7 : Shape := ⟨2, ![1, 7]⟩
abbrev S1024x3 : Shape := ⟨2, ![1024, 3]⟩
abbrev S1024 : Shape := ⟨1, ![1024]⟩
abbrev S1024x1 : Shape := ⟨2, ![1024, 1]⟩
abbrev S1024x256 : Shape := ⟨2, ![1024, 256]⟩
abbrev S1024x2 : Shape := ⟨2, ![1024, 2]⟩
abbrev S1024x384 : Shape := ⟨2, ![1024, 384]⟩
abbrev S1024x7 : Shape := ⟨2, ![1024, 7]⟩

abbrev nBuf : Space → Nat
  | .hbm => 100
  | .vmem => 17
  | .smem => 0
  | _ => 0

abbrev bufTy : (tb : Table) → Fin (tcTables nBuf tb) → BufTy
  | .hbm, ⟨0, _⟩ => ⟨S262144x3, .f32⟩
  | .hbm, ⟨1, _⟩ => ⟨S3, .f32⟩
  | .hbm, ⟨2, _⟩ => ⟨S3x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S3x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S2x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x3, .f32⟩
  | .hbm, ⟨19, _⟩ => ⟨S3, .f32⟩
  | .hbm, ⟨20, _⟩ => ⟨S3x128, .f32⟩
  | .hbm, ⟨21, _⟩ => ⟨S128, .f32⟩
  | .hbm, ⟨22, _⟩ => ⟨S128x128, .f32⟩
  | .hbm, ⟨23, _⟩ => ⟨S128, .f32⟩
  | .hbm, ⟨24, _⟩ => ⟨S128x3, .f32⟩
  | .hbm, ⟨25, _⟩ => ⟨S3, .f32⟩
  | .hbm, ⟨26, _⟩ => ⟨S2x128, .f32⟩
  | .hbm, ⟨27, _⟩ => ⟨S128, .f32⟩
  | .hbm, ⟨28, _⟩ => ⟨S128x128, .f32⟩
  | .hbm, ⟨29, _⟩ => ⟨S128, .f32⟩
  | .hbm, ⟨30, _⟩ => ⟨S128x1, .f32⟩
  | .hbm, ⟨31, _⟩ => ⟨S1, .f32⟩
  | .hbm, ⟨32, _⟩ => ⟨S1x3, .f32⟩
  | .hbm, ⟨33, _⟩ => ⟨S3x256, .f32⟩
  | .hbm, ⟨34, _⟩ => ⟨S256, .f32⟩
  | .hbm, ⟨35, _⟩ => ⟨S1x256, .f32⟩
  | .hbm, ⟨36, _⟩ => ⟨S_, .f32⟩
  | .hbm, ⟨37, _⟩ => ⟨S128x128, .f32⟩
  | .hbm, ⟨38, _⟩ => ⟨S128x256, .f32⟩
  | .hbm, ⟨39, _⟩ => ⟨S_, .f32⟩
  | .hbm, ⟨40, _⟩ => ⟨S128x128, .f32⟩
  | .hbm, ⟨41, _⟩ => ⟨S128x256, .f32⟩
  | .hbm, ⟨42, _⟩ => ⟨S256x256, .f32⟩
  | .hbm, ⟨43, _⟩ => ⟨S256, .f32⟩
  | .hbm, ⟨44, _⟩ => ⟨S1x256, .f32⟩
  | .hbm, ⟨45, _⟩ => ⟨S_, .f32⟩
  | .hbm, ⟨46, _⟩ => ⟨S128x1, .f32⟩
  | .hbm, ⟨47, _⟩ => ⟨S128x3, .f32⟩
  | .hbm, ⟨48, _⟩ => ⟨S_, .f32⟩
  | .hbm, ⟨49, _⟩ => ⟨S128x2, .f32⟩
  | .hbm, ⟨50, _⟩ => ⟨S128x3, .f32⟩
  | .hbm, ⟨51, _⟩ => ⟨S256x3, .f32⟩
  | .hbm, ⟨52, _⟩ => ⟨S3, .f32⟩
  | .hbm, ⟨53, _⟩ => ⟨S1x3, .f32⟩
  | .hbm, ⟨54, _⟩ => ⟨S_, .f32⟩
  | .hbm, ⟨55, _⟩ => ⟨S1x128, .f32⟩
  | .hbm, ⟨56, _⟩ => ⟨S3x128, .f32⟩
  | .hbm, ⟨57, _⟩ => ⟨S3x128, .f32⟩
  | .hbm, ⟨58, _⟩ => ⟨S3x384, .f32⟩
  | .hbm, ⟨59, _⟩ => ⟨S384, .f32⟩
  | .hbm, ⟨60, _⟩ => ⟨S1x384, .f32⟩
  | .hbm, ⟨61, _⟩ => ⟨S_, .f32⟩
  | .hbm, ⟨62, _⟩ => ⟨S128x128, .f32⟩
  | .hbm, ⟨63, _⟩ => ⟨S128x256, .f32⟩
  | .hbm, ⟨64, _⟩ => ⟨S_, .f32⟩
  | .hbm, ⟨65, _⟩ => ⟨S128x128, .f32⟩
  | .hbm, ⟨66, _⟩ => ⟨S128x256, .f32⟩
  | .hbm, ⟨67, _⟩ => ⟨S256x256, .f32⟩
  | .hbm, ⟨68, _⟩ => ⟨S_, .f32⟩
  | .hbm, ⟨69, _⟩ => ⟨S256x128, .f32⟩
  | .hbm, ⟨70, _⟩ => ⟨S256x384, .f32⟩
  | .hbm, ⟨71, _⟩ => ⟨S_, .f32⟩
  | .hbm, ⟨72, _⟩ => ⟨S128x256, .f32⟩
  | .hbm, ⟨73, _⟩ => ⟨S128x384, .f32⟩
  | .hbm, ⟨74, _⟩ => ⟨S384x384, .f32⟩
  | .hbm, ⟨75, _⟩ => ⟨S384, .f32⟩
  | .hbm, ⟨76, _⟩ => ⟨S1x384, .f32⟩
  | .hbm, ⟨77, _⟩ => ⟨S_, .f32⟩
  | .hbm, ⟨78, _⟩ => ⟨S128x3, .f32⟩
  | .hbm, ⟨79, _⟩ => ⟨S128x6, .f32⟩
  | .hbm, ⟨80, _⟩ => ⟨S_, .f32⟩
  | .hbm, ⟨81, _⟩ => ⟨S128x3, .f32⟩
  | .hbm, ⟨82, _⟩ => ⟨S128x6, .f32⟩
  | .hbm, ⟨83, _⟩ => ⟨S256x6, .f32⟩
  | .hbm, ⟨84, _⟩ => ⟨S_, .f32⟩
  | .hbm, ⟨85, _⟩ => ⟨S256x1, .f32⟩
  | .hbm, ⟨86, _⟩ => ⟨S256x7, .f32⟩
  | .hbm, ⟨87, _⟩ => ⟨S_, .f32⟩
  | .hbm, ⟨88, _⟩ => ⟨S128x6, .f32⟩
  | .hbm, ⟨89, _⟩ => ⟨S128x7, .f32⟩
  | .hbm, ⟨90, _⟩ => ⟨S384x7, .f32⟩
  | .hbm, ⟨91, _⟩ => ⟨S7, .f32⟩
  | .hbm, ⟨92, _⟩ => ⟨S1x7, .f32⟩
  | .hbm, ⟨93, _⟩ => ⟨S3x256, .bf16⟩
  | .hbm, ⟨94, _⟩ => ⟨S256x256, .bf16⟩
  | .hbm, ⟨95, _⟩ => ⟨S256x3, .bf16⟩
  | .hbm, ⟨96, _⟩ => ⟨S3x384, .bf16⟩
  | .hbm, ⟨97, _⟩ => ⟨S384x384, .bf16⟩
  | .hbm, ⟨98, _⟩ => ⟨S384x7, .bf16⟩
  | .hbm, ⟨99, _⟩ => ⟨S262144x3, .f32⟩
  | .local _ .vmem, ⟨0, _⟩ => ⟨S1024x3, .f32⟩
  | .local _ .vmem, ⟨1, _⟩ => ⟨S1024x3, .f32⟩
  | .local _ .vmem, ⟨2, _⟩ => ⟨S1x3, .f32⟩
  | .local _ .vmem, ⟨3, _⟩ => ⟨S3x256, .bf16⟩
  | .local _ .vmem, ⟨4, _⟩ => ⟨S1x256, .f32⟩
  | .local _ .vmem, ⟨5, _⟩ => ⟨S256x256, .bf16⟩
  | .local _ .vmem, ⟨6, _⟩ => ⟨S1x256, .f32⟩
  | .local _ .vmem, ⟨7, _⟩ => ⟨S256x3, .bf16⟩
  | .local _ .vmem, ⟨8, _⟩ => ⟨S1x3, .f32⟩
  | .local _ .vmem, ⟨9, _⟩ => ⟨S3x384, .bf16⟩
  | .local _ .vmem, ⟨10, _⟩ => ⟨S1x384, .f32⟩
  | .local _ .vmem, ⟨11, _⟩ => ⟨S384x384, .bf16⟩
  | .local _ .vmem, ⟨12, _⟩ => ⟨S1x384, .f32⟩
  | .local _ .vmem, ⟨13, _⟩ => ⟨S384x7, .bf16⟩
  | .local _ .vmem, ⟨14, _⟩ => ⟨S1x7, .f32⟩
  | .local _ .vmem, ⟨15, _⟩ => ⟨S1024x3, .f32⟩
  | .local _ .vmem, ⟨16, _⟩ => ⟨S1024x3, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_cst : Ref sig .tc := ⟨.hbm, 36, rfl⟩
abbrev main_v4 : Ref sig .tc := ⟨.hbm, 37, rfl⟩
abbrev main_v5 : Ref sig .tc := ⟨.hbm, 38, rfl⟩
abbrev main_cst_0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst_1 : Ref sig .tc := ⟨.hbm, 45, rfl⟩
abbrev main_v11 : Ref sig .tc := ⟨.hbm, 46, rfl⟩
abbrev main_v12 : Ref sig .tc := ⟨.hbm, 47, rfl⟩
abbrev main_cst_2 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_3 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_cst_4 : Ref sig .tc := ⟨.hbm, 61, rfl⟩
abbrev main_v24 : Ref sig .tc := ⟨.hbm, 62, rfl⟩
abbrev main_v25 : Ref sig .tc := ⟨.hbm, 63, rfl⟩
abbrev main_cst_5 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_6 : Ref sig .tc := ⟨.hbm, 68, rfl⟩
abbrev main_v29 : Ref sig .tc := ⟨.hbm, 69, rfl⟩
abbrev main_v30 : Ref sig .tc := ⟨.hbm, 70, rfl⟩
abbrev main_cst_7 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_8 : Ref sig .tc := ⟨.hbm, 77, rfl⟩
abbrev main_v36 : Ref sig .tc := ⟨.hbm, 78, rfl⟩
abbrev main_v37 : Ref sig .tc := ⟨.hbm, 79, rfl⟩
abbrev main_cst_9 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_10 : Ref sig .tc := ⟨.hbm, 84, rfl⟩
abbrev main_v41 : Ref sig .tc := ⟨.hbm, 85, rfl⟩
abbrev main_v42 : Ref sig .tc := ⟨.hbm, 86, rfl⟩
abbrev main_cst_11 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x3 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384x7 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x7 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S3_S1x3 : S3.ShapeCasts S1x3
  concatenates_S3x128_S3x128_S3x256_d1 : Shape.Concatenates [S3x128, S3x128] S3x256 1
  concatenates_S128_S128_S256_d0 : Shape.Concatenates [S128, S128] S256 0
  shapeCasts_S256_S1x256 : S256.ShapeCasts S1x256
  bcast_S_S128x128 : S_.BroadcastsInDim S128x128 (![] : Fin 0 → Fin S128x128.rank)
  concatenates_S128x128_S128x128_S128x256_d1 : Shape.Concatenates [S128x128, S128x128] S128x256 1
  concatenates_S128x256_S128x256_S256x256_d0 : Shape.Concatenates [S128x256, S128x256] S256x256 0
  bcast_S_S128x1 : S_.BroadcastsInDim S128x1 (![] : Fin 0 → Fin S128x1.rank)
  concatenates_S128x2_S128x1_S128x3_d1 : Shape.Concatenates [S128x2, S128x1] S128x3 1
  bcast_S_S128x2 : S_.BroadcastsInDim S128x2 (![] : Fin 0 → Fin S128x2.rank)
  concatenates_S128x3_S128x3_S256x3_d0 : Shape.Concatenates [S128x3, S128x3] S256x3 0
  concatenates_S2_S1_S3_d0 : Shape.Concatenates [S2, S1] S3 0
  bcast_S_S1x128 : S_.BroadcastsInDim S1x128 (![] : Fin 0 → Fin S1x128.rank)
  concatenates_S2x128_S1x128_S3x128_d0 : Shape.Concatenates [S2x128, S1x128] S3x128 0
  concatenates_S3x128_S3x128_S3x128_S3x384_d1 : Shape.Concatenates [S3x128, S3x128, S3x128] S3x384 1
  concatenates_S128_S128_S128_S384_d0 : Shape.Concatenates [S128, S128, S128] S384 0
  shapeCasts_S384_S1x384 : S384.ShapeCasts S1x384
  bcast_S_S256x128 : S_.BroadcastsInDim S256x128 (![] : Fin 0 → Fin S256x128.rank)
  concatenates_S256x256_S256x128_S256x384_d1 : Shape.Concatenates [S256x256, S256x128] S256x384 1
  bcast_S_S128x256 : S_.BroadcastsInDim S128x256 (![] : Fin 0 → Fin S128x256.rank)
  concatenates_S128x256_S128x128_S128x384_d1 : Shape.Concatenates [S128x256, S128x128] S128x384 1
  concatenates_S256x384_S128x384_S384x384_d0 : Shape.Concatenates [S256x384, S128x384] S384x384 0
  bcast_S_S128x3 : S_.BroadcastsInDim S128x3 (![] : Fin 0 → Fin S128x3.rank)
  concatenates_S128x3_S128x3_S128x6_d1 : Shape.Concatenates [S128x3, S128x3] S128x6 1
  concatenates_S128x6_S128x6_S256x6_d0 : Shape.Concatenates [S128x6, S128x6] S256x6 0
  bcast_S_S256x1 : S_.BroadcastsInDim S256x1 (![] : Fin 0 → Fin S256x1.rank)
  concatenates_S256x6_S256x1_S256x7_d1 : Shape.Concatenates [S256x6, S256x1] S256x7 1
  bcast_S_S128x6 : S_.BroadcastsInDim S128x6 (![] : Fin 0 → Fin S128x6.rank)
  concatenates_S128x6_S128x1_S128x7_d1 : Shape.Concatenates [S128x6, S128x1] S128x7 1
  concatenates_S256x7_S128x7_S384x7_d0 : Shape.Concatenates [S256x7, S128x7] S384x7 0
  concatenates_S3_S3_S1_S7_d0 : Shape.Concatenates [S3, S3, S1] S7 0
  shapeCasts_S7_S1x7 : S7.ShapeCasts S1x7
  bitsLt_bf16_f32 : FTy.bits .bf16 < FTy.bits .f32
  inb_S1024x3_S1024x3_0_0 : ∀ a, (![0, 0] : Fin 2 → Nat) a + S1024x3.size a ≤ S1024x3.size a
  h_S1024x3 : 0 < S1024x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  inb_S3x256_S3x256_0_0 : ∀ a, (![0, 0] : Fin 2 → Nat) a + S3x256.size a ≤ S3x256.size a
  h_S3x256 : 0 < S3x256.numel
  shapeCasts_S3x256_S3x256 : S3x256.ShapeCasts S3x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S3x384_S3x384_0_0 : ∀ a, (![0, 0] : Fin 2 → Nat) a + S3x384.size a ≤ S3x384.size a
  h_S3x384 : 0 < S3x384.numel
  shapeCasts_S3x384_S3x384 : S3x384.ShapeCasts S3x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S384x7_S384x7_0_0 : ∀ a, (![0, 0] : Fin 2 → Nat) a + S384x7.size a ≤ S384x7.size a
  h_S384x7 : 0 < S384x7.numel
  shapeCasts_S384x7_S384x7 : S384x7.ShapeCasts S384x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x3_S1024x3 : S1x3.Broadcasts S1024x3
  reduces_S1024x3_S1024 : S1024x3.Reduces [1] S1024
  shapeCasts_S1024_S1024x1 : S1024.ShapeCasts S1024x1
  broadcasts_S1024x1_S1024x3 : S1024x1.Broadcasts S1024x3
  broadcasts_S1x256_S1024x256 : S1x256.Broadcasts S1024x256
  slices_S1024x3_o0_0_S1024x2 : S1024x3.Slices ![0, 0] S1024x2
  slices_S1024x3_o0_2_S1024x1 : S1024x3.Slices ![0, 2] S1024x1
  reduces_S1024x2_S1024 : S1024x2.Reduces [1] S1024
  broadcasts_S1024x1_S1024x2 : S1024x1.Broadcasts S1024x2
  concatenates_S1024x2_S1024x1_S1024x3_d1 : Shape.Concatenates [S1024x2, S1024x1] S1024x3 1
  broadcasts_S1x384_S1024x384 : S1x384.Broadcasts S1024x384
  broadcasts_S1x7_S1024x7 : S1x7.Broadcasts S1024x7
  slices_S1024x7_o0_0_S1024x3 : S1024x7.Slices ![0, 0] S1024x3
  slices_S1024x7_o0_3_S1024x3 : S1024x7.Slices ![0, 3] S1024x3
  slices_S1024x7_o0_6_S1024x1 : S1024x7.Slices ![0, 6] S1024x1
  dot_S1024x3_S3x256_S1024x256_1_0_0_1_n_n_wf : DotDims.WF S1024x3 S3x256 S1024x256 [1] [0] [0] [1] [] []
  dot_S1024x256_S256x256_S1024x256_1_0_0_1_n_n_wf : DotDims.WF S1024x256 S256x256 S1024x256 [1] [0] [0] [1] [] []
  dot_S1024x256_S256x3_S1024x3_1_0_0_1_n_n_wf : DotDims.WF S1024x256 S256x3 S1024x3 [1] [0] [0] [1] [] []
  dot_S1024x3_S3x384_S1024x384_1_0_0_1_n_n_wf : DotDims.WF S1024x3 S3x384 S1024x384 [1] [0] [0] [1] [] []
  dot_S1024x384_S384x384_S1024x384_1_0_0_1_n_n_wf : DotDims.WF S1024x384 S384x384 S1024x384 [1] [0] [0] [1] [] []
  dot_S1024x384_S384x7_S1024x7_1_0_0_1_n_n_wf : DotDims.WF S1024x384 S384x7 S1024x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S262144x3.size a
  hwx0_0 : ∀ i : grid0.Coords, EltTy.bits .f32 = 32 ∨ (Rect.block (s := S262144x3) S1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x3.size a ≤ S1x3.size a
  hwx0_1 : ∀ i : grid0.Coords, EltTy.bits .f32 = 32 ∨ (Rect.block (s := S1x3) S1x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x256.size a ≤ S3x256.size a
  hwx0_2 : ∀ i : grid0.Coords, EltTy.bits .bf16 = 32 ∨ (Rect.block (s := S3x256) S3x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x3.size a ≤ S256x3.size a
  hwx0_6 : ∀ i : grid0.Coords, EltTy.bits .bf16 = 32 ∨ (Rect.block (s := S256x3) S256x3.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x3.size a ≤ S1x3.size a
  hwx0_7 : ∀ i : grid0.Coords, EltTy.bits .f32 = 32 ∨ (Rect.block (s := S1x3) S1x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x384.size a ≤ S3x384.size a
  hwx0_8 : ∀ i : grid0.Coords, EltTy.bits .bf16 = 32 ∨ (Rect.block (s := S3x384) S3x384.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x384.size a ≤ S1x384.size a
  hwx0_9 : ∀ i : grid0.Coords, EltTy.bits .f32 = 32 ∨ (Rect.block (s := S1x384) S1x384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S384x384.size a ≤ S384x384.size a
  hwx0_10 : ∀ i : grid0.Coords, EltTy.bits .bf16 = 32 ∨ (Rect.block (s := S384x384) S384x384.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x384.size a ≤ S1x384.size a
  hwx0_11 : ∀ i : grid0.Coords, EltTy.bits .f32 = 32 ∨ (Rect.block (s := S1x384) S1x384.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S384x7.size a ≤ S384x7.size a
  hwx0_12 : ∀ i : grid0.Coords, EltTy.bits .bf16 = 32 ∨ (Rect.block (s := S384x7) S384x7.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x7.size a ≤ S1x7.size a
  hwx0_13 : ∀ i : grid0.Coords, EltTy.bits .f32 = 32 ∨ (Rect.block (s := S1x7) S1x7.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x3.size a ≤ S262144x3.size a
  hwx0_14 : ∀ i : grid0.Coords, EltTy.bits .f32 = 32 ∨ (Rect.block (s := S262144x3) S1024x3.size (cc0_transform_14 i) (hinb0_14 i)).WholeWords (EltTy.packing .f32)

variable [Facts₀]

def dot_S1024x3_S3x256_S1024x256_1_0_0_1_n_n : DotDims S1024x3 S3x256 S1024x256 where
  lhsContracting := [1]
  rhsContracting := [0]
  lhsNonContracting := [0]
  rhsNonContracting := [1]
  lhsBatch := []
  rhsBatch := []
  wf := dot_S1024x3_S3x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x3_S1024x3_1_0_0_1_n_n : DotDims S1024x256 S256x3 S1024x3 where
  lhsContracting := [1]
  rhsContracting := [0]
  lhsNonContracting := [0]
  rhsNonContracting := [1]
  lhsBatch := []
  rhsBatch := []
  wf := dot_S1024x256_S256x3_S1024x3_1_0_0_1_n_n_wf
def dot_S1024x3_S3x384_S1024x384_1_0_0_1_n_n : DotDims S1024x3 S3x384 S1024x384 where
  lhsContracting := [1]
  rhsContracting := [0]
  lhsNonContracting := [0]
  rhsNonContracting := [1]
  lhsBatch := []
  rhsBatch := []
  wf := dot_S1024x3_S3x384_S1024x384_1_0_0_1_n_n_wf
def dot_S1024x384_S384x384_S1024x384_1_0_0_1_n_n : DotDims S1024x384 S384x384 S1024x384 where
  lhsContracting := [1]
  rhsContracting := [0]
  lhsNonContracting := [0]
  rhsNonContracting := [1]
  lhsBatch := []
  rhsBatch := []
  wf := dot_S1024x384_S384x384_S1024x384_1_0_0_1_n_n_wf
def dot_S1024x384_S384x7_S1024x7_1_0_0_1_n_n : DotDims S1024x384 S384x7 S1024x7 where
  lhsContracting := [1]
  rhsContracting := [0]
  lhsNonContracting := [0]
  rhsNonContracting := [1]
  lhsBatch := []
  rhsBatch := []
  wf := dot_S1024x384_S384x7_S1024x7_1_0_0_1_n_n_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S3x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v50) S256x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v51) S3x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S1x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v52) S384x384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v35) S1x384.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v53) S384x7.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v47) S1x7.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v54) S1024x3.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S262144x3 : Shape := ⟨2, ![262144, 3]⟩
abbrev S3 : Shape := ⟨1, ![3]⟩
abbrev S3x128 : Shape := ⟨2, ![3, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S128x1 : Shape := ⟨2, ![128, 1]⟩
abbrev S1 : Shape := ⟨1, ![1]⟩
abbrev S2x128 : Shape := ⟨2, ![2, 128]⟩
abbrev S128x3 : Shape := ⟨2, ![128, 3]⟩
abbrev S1x3 : Shape := ⟨2, ![1, 3]⟩
abbrev S_ : Shape := ⟨0, ![]⟩
abbrev S262144 : Shape := ⟨1, ![262144]⟩
abbrev S262144x1 : Shape := ⟨2, ![262144, 1]⟩
abbrev S262144x128 : Shape := ⟨2, ![262144, 128]⟩
abbrev S1x128 : Shape := ⟨2, ![1, 128]⟩
abbrev S262144x2 : Shape := ⟨2, ![262144, 2]⟩
abbrev S1x2 : Shape := ⟨2, ![1, 2]⟩
abbrev S1x1 : Shape := ⟨2, ![1, 1]⟩

abbrev nBuf : Space → Nat
  | .hbm => 240
  | .vmem => 0
  | .smem => 0
  | _ => 0

abbrev hbmTy0_0 (i : Nat) : BufTy := match i % 128 with
  | 0 => ⟨S262144x3, .f32⟩
  | 1 => ⟨S3, .f32⟩
  | 2 => ⟨S3x128, .f32⟩
  | 3 => ⟨S128, .f32⟩
  | 4 => ⟨S128x128, .f32⟩
  | 5 => ⟨S128, .f32⟩
  | 6 => ⟨S128x2, .f32⟩
  | 7 => ⟨S2, .f32⟩
  | 8 => ⟨S3x128, .f32⟩
  | 9 => ⟨S128, .f32⟩
  | 10 => ⟨S128x128, .f32⟩
  | 11 => ⟨S128, .f32⟩
  | 12 => ⟨S128x1, .f32⟩
  | 13 => ⟨S1, .f32⟩
  | 14 => ⟨S2x128, .f32⟩
  | 15 => ⟨S128, .f32⟩
  | 16 => ⟨S128x128, .f32⟩
  | 17 => ⟨S128, .f32⟩
  | 18 => ⟨S128x3, .f32⟩
  | 19 => ⟨S3, .f32⟩
  | 20 => ⟨S3x128, .f32⟩
  | 21 => ⟨S128, .f32⟩
  | 22 => ⟨S128x128, .f32⟩
  | 23 => ⟨S128, .f32⟩
  | 24 => ⟨S128x3, .f32⟩
  | 25 => ⟨S3, .f32⟩
  | 26 => ⟨S2x128, .f32⟩
  | 27 => ⟨S128, .f32⟩
  | 28 => ⟨S128x128, .f32⟩
  | 29 => ⟨S128, .f32⟩
  | 30 => ⟨S128x1, .f32⟩
  | 31 => ⟨S1, .f32⟩
  | 32 => ⟨S1x3, .f32⟩
  | 33 => ⟨S262144x3, .f32⟩
  | 34 => ⟨S262144x3, .f32⟩
  | 35 => ⟨S262144x3, .f32⟩
  | 36 => ⟨S_, .f32⟩
  | 37 => ⟨S262144, .f32⟩
  | 38 => ⟨S262144, .f32⟩
  | 39 => ⟨S262144x3, .f32⟩
  | 40 => ⟨S_, .f32⟩
  | 41 => ⟨S262144, .f32⟩
  | 42 => ⟨S262144x1, .f32⟩
  | 43 => ⟨S262144x1, .f32⟩
  | 44 => ⟨S_, .f32⟩
  | 45 => ⟨S262144x1, .f32⟩
  | 46 => ⟨S262144x1, .f32⟩
  | 47 => ⟨S262144x3, .f32⟩
  | 48 => ⟨S262144x3, .f32⟩
  | 49 => ⟨S_, .f32⟩
  | 50 => ⟨S262144, .f32⟩
  | 51 => ⟨S262144, .f32⟩
  | 52 => ⟨S262144x128, .f32⟩
  | 53 => ⟨S1x128, .f32⟩
  | 54 => ⟨S262144x128, .f32⟩
  | 55 => ⟨S262144x128, .f32⟩
  | 56 => ⟨S_, .f32⟩
  | 57 => ⟨S262144x128, .f32⟩
  | 58 => ⟨S262144x128, .f32⟩
  | 59 => ⟨S262144x128, .f32⟩
  | 60 => ⟨S1x128, .f32⟩
  | 61 => ⟨S262144x128, .f32⟩
  | 62 => ⟨S262144x128, .f32⟩
  | 63 => ⟨S_, .f32⟩
  | 64 => ⟨S262144x128, .f32⟩
  | 65 => ⟨S262144x128, .f32⟩
  | 66 => ⟨S262144x2, .f32⟩
  | 67 => ⟨S1x2, .f32⟩
  | 68 => ⟨S262144x2, .f32⟩
  | 69 => ⟨S262144x2, .f32⟩
  | 70 => ⟨S262144x2, .f32⟩
  | 71 => ⟨S_, .f32⟩
  | 72 => ⟨S262144, .f32⟩
  | 73 => ⟨S262144x1, .f32⟩
  | 74 => ⟨S262144x1, .f32⟩
  | 75 => ⟨S_, .f32⟩
  | 76 => ⟨S262144x1, .f32⟩
  | 77 => ⟨S262144x1, .f32⟩
  | 78 => ⟨S262144x2, .f32⟩
  | 79 => ⟨S262144x2, .f32⟩
  | 80 => ⟨S262144x128, .f32⟩
  | 81 => ⟨S1x128, .f32⟩
  | 82 => ⟨S262144x128, .f32⟩
  | 83 => ⟨S262144x128, .f32⟩
  | 84 => ⟨S_, .f32⟩
  | 85 => ⟨S262144x128, .f32⟩
  | 86 => ⟨S262144x128, .f32⟩
  | 87 => ⟨S262144x128, .f32⟩
  | 88 => ⟨S1x128, .f32⟩
  | 89 => ⟨S262144x128, .f32⟩
  | 90 => ⟨S262144x128, .f32⟩
  | 91 => ⟨S_, .f32⟩
  | 92 => ⟨S262144x128, .f32⟩
  | 93 => ⟨S262144x128, .f32⟩
  | 94 => ⟨S262144x1, .f32⟩
  | 95 => ⟨S1x1, .f32⟩
  | 96 => ⟨S262144x1, .f32⟩
  | 97 => ⟨S262144x1, .f32⟩
  | 98 => ⟨S262144, .f32⟩
  | 99 => ⟨S_, .f32⟩
  | 100 => ⟨S262144, .f32⟩
  | 101 => ⟨S262144, .f32⟩
  | 102 => ⟨S262144, .f32⟩
  | 103 => ⟨S262144, .f32⟩
  | 104 => ⟨S262144, .i1⟩
  | 105 => ⟨S262144, .f32⟩
  | 106 => ⟨S262144, .f32⟩
  | 107 => ⟨S262144, .f32⟩
  | 108 => ⟨S262144, .f32⟩
  | 109 => ⟨S262144, .f32⟩
  | 110 => ⟨S262144, .f32⟩
  | 111 => ⟨S262144, .f32⟩
  | 112 => ⟨S262144, .f32⟩
  | 113 => ⟨S262144x1, .f32⟩
  | 114 => ⟨S262144x1, .f32⟩
  | 115 => ⟨S262144x1, .f32⟩
  | 116 => ⟨S262144x2, .f32⟩
  | 117 => ⟨S262144x2, .f32⟩
  | 118 => ⟨S262144x2, .f32⟩
  | 119 => ⟨S_, .f32⟩
  | 120 => ⟨S262144, .f32⟩
  | 121 => ⟨S262144, .f32⟩
  | 122 => ⟨S_, .f32⟩
  | 123 => ⟨S262144, .f32⟩
  | 124 => ⟨S262144, .f32⟩
  | 125 => ⟨S262144x2, .f32⟩
  | 126 => ⟨S_, .f32⟩
  | 127 => ⟨S262144, .f32⟩
  | _ => ⟨S262144x3, .f32⟩

abbrev hbmTy0_1 (i : Nat) : BufTy := match i % 128 with
  | 0 => ⟨S262144x1, .f32⟩
  | 1 => ⟨S262144x1, .f32⟩
  | 2 => ⟨S_, .f32⟩
  | 3 => ⟨S262144x1, .f32⟩
  | 4 => ⟨S262144x1, .f32⟩
  | 5 => ⟨S262144x2, .f32⟩
  | 6 => ⟨S262144x2, .f32⟩
  | 7 => ⟨S262144x128, .f32⟩
  | 8 => ⟨S1x128, .f32⟩
  | 9 => ⟨S262144x128, .f32⟩
  | 10 => ⟨S262144x128, .f32⟩
  | 11 => ⟨S_, .f32⟩
  | 12 => ⟨S262144x128, .f32⟩
  | 13 => ⟨S262144x128, .f32⟩
  | 14 => ⟨S262144x128, .f32⟩
  | 15 => ⟨S1x128, .f32⟩
  | 16 => ⟨S262144x128, .f32⟩
  | 17 => ⟨S262144x128, .f32⟩
  | 18 => ⟨S_, .f32⟩
  | 19 => ⟨S262144x128, .f32⟩
  | 20 => ⟨S262144x128, .f32⟩
  | 21 => ⟨S262144x3, .f32⟩
  | 22 => ⟨S1x3, .f32⟩
  | 23 => ⟨S262144x3, .f32⟩
  | 24 => ⟨S262144x3, .f32⟩
  | 25 => ⟨S262144x3, .f32⟩
  | 26 => ⟨S_, .f32⟩
  | 27 => ⟨S262144, .f32⟩
  | 28 => ⟨S262144x1, .f32⟩
  | 29 => ⟨S262144x1, .f32⟩
  | 30 => ⟨S_, .f32⟩
  | 31 => ⟨S262144x1, .f32⟩
  | 32 => ⟨S262144x1, .f32⟩
  | 33 => ⟨S262144x3, .f32⟩
  | 34 => ⟨S262144x3, .f32⟩
  | 35 => ⟨S_, .f32⟩
  | 36 => ⟨S262144, .f32⟩
  | 37 => ⟨S262144, .f32⟩
  | 38 => ⟨S262144, .f32⟩
  | 39 => ⟨S262144x1, .f32⟩
  | 40 => ⟨S262144x3, .f32⟩
  | 41 => ⟨S262144x128, .f32⟩
  | 42 => ⟨S1x128, .f32⟩
  | 43 => ⟨S262144x128, .f32⟩
  | 44 => ⟨S262144x128, .f32⟩
  | 45 => ⟨S_, .f32⟩
  | 46 => ⟨S262144x128, .f32⟩
  | 47 => ⟨S262144x128, .f32⟩
  | 48 => ⟨S262144x128, .f32⟩
  | 49 => ⟨S1x128, .f32⟩
  | 50 => ⟨S262144x128, .f32⟩
  | 51 => ⟨S262144x128, .f32⟩
  | 52 => ⟨S_, .f32⟩
  | 53 => ⟨S262144x128, .f32⟩
  | 54 => ⟨S262144x128, .f32⟩
  | 55 => ⟨S262144x3, .f32⟩
  | 56 => ⟨S1x3, .f32⟩
  | 57 => ⟨S262144x3, .f32⟩
  | 58 => ⟨S262144x3, .f32⟩
  | 59 => ⟨S262144x3, .f32⟩
  | 60 => ⟨S262144x3, .f32⟩
  | 61 => ⟨S_, .f32⟩
  | 62 => ⟨S262144, .f32⟩
  | 63 => ⟨S262144x1, .f32⟩
  | 64 => ⟨S262144x1, .f32⟩
  | 65 => ⟨S_, .f32⟩
  | 66 => ⟨S262144x1, .f32⟩
  | 67 => ⟨S262144x1, .f32⟩
  | 68 => ⟨S262144x3, .f32⟩
  | 69 => ⟨S262144x3, .f32⟩
  | 70 => ⟨S262144x128, .f32⟩
  | 71 => ⟨S1x128, .f32⟩
  | 72 => ⟨S262144x128, .f32⟩
  | 73 => ⟨S262144x128, .f32⟩
  | 74 => ⟨S_, .f32⟩
  | 75 => ⟨S262144x128, .f32⟩
  | 76 => ⟨S262144x128, .f32⟩
  | 77 => ⟨S262144x128, .f32⟩
  | 78 => ⟨S1x128, .f32⟩
  | 79 => ⟨S262144x128, .f32⟩
  | 80 => ⟨S262144x128, .f32⟩
  | 81 => ⟨S_, .f32⟩
  | 82 => ⟨S262144x128, .f32⟩
  | 83 => ⟨S262144x128, .f32⟩
  | 84 => ⟨S262144x1, .f32⟩
  | 85 => ⟨S1x1, .f32⟩
  | 86 => ⟨S262144x1, .f32⟩
  | 87 => ⟨S262144x1, .f32⟩
  | 88 => ⟨S262144, .f32⟩
  | 89 => ⟨S_, .f32⟩
  | 90 => ⟨S262144, .f32⟩
  | 91 => ⟨S262144, .f32⟩
  | 92 => ⟨S262144, .f32⟩
  | 93 => ⟨S262144, .f32⟩
  | 94 => ⟨S262144, .i1⟩
  | 95 => ⟨S262144, .f32⟩
  | 96 => ⟨S262144, .f32⟩
  | 97 => ⟨S262144, .f32⟩
  | 98 => ⟨S262144, .f32⟩
  | 99 => ⟨S262144, .f32⟩
  | 100 => ⟨S262144, .f32⟩
  | 101 => ⟨S262144, .f32⟩
  | 102 => ⟨S262144, .f32⟩
  | 103 => ⟨S262144x1, .f32⟩
  | 104 => ⟨S262144x3, .f32⟩
  | 105 => ⟨S262144x3, .f32⟩
  | 106 => ⟨S262144x1, .f32⟩
  | 107 => ⟨S262144x3, .f32⟩
  | 108 => ⟨S262144x3, .f32⟩
  | 109 => ⟨S1x3, .f32⟩
  | 110 => ⟨S262144x3, .f32⟩
  | 111 => ⟨S262144x3, .f32⟩
  | _ => ⟨S262144x3, .f32⟩

abbrev hbmTy (i : Nat) : BufTy := match i / 128 with
  | 0 => hbmTy0_0 i
  | 1 => hbmTy0_1 i
  | _ => ⟨S262144x3, .f32⟩

abbrev bufTy : (tb : Table) → Fin (tcTables nBuf tb) → BufTy
  | .hbm, ⟨i, _⟩ => hbmTy i
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_v3 : Ref sig .tc := ⟨.hbm, 38, rfl⟩
abbrev main_call1_v0 : Ref sig .tc := ⟨.hbm, 39, rfl⟩
abbrev main_call1_cst : Ref sig .tc := ⟨.hbm, 40, rfl⟩
abbrev main_call1_v1 : Ref sig .tc := ⟨.hbm, 41, rfl⟩
abbrev main_call1_v2 : Ref sig .tc := ⟨.hbm, 42, rfl⟩
abbrev main_v4 : Ref sig .tc := ⟨.hbm, 43, rfl⟩
abbrev main_cst : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_cst_0 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_call2_cst : Ref sig .tc := ⟨.hbm, 56, rfl⟩
abbrev main_call2_v0 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_call3_cst : Ref sig .tc := ⟨.hbm, 63, rfl⟩
abbrev main_call3_v0 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_call4_v0 : Ref sig .tc := ⟨.hbm, 70, rfl⟩
abbrev main_call4_cst : Ref sig .tc := ⟨.hbm, 71, rfl⟩
abbrev main_call4_v1 : Ref sig .tc := ⟨.hbm, 72, rfl⟩
abbrev main_call4_v2 : Ref sig .tc := ⟨.hbm, 73, rfl⟩
abbrev main_v25 : Ref sig .tc := ⟨.hbm, 74, rfl⟩
abbrev main_cst_1 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_call5_cst : Ref sig .tc := ⟨.hbm, 84, rfl⟩
abbrev main_call5_v0 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_call6_cst : Ref sig .tc := ⟨.hbm, 91, rfl⟩
abbrev main_call6_v0 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_call7_cst : Ref sig .tc := ⟨.hbm, 99, rfl⟩
abbrev main_call7_v0 : Ref sig .tc := ⟨.hbm, 100, rfl⟩
abbrev main_call7_v1 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_v5 : Ref sig .tc := ⟨.hbm, 105, rfl⟩
abbrev main_call7_v6 : Ref sig .tc := ⟨.hbm, 106, rfl⟩
abbrev main_call7_v7 : Ref sig .tc := ⟨.hbm, 107, rfl⟩
abbrev main_call7_v8 : Ref sig .tc := ⟨.hbm, 108, rfl⟩
abbrev main_call7_v9 : Ref sig .tc := ⟨.hbm, 109, rfl⟩
abbrev main_call7_v10 : Ref sig .tc := ⟨.hbm, 110, rfl⟩
abbrev main_call7_v11 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_call8_v0 : Ref sig .tc := ⟨.hbm, 118, rfl⟩
abbrev main_call8_cst : Ref sig .tc := ⟨.hbm, 119, rfl⟩
abbrev main_call8_v1 : Ref sig .tc := ⟨.hbm, 120, rfl⟩
abbrev main_v51 : Ref sig .tc := ⟨.hbm, 121, rfl⟩
abbrev main_cst_2 : Ref sig .tc := ⟨.hbm, 122, rfl⟩
abbrev main_v52 : Ref sig .tc := ⟨.hbm, 123, rfl⟩
abbrev main_v53 : Ref sig .tc := ⟨.hbm, 124, rfl⟩
abbrev main_call9_v0 : Ref sig .tc := ⟨.hbm, 125, rfl⟩
abbrev main_call9_cst : Ref sig .tc := ⟨.hbm, 126, rfl⟩
abbrev main_call9_v1 : Ref sig .tc := ⟨.hbm, 127, rfl⟩
abbrev main_call9_v2 : Ref sig .tc := ⟨.hbm, 128, rfl⟩
abbrev main_v54 : Ref sig .tc := ⟨.hbm, 129, rfl⟩
abbrev main_cst_3 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_call10_cst : Ref sig .tc := ⟨.hbm, 139, rfl⟩
abbrev main_call10_v0 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_call11_cst : Ref sig .tc := ⟨.hbm, 146, rfl⟩
abbrev main_call11_v0 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_call12_v0 : Ref sig .tc := ⟨.hbm, 153, rfl⟩
abbrev main_call12_cst : Ref sig .tc := ⟨.hbm, 154, rfl⟩
abbrev main_call12_v1 : Ref sig .tc := ⟨.hbm, 155, rfl⟩
abbrev main_call12_v2 : Ref sig .tc := ⟨.hbm, 156, rfl⟩
abbrev main_v73 : Ref sig .tc := ⟨.hbm, 157, rfl⟩
abbrev main_cst_4 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_cst_5 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_call13_cst : Ref sig .tc := ⟨.hbm, 173, rfl⟩
abbrev main_call13_v0 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_call14_cst : Ref sig .tc := ⟨.hbm, 180, rfl⟩
abbrev main_call14_v0 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_call15_v0 : Ref sig .tc := ⟨.hbm, 188, rfl⟩
abbrev main_call15_cst : Ref sig .tc := ⟨.hbm, 189, rfl⟩
abbrev main_call15_v1 : Ref sig .tc := ⟨.hbm, 190, rfl⟩
abbrev main_call15_v2 : Ref sig .tc := ⟨.hbm, 191, rfl⟩
abbrev main_v98 : Ref sig .tc := ⟨.hbm, 192, rfl⟩
abbrev main_cst_6 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_call16_cst : Ref sig .tc := ⟨.hbm, 202, rfl⟩
abbrev main_call16_v0 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_v111 : Ref sig .tc := ⟨.hbm, 208, rfl⟩
abbrev main_call17_cst : Ref sig .tc := ⟨.hbm, 209, rfl⟩
abbrev main_call17_v0 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_call18_cst : Ref sig .tc := ⟨.hbm, 217, rfl⟩
abbrev main_call18_v0 : Ref sig .tc := ⟨.hbm, 218, rfl⟩
abbrev main_call18_v1 : Ref sig .tc := ⟨.hbm, 219, rfl⟩
abbrev main_call18_v2 : Ref sig .tc := ⟨.hbm, 220, rfl⟩
abbrev main_call18_v3 : Ref sig .tc := ⟨.hbm, 221, rfl⟩
abbrev main_call18_v4 : Ref sig .tc := ⟨.hbm, 222, rfl⟩
abbrev main_call18_v5 : Ref sig .tc := ⟨.hbm, 223, rfl⟩
abbrev main_call18_v6 : Ref sig .tc := ⟨.hbm, 224, rfl⟩
abbrev main_call18_v7 : Ref sig .tc := ⟨.hbm, 225, rfl⟩
abbrev main_call18_v8 : Ref sig .tc := ⟨.hbm, 226, rfl⟩
abbrev main_call18_v9 : Ref sig .tc := ⟨.hbm, 227, rfl⟩
abbrev main_call18_v10 : Ref sig .tc := ⟨.hbm, 228, rfl⟩
abbrev main_call18_v11 : Ref sig .tc := ⟨.hbm, 229, rfl⟩
abbrev main_v118 : Ref sig .tc := ⟨.hbm, 230, rfl⟩
abbrev main_v119 : Ref sig .tc := ⟨.hbm, 231, rfl⟩
abbrev main_v120 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  reducesTo_S262144x3_S262144_d1 : S262144x3.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x3_0_1 : S262144x1.BroadcastsInDim S262144x3 (![0, 1] : Fin 2 → Fin S262144x3.rank)
  bcast_S_S262144 : S_.BroadcastsInDim S262144 (![] : Fin 0 → Fin S262144.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S2_S1x2_1 : S2.BroadcastsInDim S1x2 (![1] : Fin 1 → Fin S1x2.rank)
  bcast_S1x2_S262144x2_0_1 : S1x2.BroadcastsInDim S262144x2 (![0, 1] : Fin 2 → Fin S262144x2.rank)
  reducesTo_S262144x2_S262144_d1 : S262144x2.ReducesTo [1] S262144
  bcast_S262144x1_S262144x2_0_1 : S262144x1.BroadcastsInDim S262144x2 (![0, 1] : Fin 2 → Fin S262144x2.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S262144 : S262144x1.ShapeCasts S262144
  concatenates_S262144x2_S262144x1_S262144x3_d1 : Shape.Concatenates [S262144x2, S262144x1] S262144x3 1
  dot_S262144x3_S3x128_S262144x128_1_0_0_1_n_n_wf : DotDims.WF S262144x3 S3x128 S262144x128 [1] [0] [0] [1] [] []
  dot_S262144x128_S128x128_S262144x128_1_0_0_1_n_n_wf : DotDims.WF S262144x128 S128x128 S262144x128 [1] [0] [0] [1] [] []
  dot_S262144x128_S128x2_S262144x2_1_0_0_1_n_n_wf : DotDims.WF S262144x128 S128x2 S262144x2 [1] [0] [0] [1] [] []
  dot_S262144x128_S128x1_S262144x1_1_0_0_1_n_n_wf : DotDims.WF S262144x128 S128x1 S262144x1 [1] [0] [0] [1] [] []
  dot_S262144x2_S2x128_S262144x128_1_0_0_1_n_n_wf : DotDims.WF S262144x2 S2x128 S262144x128 [1] [0] [0] [1] [] []
  dot_S262144x128_S128x3_S262144x3_1_0_0_1_n_n_wf : DotDims.WF S262144x128 S128x3 S262144x3 [1] [0] [0] [1] [] []

variable [Facts₀]

def dot_S262144x3_S3x128_S262144x128_1_0_0_1_n_n : DotDims S262144x3 S3x128 S262144x128 where
  lhsContracting := [1]
  rhsContracting := [0]
  lhsNonContracting := [0]
  rhsNonContracting := [1]
  lhsBatch := []
  rhsBatch := []
  wf := dot_S262144x3_S3x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x2_S262144x2_1_0_0_1_n_n : DotDims S262144x128 S128x2 S262144x2 where
  lhsContracting := [1]
  rhsContracting := [0]
  lhsNonContracting := [0]
  rhsNonContracting := [1]
  lhsBatch := []
  rhsBatch := []
  wf := dot_S262144x128_S128x2_S262144x2_1_0_0_1_n_n_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf
def dot_S262144x2_S2x128_S262144x128_1_0_0_1_n_n : DotDims S262144x2 S2x128 S262144x128 where
  lhsContracting := [1]
  rhsContracting := [0]
  lhsNonContracting := [0]
  rhsNonContracting := [1]
  lhsBatch := []
  rhsBatch := []
  wf := dot_S262144x2_S2x128_S262144x128_1_0_0_1_n_n_wf
def dot_S262144x128_S128x3_S262144x3_1_0_0_1_n_n : DotDims S262144x128 S128x3 S262144x3 where
  lhsContracting := [1]
  rhsContracting := [0]
  lhsNonContracting := [0]
  rhsNonContracting := [1]
  lhsBatch := []
  rhsBatch := []
  wf := dot_S262144x128_S128x3_S262144x3_1_0_0_1_n_n_wf

class Facts : Prop extends Facts₀ where

variable [Facts]
-- ==== Proof.KBodyDef.lean ====
/-
  The value the kernel body stores into its output block, as ONE term of the fourteen blocks it loads: the
  printed arithmetic (the skeleton's payloads) composed in the order the body runs them.
-/
import proofs.«158485_j30597347016754_2_alg».proof.Proof.Gen.Kernel.Skeleton

noncomputable section

namespace Cert.Kernel.HFrame

open Idealize.ShloMosaic Cert.Kernel Cert.Kernel.Gen

variable {F : FTy → Type} [FloatOps F]

/-- The encoder's output rows `w` (1024 × 2) from the point's row block `x0`, the center row `x1` and the first
    fused tower's weights `x2 … x7`. -/
def bodyW (x0 : Vec F S1024x3 .f32) (x1 : Vec F S1x3 .f32) (x2 : Vec F S3x256 .bf16) (x3 : Vec F S1x256 .f32)
    (x4 : Vec F S256x256 .bf16) (x5 : Vec F S1x256 .f32) (x6 : Vec F S256x3 .bf16) (x7 : Vec F S1x3 .f32) : FVec F S1024x2 .f32 :=
  k0_pay17 (k0_pay3 x2) (k0_pay4 x3) (k0_pay5 x4) (k0_pay6 x5) (k0_pay7 x6) (k0_pay8 x7) (k0_pay15 x0 x1) (k0_pay16 x0 x1)

/-- The stored block: the decoder applied to the encoder's rows, with the second fused tower's weights `x8 … x13`. -/
def body0 (x0 : Vec F S1024x3 .f32) (x1 : Vec F S1x3 .f32) (x2 : Vec F S3x256 .bf16) (x3 : Vec F S1x256 .f32)
    (x4 : Vec F S256x256 .bf16) (x5 : Vec F S1x256 .f32) (x6 : Vec F S256x3 .bf16) (x7 : Vec F S1x3 .f32)
    (x8 : Vec F S3x384 .bf16) (x9 : Vec F S1x384 .f32) (x10 : Vec F S384x384 .bf16) (x11 : Vec F S1x384 .f32)
    (x12 : Vec F S384x7 .bf16) (x13 : Vec F S1x7 .f32) : FVec F S1024x3 .f32 :=
  k0_pay1 (k0_pay2 x1) (k0_pay19 (bodyW x0 x1 x2 x3 x4 x5 x6 x7))
    (k0_pay21 (k0_pay9 x8) (k0_pay10 x9) (k0_pay11 x10) (k0_pay12 x11) (k0_pay13 x12) (k0_pay14 x13) (bodyW x0 x1 x2 x3 x4 x5 x6 x7))
    (k0_pay22 (k0_pay9 x8) (k0_pay10 x9) (k0_pay11 x10) (k0_pay12 x11) (k0_pay13 x12) (k0_pay14 x13) (bodyW x0 x1 x2 x3 x4 x5 x6 x7))
    (k0_pay23 (k0_pay9 x8) (k0_pay10 x9) (k0_pay11 x10) (k0_pay12 x11) (k0_pay13 x12) (k0_pay14 x13) (bodyW x0 x1 x2 x3 x4 x5 x6 x7))

end Cert.Kernel.HFrame

end
-- ==== Proof.KFrame.lean ====
/-
  The frame of the program: every weakly fair execution terminates, nothing faults, and the thirty-two argument
  arrays end as they began.

  The program is a stretch of host operations (they build the fused weight arrays and write no argument), then one
  region over a grid of 256 points. At a point the body reads fourteen staged blocks whole (the point's 1024 rows of the
  input, and thirteen arrays that are the same at every point), and stores one whole 1024 × 3 block, a pure function of
  what it read. So each staged buffer is described point by point: an input's holds its block of the array as the region
  found it; the output's holds that function of the input blocks. The run of the region over these descriptions gives
  every array after the run, and the arguments among them are untouched: the one argument a window stages is only read,
  and no host operation writes an argument.
-/
import proofs.«158485_j30597347016754_2_alg».proof.Proof.Gen.Kernel.Launch
import proofs.«158485_j30597347016754_2_alg».proof.Proof.Gen.Kernel.Skeleton
import proofs.«158485_j30597347016754_2_alg».proof.Proof.Gen.Kernel.Points
import proofs.«158485_j30597347016754_2_alg».proof.Proof.KBodyDef
import Idealize.ShloMosaic.Lib.Pipeline.FrameBody
import Idealize.ShloMosaic.Lib.Ring
import Idealize.ShloMosaic.Lib.Tactic

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- A core's buffers when the region is entered: the launch contents after the host operations. -/
abbrev V (c : Dev nD) (b : Ref sig .tc) : Buf (Elt F) ((c : Thread nD τ).loc b) :=
  StableHlo.after hostOps0 (fun b => m (c, b)) b

set_option maxHeartbeats 4000000 in
theorem hostOps0_fresh : (hostOps0 : List (HloOp τ sig (Elt F))).Forall fun op => op.fresh = ∅ := by
  simp only [List.Forall]; repeat' constructor

set_option maxHeartbeats 4000000 in
/-- The program is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument array: the region finds each as launched. -/

set_option maxHeartbeats 4000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg29 (c : Dev nD) : V m c main_arg29 = m ((c : Thread nD τ).loc main_arg29) :=
  StableHlo.after_of_forall_not_mem (b := Proc.devRef .tc main_arg29) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg30 (c : Dev nD) : V m c main_arg30 = m ((c : Thread nD τ).loc main_arg30) :=
  StableHlo.after_of_forall_not_mem (b := Proc.devRef .tc main_arg30) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg31 (c : Dev nD) : V m c main_arg31 = m ((c : Thread nD τ).loc main_arg31) :=
  StableHlo.after_of_forall_not_mem (b := Proc.devRef .tc main_arg31) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- A window's block at a point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point, whether it was fetched there or earlier at the
    same block index, for any description whose array is the region-entry one and whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the region -/

set_option maxHeartbeats 4000000 in
/-- From a run that ends with every staged array at what the descriptions say and every other buffer as the region found
    it: the argument the first window stages is an input's array, kept; the others are buffers no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c),
      ((h c).2 main_arg29 (Pipeline.mem_restRefs_of main_arg29 (by decide) (by decide))).trans (V_main_arg29 m c),
      ((h c).2 main_arg30 (Pipeline.mem_restRefs_of main_arg30 (by decide) (by decide))).trans (V_main_arg30 m c),
      ((h c).2 main_arg31 (Pipeline.mem_restRefs_of main_arg31 (by decide) (by decide))).trans (V_main_arg31 m c)⟩) h

/-! ## What the body reads and writes -/

abbrev rS1024x3 : Rect S1024x3 := Rect.unit (s := S1024x3) ![0, 0] S1024x3.size inb_S1024x3_S1024x3_0_0
abbrev rS1x3 : Rect S1x3 := Rect.unit (s := S1x3) ![0, 0] S1x3.size inb_S1x3_S1x3_0_0
abbrev rS3x256 : Rect S3x256 := Rect.unit (s := S3x256) ![0, 0] S3x256.size inb_S3x256_S3x256_0_0
abbrev rS1x256 : Rect S1x256 := Rect.unit (s := S1x256) ![0, 0] S1x256.size inb_S1x256_S1x256_0_0
abbrev rS256x256 : Rect S256x256 := Rect.unit (s := S256x256) ![0, 0] S256x256.size inb_S256x256_S256x256_0_0
abbrev rS256x3 : Rect S256x3 := Rect.unit (s := S256x3) ![0, 0] S256x3.size inb_S256x3_S256x3_0_0
abbrev rS3x384 : Rect S3x384 := Rect.unit (s := S3x384) ![0, 0] S3x384.size inb_S3x384_S3x384_0_0
abbrev rS1x384 : Rect S1x384 := Rect.unit (s := S1x384) ![0, 0] S1x384.size inb_S1x384_S1x384_0_0
abbrev rS384x384 : Rect S384x384 := Rect.unit (s := S384x384) ![0, 0] S384x384.size inb_S384x384_S384x384_0_0
abbrev rS384x7 : Rect S384x7 := Rect.unit (s := S384x7) ![0, 0] S384x7.size inb_S384x7_S384x7_0_0
abbrev rS1x7 : Rect S1x7 := Rect.unit (s := S1x7) ![0, 0] S1x7.size inb_S1x7_S1x7_0_0

/-- The output window's buffer after the body: its one store, of the whole block, at the stored value. -/
def out0_14 (x0 : Vec F S1024x3 .f32) (x1 : Vec F S1x3 .f32) (x2 : Vec F S3x256 .bf16) (x3 : Vec F S1x256 .f32) (x4 : Vec F S256x256 .bf16) (x5 : Vec F S1x256 .f32) (x6 : Vec F S256x3 .bf16) (x7 : Vec F S1x3 .f32) (x8 : Vec F S3x384 .bf16) (x9 : Vec F S1x384 .f32) (x10 : Vec F S384x384 .bf16) (x11 : Vec F S1x384 .f32) (x12 : Vec F S384x7 .bf16) (x13 : Vec F S1x7 .f32) : Vec F S1024x3 .f32 :=
  View.canon [⟨rS1024x3, body0 (View.ld x0 rS1024x3) (View.ld x1 rS1x3) (View.ld x2 rS3x256) (View.ld x3 rS1x256) (View.ld x4 rS256x256) (View.ld x5 rS1x256) (View.ld x6 rS256x3) (View.ld x7 rS1x3) (View.ld x8 rS3x384) (View.ld x9 rS1x384) (View.ld x10 rS384x384) (View.ld x11 rS1x384) (View.ld x12 rS384x7) (View.ld x13 rS1x7)⟩]

/-- That one store covers the buffer. -/
theorem cover0_14 (p0 : Vec F S1024x3 .f32) (y : S1024x3.Idx) :
    ∃ pc ∈ ([⟨rS1024x3, p0⟩] : List (View.Piece (Elt F) S1024x3 .f32)), y ∈ pc.1.set :=
  View.cover_of_tiled [⟨rS1024x3, p0⟩] S1024x3.size (by rfl) y

/-! ## The body's triple -/

set_option maxHeartbeats 8000000 in
/-- On whole staging buffers, the inputs' at the read contents and the output's at anything, the body runs to a state with
    the inputs' as they were and the output's at the stored value of what was read. -/
theorem sound_kernel (c : Dev nD) (E : Set ℕ) (i : grid0.Coords) (a0 : Memref sig .tc .vmem S1024x3 .f32) (ha0 : a0.IsWhole) (a1 : Memref sig .tc .vmem S1x3 .f32) (ha1 : a1.IsWhole) (a2 : Memref sig .tc .vmem S3x256 .bf16) (ha2 : a2.IsWhole) (a3 : Memref sig .tc .vmem S1x256 .f32) (ha3 : a3.IsWhole) (a4 : Memref sig .tc .vmem S256x256 .bf16) (ha4 : a4.IsWhole) (a5 : Memref sig .tc .vmem S1x256 .f32) (ha5 : a5.IsWhole) (a6 : Memref sig .tc .vmem S256x3 .bf16) (ha6 : a6.IsWhole) (a7 : Memref sig .tc .vmem S1x3 .f32) (ha7 : a7.IsWhole) (a8 : Memref sig .tc .vmem S3x384 .bf16) (ha8 : a8.IsWhole) (a9 : Memref sig .tc .vmem S1x384 .f32) (ha9 : a9.IsWhole) (a10 : Memref sig .tc .vmem S384x384 .bf16) (ha10 : a10.IsWhole) (a11 : Memref sig .tc .vmem S1x384 .f32) (ha11 : a11.IsWhole) (a12 : Memref sig .tc .vmem S384x7 .bf16) (ha12 : a12.IsWhole) (a13 : Memref sig .tc .vmem S1x7 .f32) (ha13 : a13.IsWhole) (a14 : Memref sig .tc .vmem S1024x3 .f32) (ha14 : a14.IsWhole)
    (x0 : Vec F S1024x3 .f32) (x1 : Vec F S1x3 .f32) (x2 : Vec F S3x256 .bf16) (x3 : Vec F S1x256 .f32) (x4 : Vec F S256x256 .bf16) (x5 : Vec F S1x256 .f32) (x6 : Vec F S256x3 .bf16) (x7 : Vec F S1x3 .f32) (x8 : Vec F S3x384 .bf16) (x9 : Vec F S1x384 .f32) (x10 : Vec F S384x384 .bf16) (x11 : Vec F S1x384 .f32) (x12 : Vec F S384x7 .bf16) (x13 : Vec F S1x7 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ (∃ d, owns (c : Thread nD τ) a14 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare (out0_14 x0 x1 x2 x3 x4 x5 x6 x7 x8 x9 x10 x11 x12 x13)) -∗ K ⟨⟩))
      ⊢ wp frame (wpE (defs₀ (F := F)) Variants.none c none) E (cc0__kernel i a0 ha0 a1 ha1 a2 ha2 a3 ha3 a4 ha4 a5 ha5 a6 ha6 a7 ha7 a8 ha8 a9 ha9 a10 ha10 a11 ha11 a12 ha12 a13 ha13 a14 ha14) K := by
  simp only [cc0__kernel_eq_skeleton]; unfold cc0__kernel_skel
  simp only [k0_part1_eq_skeleton, k0_part2_eq_skeleton, k0_part3_eq_skeleton]
  unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover0_14 _)

/-! ## The description of the region -/

/-- Per core: the arrays as the region finds them; after the body at a point each input's buffer holds its block and
    the output's holds the stored value of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 8000000 in
/-- At any point the inputs' buffers hold their blocks, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
set_option maxHeartbeats 8000000 in
/-- Every weakly fair execution terminates, with every staged array at what the descriptions give and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 4000000 in
/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  frame_of m ρ (dats m) (A_eq m) (run_main m ρ)

end Cert.Kernel.HFrame

end
-- ==== Proof.KIBodyDef.lean ====
/-
  The value the kernel body stores into its output block, as ONE term of the fourteen blocks it loads: the
  printed arithmetic (the skeleton's payloads) composed in the order the body runs them.
-/
import proofs.«158485_j30597347016754_2_alg».proof.Proof.Gen.KernelIdeal.Skeleton

noncomputable section

namespace Cert.KernelIdeal.HFrame

open Idealize.ShloMosaic Cert.KernelIdeal Cert.KernelIdeal.Gen

variable {F : FTy → Type} [FloatOps F]

/-- The encoder's output rows `w` (1024 × 2) from the point's row block `x0`, the center row `x1` and the first
    fused tower's weights `x2 … x7`. -/
def bodyW (x0 : Vec F S1024x3 .f32) (x1 : Vec F S1x3 .f32) (x2 : Vec F S3x256 .bf16) (x3 : Vec F S1x256 .f32)
    (x4 : Vec F S256x256 .bf16) (x5 : Vec F S1x256 .f32) (x6 : Vec F S256x3 .bf16) (x7 : Vec F S1x3 .f32) : FVec F S1024x2 .f32 :=
  k0_pay17 (k0_pay3 x2) (k0_pay4 x3) (k0_pay5 x4) (k0_pay6 x5) (k0_pay7 x6) (k0_pay8 x7) (k0_pay15 x0 x1) (k0_pay16 x0 x1)

/-- The stored block: the decoder applied to the encoder's rows, with the second fused tower's weights `x8 … x13`. -/
def body0 (x0 : Vec F S1024x3 .f32) (x1 : Vec F S1x3 .f32) (x2 : Vec F S3x256 .bf16) (x3 : Vec F S1x256 .f32)
    (x4 : Vec F S256x256 .bf16) (x5 : Vec F S1x256 .f32) (x6 : Vec F S256x3 .bf16) (x7 : Vec F S1x3 .f32)
    (x8 : Vec F S3x384 .bf16) (x9 : Vec F S1x384 .f32) (x10 : Vec F S384x384 .bf16) (x11 : Vec F S1x384 .f32)
    (x12 : Vec F S384x7 .bf16) (x13 : Vec F S1x7 .f32) : FVec F S1024x3 .f32 :=
  k0_pay1 (k0_pay2 x1) (k0_pay19 (bodyW x0 x1 x2 x3 x4 x5 x6 x7))
    (k0_pay21 (k0_pay9 x8) (k0_pay10 x9) (k0_pay11 x10) (k0_pay12 x11) (k0_pay13 x12) (k0_pay14 x13) (bodyW x0 x1 x2 x3 x4 x5 x6 x7))
    (k0_pay22 (k0_pay9 x8) (k0_pay10 x9) (k0_pay11 x10) (k0_pay12 x11) (k0_pay13 x12) (k0_pay14 x13) (bodyW x0 x1 x2 x3 x4 x5 x6 x7))
    (k0_pay23 (k0_pay9 x8) (k0_pay10 x9) (k0_pay11 x10) (k0_pay12 x11) (k0_pay13 x12) (k0_pay14 x13) (bodyW x0 x1 x2 x3 x4 x5 x6 x7))

end Cert.KernelIdeal.HFrame

end
-- ==== Proof.KIFrame.lean ====
/-
  The frame of the program: every weakly fair execution terminates, nothing faults, and the thirty-two argument
  arrays end as they began.

  The program is a stretch of host operations (they build the fused weight arrays and write no argument), then one
  region over a grid of 256 points. At a point the body reads fourteen staged blocks whole (the point's 1024 rows of the
  input, and thirteen arrays that are the same at every point), and stores one whole 1024 × 3 block, a pure function of
  what it read. So each staged buffer is described point by point: an input's holds its block of the array as the region
  found it; the output's holds that function of the input blocks. The run of the region over these descriptions gives
  every array after the run, and the arguments among them are untouched: the one argument a window stages is only read,
  and no host operation writes an argument.
-/
import proofs.«158485_j30597347016754_2_alg».proof.Proof.Gen.KernelIdeal.Launch
import proofs.«158485_j30597347016754_2_alg».proof.Proof.Gen.KernelIdeal.Skeleton
import proofs.«158485_j30597347016754_2_alg».proof.Proof.Gen.KernelIdeal.Points
import proofs.«158485_j30597347016754_2_alg».proof.Proof.KIBodyDef
import Idealize.ShloMosaic.Lib.Pipeline.FrameBody
import Idealize.ShloMosaic.Lib.Ring
import Idealize.ShloMosaic.Lib.Tactic

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- A core's buffers when the region is entered: the launch contents after the host operations. -/
abbrev V (c : Dev nD) (b : Ref sig .tc) : Buf (Elt F) ((c : Thread nD τ).loc b) :=
  StableHlo.after hostOps0 (fun b => m (c, b)) b

set_option maxHeartbeats 4000000 in
theorem hostOps0_fresh : (hostOps0 : List (HloOp τ sig (Elt F))).Forall fun op => op.fresh = ∅ := by
  simp only [List.Forall]; repeat' constructor

set_option maxHeartbeats 4000000 in
/-- The program is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument array: the region finds each as launched. -/

set_option maxHeartbeats 4000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg29 (c : Dev nD) : V m c main_arg29 = m ((c : Thread nD τ).loc main_arg29) :=
  StableHlo.after_of_forall_not_mem (b := Proc.devRef .tc main_arg29) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg30 (c : Dev nD) : V m c main_arg30 = m ((c : Thread nD τ).loc main_arg30) :=
  StableHlo.after_of_forall_not_mem (b := Proc.devRef .tc main_arg30) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
set_option maxHeartbeats 4000000 in
theorem V_main_arg31 (c : Dev nD) : V m c main_arg31 = m ((c : Thread nD τ).loc main_arg31) :=
  StableHlo.after_of_forall_not_mem (b := Proc.devRef .tc main_arg31) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- A window's block at a point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point, whether it was fetched there or earlier at the
    same block index, for any description whose array is the region-entry one and whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the region -/

set_option maxHeartbeats 4000000 in
/-- From a run that ends with every staged array at what the descriptions say and every other buffer as the region found
    it: the argument the first window stages is an input's array, kept; the others are buffers no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c),
      ((h c).2 main_arg29 (Pipeline.mem_restRefs_of main_arg29 (by decide) (by decide))).trans (V_main_arg29 m c),
      ((h c).2 main_arg30 (Pipeline.mem_restRefs_of main_arg30 (by decide) (by decide))).trans (V_main_arg30 m c),
      ((h c).2 main_arg31 (Pipeline.mem_restRefs_of main_arg31 (by decide) (by decide))).trans (V_main_arg31 m c)⟩) h

/-! ## What the body reads and writes -/

abbrev rS1024x3 : Rect S1024x3 := Rect.unit (s := S1024x3) ![0, 0] S1024x3.size inb_S1024x3_S1024x3_0_0
abbrev rS1x3 : Rect S1x3 := Rect.unit (s := S1x3) ![0, 0] S1x3.size inb_S1x3_S1x3_0_0
abbrev rS3x256 : Rect S3x256 := Rect.unit (s := S3x256) ![0, 0] S3x256.size inb_S3x256_S3x256_0_0
abbrev rS1x256 : Rect S1x256 := Rect.unit (s := S1x256) ![0, 0] S1x256.size inb_S1x256_S1x256_0_0
abbrev rS256x256 : Rect S256x256 := Rect.unit (s := S256x256) ![0, 0] S256x256.size inb_S256x256_S256x256_0_0
abbrev rS256x3 : Rect S256x3 := Rect.unit (s := S256x3) ![0, 0] S256x3.size inb_S256x3_S256x3_0_0
abbrev rS3x384 : Rect S3x384 := Rect.unit (s := S3x384) ![0, 0] S3x384.size inb_S3x384_S3x384_0_0
abbrev rS1x384 : Rect S1x384 := Rect.unit (s := S1x384) ![0, 0] S1x384.size inb_S1x384_S1x384_0_0
abbrev rS384x384 : Rect S384x384 := Rect.unit (s := S384x384) ![0, 0] S384x384.size inb_S384x384_S384x384_0_0
abbrev rS384x7 : Rect S384x7 := Rect.unit (s := S384x7) ![0, 0] S384x7.size inb_S384x7_S384x7_0_0
abbrev rS1x7 : Rect S1x7 := Rect.unit (s := S1x7) ![0, 0] S1x7.size inb_S1x7_S1x7_0_0

/-- The output window's buffer after the body: its one store, of the whole block, at the stored value. -/
def out0_14 (x0 : Vec F S1024x3 .f32) (x1 : Vec F S1x3 .f32) (x2 : Vec F S3x256 .bf16) (x3 : Vec F S1x256 .f32) (x4 : Vec F S256x256 .bf16) (x5 : Vec F S1x256 .f32) (x6 : Vec F S256x3 .bf16) (x7 : Vec F S1x3 .f32) (x8 : Vec F S3x384 .bf16) (x9 : Vec F S1x384 .f32) (x10 : Vec F S384x384 .bf16) (x11 : Vec F S1x384 .f32) (x12 : Vec F S384x7 .bf16) (x13 : Vec F S1x7 .f32) : Vec F S1024x3 .f32 :=
  View.canon [⟨rS1024x3, body0 (View.ld x0 rS1024x3) (View.ld x1 rS1x3) (View.ld x2 rS3x256) (View.ld x3 rS1x256) (View.ld x4 rS256x256) (View.ld x5 rS1x256) (View.ld x6 rS256x3) (View.ld x7 rS1x3) (View.ld x8 rS3x384) (View.ld x9 rS1x384) (View.ld x10 rS384x384) (View.ld x11 rS1x384) (View.ld x12 rS384x7) (View.ld x13 rS1x7)⟩]

/-- That one store covers the buffer. -/
theorem cover0_14 (p0 : Vec F S1024x3 .f32) (y : S1024x3.Idx) :
    ∃ pc ∈ ([⟨rS1024x3, p0⟩] : List (View.Piece (Elt F) S1024x3 .f32)), y ∈ pc.1.set :=
  View.cover_of_tiled [⟨rS1024x3, p0⟩] S1024x3.size (by rfl) y

/-! ## The body's triple -/

set_option maxHeartbeats 8000000 in
/-- On whole staging buffers, the inputs' at the read contents and the output's at anything, the body runs to a state with
    the inputs' as they were and the output's at the stored value of what was read. -/
theorem sound_kernel (c : Dev nD) (E : Set ℕ) (i : grid0.Coords) (a0 : Memref sig .tc .vmem S1024x3 .f32) (ha0 : a0.IsWhole) (a1 : Memref sig .tc .vmem S1x3 .f32) (ha1 : a1.IsWhole) (a2 : Memref sig .tc .vmem S3x256 .bf16) (ha2 : a2.IsWhole) (a3 : Memref sig .tc .vmem S1x256 .f32) (ha3 : a3.IsWhole) (a4 : Memref sig .tc .vmem S256x256 .bf16) (ha4 : a4.IsWhole) (a5 : Memref sig .tc .vmem S1x256 .f32) (ha5 : a5.IsWhole) (a6 : Memref sig .tc .vmem S256x3 .bf16) (ha6 : a6.IsWhole) (a7 : Memref sig .tc .vmem S1x3 .f32) (ha7 : a7.IsWhole) (a8 : Memref sig .tc .vmem S3x384 .bf16) (ha8 : a8.IsWhole) (a9 : Memref sig .tc .vmem S1x384 .f32) (ha9 : a9.IsWhole) (a10 : Memref sig .tc .vmem S384x384 .bf16) (ha10 : a10.IsWhole) (a11 : Memref sig .tc .vmem S1x384 .f32) (ha11 : a11.IsWhole) (a12 : Memref sig .tc .vmem S384x7 .bf16) (ha12 : a12.IsWhole) (a13 : Memref sig .tc .vmem S1x7 .f32) (ha13 : a13.IsWhole) (a14 : Memref sig .tc .vmem S1024x3 .f32) (ha14 : a14.IsWhole)
    (x0 : Vec F S1024x3 .f32) (x1 : Vec F S1x3 .f32) (x2 : Vec F S3x256 .bf16) (x3 : Vec F S1x256 .f32) (x4 : Vec F S256x256 .bf16) (x5 : Vec F S1x256 .f32) (x6 : Vec F S256x3 .bf16) (x7 : Vec F S1x3 .f32) (x8 : Vec F S3x384 .bf16) (x9 : Vec F S1x384 .f32) (x10 : Vec F S384x384 .bf16) (x11 : Vec F S1x384 .f32) (x12 : Vec F S384x7 .bf16) (x13 : Vec F S1x7 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ (∃ d, owns (c : Thread nD τ) a14 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare (out0_14 x0 x1 x2 x3 x4 x5 x6 x7 x8 x9 x10 x11 x12 x13)) -∗ K ⟨⟩))
      ⊢ wp frame (wpE (defs₀ (F := F)) Variants.none c none) E (cc0__kernel i a0 ha0 a1 ha1 a2 ha2 a3 ha3 a4 ha4 a5 ha5 a6 ha6 a7 ha7 a8 ha8 a9 ha9 a10 ha10 a11 ha11 a12 ha12 a13 ha13 a14 ha14) K := by
  simp only [cc0__kernel_eq_skeleton]; unfold cc0__kernel_skel
  simp only [k0_part1_eq_skeleton, k0_part2_eq_skeleton, k0_part3_eq_skeleton]
  unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover0_14 _)

/-! ## The description of the region -/

/-- Per core: the arrays as the region finds them; after the body at a point each input's buffer holds its block and
    the output's holds the stored value of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 8000000 in
/-- At any point the inputs' buffers hold their blocks, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
set_option maxHeartbeats 8000000 in
/-- Every weakly fair execution terminates, with every staged array at what the descriptions give and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 4000000 in
/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  frame_of m ρ (dats m) (A_eq m) (run_main m ρ)

end Cert.KernelIdeal.HFrame

end
-- ==== Proof.Spec.lean ====
/-
  The mathematics both programs compute, one row at a time, on the extended reals.

  A row `x` of the input is centred (`y = x − c`), its squared length `s` and its direction `u = y / (√s + ε)` are
  taken, two small perceptrons read `u` (a direction head of width 2, normalised to `e`, and a magnitude head through
  softplus, `a`), and the code is `w = (s·a)·e`.  The decoder reads `w`'s direction `θ` and `log(|w| + ε)`: three more
  perceptrons give a base direction, a correction and a gate, and the row is rebuilt as `c + √|w| · (gate · dir)`.
  The kernel runs the five perceptrons as two FUSED towers (weights laid side by side and block-diagonally) and uses
  `s` and `√|w|` directly; the reference runs them one by one and writes `(√s)^2` and `|w|^(1/2)`.
  This module states both row functions; it imports no program.
-/
import Idealize.ShloMosaic.PureOps.Ideal
import Idealize.ShloMosaic.PureOps.Ideal.Laws
import Mathlib.Algebra.BigOperators.Fin

noncomputable section

namespace Cert.Net

open Idealize.ShloMosaic

/-- The stabiliser both programs add to a length before dividing by it (the same 32-bit word on both sides). -/
abbrev eps : EReal := Ideal.ofBits .f32 0x322BCC77#32
/-- The reference's exponents, as the words it prints. -/
abbrev two : EReal := Ideal.ofBits .f32 0x40000000#32
abbrev half : EReal := Ideal.ofBits .f32 0x3F000000#32

/-- The sum of the squares of a vector's entries. -/
def ssq {n : ℕ} (v : Fin n → EReal) : EReal := ∑ j, v j * v j
/-- Its Euclidean length. -/
def nrm {n : ℕ} (v : Fin n → EReal) : EReal := Ideal.sqrt (ssq v)
/-- The vector divided by (its length + ε). -/
def unitv {n : ℕ} (v : Fin n → EReal) : Fin n → EReal := fun j => Ideal.div (v j) (nrm v + eps)
/-- One dense layer: `v · W + b`. -/
def dense {k n : ℕ} (v : Fin k → EReal) (W : Fin k → Fin n → EReal) (b : Fin n → EReal) : Fin n → EReal :=
  fun j => (∑ i, v i * W i j) + b j
def relu (z : EReal) : EReal := max z 0
/-- softplus as both programs spell it: `max(z, 0) + log1p(exp(−|z|))`. -/
def softplus (z : EReal) : EReal := max z 0 + Ideal.log1p (Ideal.exp (-(max z (-z))))

/-- A three-layer perceptron's weights: input width `d`, hidden width `h`, output width `o`. -/
structure Mlp (d h o : ℕ) where
  W1 : Fin d → Fin h → EReal
  b1 : Fin h → EReal
  W2 : Fin h → Fin h → EReal
  b2 : Fin h → EReal
  W3 : Fin h → Fin o → EReal
  b3 : Fin o → EReal

/-- `relu(relu(v·W1 + b1)·W2 + b2)·W3 + b3`. -/
def Mlp.apply {d h o : ℕ} (M : Mlp d h o) (v : Fin d → EReal) : Fin o → EReal :=
  dense (fun k => relu (dense (fun k' => relu (dense v M.W1 M.b1 k')) M.W2 M.b2 k)) M.W3 M.b3

/-- A row as the KERNEL computes it: two fused towers `A` (outputs: direction head in columns 0–1, magnitude head in
    column 2) and `B` (base direction in columns 0–2, correction in 3–5, gate in 6). -/
def kerRow (x c : Fin 3 → EReal) (A : Mlp 3 256 3) (B : Mlp 3 384 7) : Fin 3 → EReal :=
  let y : Fin 3 → EReal := fun j => x j - c j
  let s : EReal := ssq y
  let u : Fin 3 → EReal := fun j => Ideal.div (y j) (Ideal.sqrt s + eps)
  let oA : Fin 3 → EReal := A.apply u
  let e : Fin 2 → EReal := unitv (fun j : Fin 2 => oA ⟨j.val, by omega⟩)
  let a : EReal := softplus (oA 2)
  let w : Fin 2 → EReal := fun j => (s * a) * e j
  let rw : EReal := nrm w
  let th : Fin 2 → EReal := fun j => Ideal.div (w j) (rw + eps)
  let lr : EReal := Ideal.log (rw + eps)
  let ci : Fin 3 → EReal := fun k => if h : k.val < 2 then th ⟨k.val, h⟩ else lr
  let oB : Fin 7 → EReal := B.apply ci
  let cb : Fin 3 → EReal := unitv (fun j : Fin 3 => oB ⟨j.val, by omega⟩)
  let cc : Fin 3 → EReal := unitv (fun j : Fin 3 => cb j + oB ⟨j.val + 3, by omega⟩)
  let bg : EReal := softplus (oB 6)
  fun j => c j + Ideal.sqrt rw * (bg * cc j)

/-- A row as the REFERENCE computes it: five separate perceptrons of hidden width 128. -/
def refRow (x c : Fin 3 → EReal) (ea : Mlp 3 128 2) (em : Mlp 3 128 1) (db : Mlp 2 128 3) (dc : Mlp 3 128 3)
    (dm : Mlp 2 128 1) : Fin 3 → EReal :=
  let y : Fin 3 → EReal := fun j => x j - c j
  let u : Fin 3 → EReal := unitv y
  let rp : EReal := Ideal.pow (nrm y) two
  let e : Fin 2 → EReal := unitv (ea.apply u)
  let a : EReal := softplus (em.apply u 0)
  let w : Fin 2 → EReal := fun j => (rp * a) * e j
  let rw : EReal := nrm w
  let th : Fin 2 → EReal := unitv w
  let cb : Fin 3 → EReal := unitv (db.apply th)
  let lr : EReal := Ideal.log (rw + eps)
  let ci : Fin 3 → EReal := fun k => if h : k.val < 2 then th ⟨k.val, h⟩ else lr
  let cco : Fin 3 → EReal := dc.apply ci
  let cc : Fin 3 → EReal := unitv (fun j => cb j + cco j)
  let bg : EReal := softplus (dm.apply th 0)
  fun j => c j + Ideal.pow rw half * (bg * cc j)

end Cert.Net

end
-- ==== Proof.KIBody.lean ====
/-
  The stored block of the kernel body, read at one entry.

  Entry `(p, q)` of the block the body stores is the kernel's row function `Cert.Net.kerRow` of row `p` of the point
  block, the center row, and the two fused towers' weights read off their blocks (`mlp2`; a bias block is one row).

  The body's arithmetic is regrouped into a few whole-block operations, each read at an entry once and for all extents:
  a plain matrix product into a zero accumulator is the sum over the contracted coordinate (`matmul_ix2`); a dense
  layer on every row is `Cert.Net.dense` of the row (`denseV_apply`; narrowing the operand changes nothing on the
  extended reals); three of them with `max · 0` between are the perceptron of the row (`mlpV_apply`); the squares of a
  row summed into a column are `ssq` of the row (`rowSqSum_apply`: a lane sum, a cast of a vector to a column); a row
  divided by (its length + ε) is `unitv` of the row (`unitRows_apply`: a column broadcast along the rows); the kernel's
  softplus, whose select tests a number against itself and so always takes the `max + log1p(exp(−|·|))` branch, is
  `softplus` (`softplusV_apply`); two columns and a third side by side (`concat21_apply`).
  The stored block IS those operations composed (`bodyW_eq`, `body0_eq`: the blocks pass through shape casts to their
  own shape, the identity, and the rest is unfolding), and reading the composition at `(p, q)` gives the row function.
-/
import proofs.«158485_j30597347016754_2_alg».proof.Proof.KIBodyDef
import proofs.«158485_j30597347016754_2_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Mathlib.Algebra.BigOperators.Fin

noncomputable section

namespace Cert.KernelIdeal.HFrame

open Idealize.ShloMosaic Idealize.ShloMosaic.ValueIdx

section Layout
variable {m n k : ℕ} {α : Type}

/-- A column `[m, 1]` broadcast along the rows to `[m, n]` reads, at `(p, q)`, the column's entry of row `p`. -/
theorem bcastCol_apply (v : (⟨2, ![m, 1]⟩ : Shape).Idx → α) (h : (⟨2, ![m, 1]⟩ : Shape).Broadcasts ⟨2, ![m, n]⟩)
    (p : Fin m) (q : Fin n) : broadcastTo ⟨2, ![m, n]⟩ v h (ix2 p q) = v (ix2 p (0 : Fin 1)) := by
  refine broadcastTo_apply v h (ix2 p q) (ix2 p (0 : Fin 1)) fun ax => ?_
  match ax with
  | ⟨0, _⟩ =>
    show p.val = if m = 1 then 0 else p.val
    split
    · have := p.isLt; omega
    · rfl
  | ⟨1, _⟩ => rfl

/-- A vector `[m]` cast to the column `[m, 1]` reads, at `(p, c)`, the vector's entry `p`. -/
theorem castCol_apply (v : (⟨1, ![m]⟩ : Shape).Idx → α) (h : (⟨1, ![m]⟩ : Shape).ShapeCasts ⟨2, ![m, 1]⟩)
    (p : Fin m) (c : Fin 1) : shapeCast ⟨2, ![m, 1]⟩ v h (ix2 p c) = v (ix1 p) :=
  shapeCast_apply v h _ _ (by
    have hc : c.val = 0 := by omega
    rw [Shape.rowMajor_val_two, Shape.rowMajor_val_one]
    show p.val = p.val * 1 + c.val
    rw [hc, Nat.mul_one, Nat.add_zero])

/-- The sum along the rows of a matrix, as the lane reduction computes it, is the sum over the row's entries. -/
theorem rowReduce_apply (v : FVec Ideal ⟨2, ![m, n]⟩ .f32) (h : (⟨2, ![m, n]⟩ : Shape).Reduces [1] ⟨1, ![m]⟩)
    (hφ : FKind.Formats .f32) (hacc : (0x00000000#32 : BitVec 32) = FKind.add.neutral .f32 hφ) (p : Fin m) :
    multiReduction .add [1] ⟨1, ![m]⟩ v 0x00000000#32 h hφ hacc (ix1 p) = ∑ j : Fin n, v (ix2 p j) := by
  refine (Ideal.multiReduction_add_single v 0x00000000#32 h hφ hacc (ix1 p)).trans ?_
  refine Finset.sum_congr rfl fun j _ => congrArg v ?_
  funext c
  match c with
  | ⟨0, _⟩ => rfl
  | ⟨1, _⟩ => rfl

end Layout

section Matmul
variable {m k n : ℕ} {φ₁ φ₂ : FTy}

/-- The dimension numbers of a plain matrix product `[m, k] · [k, n]`. -/
abbrev plainD (wf : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

theorem plainD_lhs0 (wf : DotDims.WF ⟨2, ![m, k]⟩ ⟨2, ![k, n]⟩ ⟨2, ![m, n]⟩ [1] [0] [0] [1] [] [])
    (j : (⟨2, ![m, n]⟩ : Shape).Idx) (c : (plainD wf).contr.Idx) : ((plainD wf).lhsIdx j c 0).val = (j 0).val := by
  unfold DotDims.lhsIdx
  rw [dif_neg (show ¬(0 : Fin (⟨2, ![m, k]⟩ : Shape).rank) ∈ (plainD wf).lhsBatch by simp),
    dif_pos (show (0 : Fin (⟨2, ![m, k]⟩ : Shape).rank) ∈ (plainD wf).lhsNonContracting by simp)]
  rfl

theorem plainD_rhs1 (wf : DotDims.WF ⟨2, ![m, k]⟩ ⟨2, ![k, n]⟩ ⟨2, ![m, n]⟩ [1] [0] [0] [1] [] [])
    (j : (⟨2, ![m, n]⟩ : Shape).Idx) (c : (plainD wf).contr.Idx) : ((plainD wf).rhsIdx j c 1).val = (j 1).val := by
  unfold DotDims.rhsIdx
  rw [dif_neg (show ¬(1 : Fin (⟨2, ![k, n]⟩ : Shape).rank) ∈ (plainD wf).rhsBatch by simp),
    dif_pos (show (1 : Fin (⟨2, ![k, n]⟩ : Shape).rank) ∈ (plainD wf).rhsNonContracting by simp)]
  rfl

/-- A plain matrix product into a zero accumulator, read at `(p, q)`: the sum over the contracted coordinate. -/
theorem matmul_plainD (wf : DotDims.WF ⟨2, ![m, k]⟩ ⟨2, ![k, n]⟩ ⟨2, ![m, n]⟩ [1] [0] [0] [1] [] [])
    (L : FVec Ideal ⟨2, ![m, k]⟩ φ₁) (R : FVec Ideal ⟨2, ![k, n]⟩ φ₂) (p : Fin m) (q : Fin n) :
    FloatOps.matmul (plainD wf) none L R (constant (F := Ideal) ⟨2, ![m, n]⟩ .f32 0x00000000#32) (ix2 p q)
      = ∑ i : Fin k, L (ix2 p i) * R (ix2 i q) := by
  rw [Ideal.matmul_constant_zero_apply, ← Equiv.sum_comp (contrEquiv1 (plainD wf) k rfl rfl).symm]
  refine Finset.sum_congr rfl fun i _ => ?_
  have hk := contrEquiv1_symm_val (plainD wf) k rfl rfl i
  have el : (plainD wf).lhsIdx (ix2 p q) ((contrEquiv1 (plainD wf) k rfl rfl).symm i) = ix2 p i :=
    funext fun a => Fin.ext (by
      match a with
      | ⟨0, _⟩ => exact plainD_lhs0 wf _ _
      | ⟨1, _⟩ => exact ((plainD wf).lhsIdx_val_of_single rfl _ _).trans hk)
  have er : (plainD wf).rhsIdx (ix2 p q) ((contrEquiv1 (plainD wf) k rfl rfl).symm i) = ix2 i q :=
    funext fun a => Fin.ext (by
      match a with
      | ⟨0, _⟩ => exact ((plainD wf).rhsIdx_val_of_single rfl _ _).trans hk
      | ⟨1, _⟩ => exact plainD_rhs1 wf _ _)
  rw [el, er]

/-- The same for any record with those dimension numbers. -/
theorem matmul_ix2 (D : DotDims ⟨2, ![m, k]⟩ ⟨2, ![k, n]⟩ ⟨2, ![m, n]⟩)
    (hlc : D.lhsContracting = [1]) (hrc : D.rhsContracting = [0])
    (hln : D.lhsNonContracting = [0]) (hrn : D.rhsNonContracting = [1])
    (hlb : D.lhsBatch = []) (hrb : D.rhsBatch = [])
    (L : FVec Ideal ⟨2, ![m, k]⟩ φ₁) (R : FVec Ideal ⟨2, ![k, n]⟩ φ₂) (p : Fin m) (q : Fin n) :
    FloatOps.matmul D none L R (constant (F := Ideal) ⟨2, ![m, n]⟩ .f32 0x00000000#32) (ix2 p q)
      = ∑ i : Fin k, L (ix2 p i) * R (ix2 i q) := by
  obtain ⟨lc, rc, ln, rn, lb, rb, wf⟩ := D
  dsimp only at hlc hrc hln hrn hlb hrb
  subst hlc hrc hln hrn hlb hrb
  exact matmul_plainD wf L R p q

end Matmul

section Net
open Cert.Net
variable {m k n : ℕ}

/-- `max z 0`, the zero spelt as its word. -/
def reluV {s : Shape} (v : FVec Ideal s .f32) : FVec Ideal s .f32 :=
  maximumf v (broadcast s (Scalar.ofBits .f32 0x00000000#32))

theorem reluV_apply {s : Shape} (v : FVec Ideal s .f32) (i : s.Idx) : reluV v i = relu (v i) := by
  show max (v i) (Ideal.ofBits .f32 0x00000000#32) = _
  rw [Ideal.ofBits_zero_f32]; rfl

/-- One dense layer on every row: the rows (narrowed, which changes nothing here) times the weights, plus the bias row. -/
def denseV (D : DotDims ⟨2, ![m, k]⟩ ⟨2, ![k, n]⟩ ⟨2, ![m, n]⟩) (hb : (⟨2, ![1, n]⟩ : Shape).Broadcasts ⟨2, ![m, n]⟩)
    (ht : FTy.bits .bf16 < FTy.bits .f32) (v : FVec Ideal ⟨2, ![m, k]⟩ .f32) (W : FVec Ideal ⟨2, ![k, n]⟩ .bf16)
    (b : FVec Ideal ⟨2, ![1, n]⟩ .f32) : FVec Ideal ⟨2, ![m, n]⟩ .f32 :=
  addf (matmul D none (truncf .bf16 v ht) W (constant ⟨2, ![m, n]⟩ .f32 0x00000000#32)) (broadcastTo ⟨2, ![m, n]⟩ b hb)

theorem denseV_apply (D : DotDims ⟨2, ![m, k]⟩ ⟨2, ![k, n]⟩ ⟨2, ![m, n]⟩)
    (hlc : D.lhsContracting = [1]) (hrc : D.rhsContracting = [0])
    (hln : D.lhsNonContracting = [0]) (hrn : D.rhsNonContracting = [1])
    (hlb : D.lhsBatch = []) (hrb : D.rhsBatch = [])
    (hb : (⟨2, ![1, n]⟩ : Shape).Broadcasts ⟨2, ![m, n]⟩)
    (ht : FTy.bits .bf16 < FTy.bits .f32) (v : FVec Ideal ⟨2, ![m, k]⟩ .f32) (W : FVec Ideal ⟨2, ![k, n]⟩ .bf16)
    (b : FVec Ideal ⟨2, ![1, n]⟩ .f32) (p : Fin m) (q : Fin n) :
    denseV D hb ht v W b (ix2 p q)
      = dense (fun i => v (ix2 p i)) (fun i j => W (ix2 i j)) (fun j => b (ix2 (0 : Fin 1) j)) q := by
  show FloatOps.matmul D none (truncf .bf16 v ht) W (constant (F := Ideal) ⟨2, ![m, n]⟩ .f32 0x00000000#32) (ix2 p q)
      + broadcastTo ⟨2, ![m, n]⟩ b hb (ix2 p q) = _
  rw [matmul_ix2 D hlc hrc hln hrn hlb hrb, broadcastTo_1b_ab_apply]
  rfl

/-- The weights of a three-layer perceptron read off its six blocks (a bias block is one row). -/
def mlp2 {d h o : ℕ} (W1 : (⟨2, ![d, h]⟩ : Shape).Idx → EReal) (b1 : (⟨2, ![1, h]⟩ : Shape).Idx → EReal)
    (W2 : (⟨2, ![h, h]⟩ : Shape).Idx → EReal) (b2 : (⟨2, ![1, h]⟩ : Shape).Idx → EReal)
    (W3 : (⟨2, ![h, o]⟩ : Shape).Idx → EReal) (b3 : (⟨2, ![1, o]⟩ : Shape).Idx → EReal) : Mlp d h o :=
  ⟨fun k j => W1 (ix2 k j), fun j => b1 (ix2 (0 : Fin 1) j), fun k j => W2 (ix2 k j), fun j => b2 (ix2 (0 : Fin 1) j),
    fun k j => W3 (ix2 k j), fun j => b3 (ix2 (0 : Fin 1) j)⟩

/-- The perceptron on every row. -/
def mlpV {d h o : ℕ} (D1 : DotDims ⟨2, ![m, d]⟩ ⟨2, ![d, h]⟩ ⟨2, ![m, h]⟩) (D2 : DotDims ⟨2, ![m, h]⟩ ⟨2, ![h, h]⟩ ⟨2, ![m, h]⟩)
    (D3 : DotDims ⟨2, ![m, h]⟩ ⟨2, ![h, o]⟩ ⟨2, ![m, o]⟩)
    (hb1 : (⟨2, ![1, h]⟩ : Shape).Broadcasts ⟨2, ![m, h]⟩) (hb3 : (⟨2, ![1, o]⟩ : Shape).Broadcasts ⟨2, ![m, o]⟩)
    (ht : FTy.bits .bf16 < FTy.bits .f32) (v : FVec Ideal ⟨2, ![m, d]⟩ .f32)
    (W1 : FVec Ideal ⟨2, ![d, h]⟩ .bf16) (b1 : FVec Ideal ⟨2, ![1, h]⟩ .f32)
    (W2 : FVec Ideal ⟨2, ![h, h]⟩ .bf16) (b2 : FVec Ideal ⟨2, ![1, h]⟩ .f32)
    (W3 : FVec Ideal ⟨2, ![h, o]⟩ .bf16) (b3 : FVec Ideal ⟨2, ![1, o]⟩ .f32) : FVec Ideal ⟨2, ![m, o]⟩ .f32 :=
  denseV D3 hb3 ht (reluV (denseV D2 hb1 ht (reluV (denseV D1 hb1 ht v W1 b1)) W2 b2)) W3 b3

theorem mlpV_apply {d h o : ℕ} (D1 : DotDims ⟨2, ![m, d]⟩ ⟨2, ![d, h]⟩ ⟨2, ![m, h]⟩) (D2 : DotDims ⟨2, ![m, h]⟩ ⟨2, ![h, h]⟩ ⟨2, ![m, h]⟩)
    (D3 : DotDims ⟨2, ![m, h]⟩ ⟨2, ![h, o]⟩ ⟨2, ![m, o]⟩)
    (h1 : D1.lhsContracting = [1] ∧ D1.rhsContracting = [0] ∧ D1.lhsNonContracting = [0] ∧ D1.rhsNonContracting = [1] ∧ D1.lhsBatch = [] ∧ D1.rhsBatch = [])
    (h2 : D2.lhsContracting = [1] ∧ D2.rhsContracting = [0] ∧ D2.lhsNonContracting = [0] ∧ D2.rhsNonContracting = [1] ∧ D2.lhsBatch = [] ∧ D2.rhsBatch = [])
    (h3 : D3.lhsContracting = [1] ∧ D3.rhsContracting = [0] ∧ D3.lhsNonContracting = [0] ∧ D3.rhsNonContracting = [1] ∧ D3.lhsBatch = [] ∧ D3.rhsBatch = [])
    (hb1 : (⟨2, ![1, h]⟩ : Shape).Broadcasts ⟨2, ![m, h]⟩) (hb3 : (⟨2, ![1, o]⟩ : Shape).Broadcasts ⟨2, ![m, o]⟩)
    (ht : FTy.bits .bf16 < FTy.bits .f32) (v : FVec Ideal ⟨2, ![m, d]⟩ .f32)
    (W1 : FVec Ideal ⟨2, ![d, h]⟩ .bf16) (b1 : FVec Ideal ⟨2, ![1, h]⟩ .f32)
    (W2 : FVec Ideal ⟨2, ![h, h]⟩ .bf16) (b2 : FVec Ideal ⟨2, ![1, h]⟩ .f32)
    (W3 : FVec Ideal ⟨2, ![h, o]⟩ .bf16) (b3 : FVec Ideal ⟨2, ![1, o]⟩ .f32) (p : Fin m) (q : Fin o) :
    mlpV D1 D2 D3 hb1 hb3 ht v W1 b1 W2 b2 W3 b3 (ix2 p q)
      = (mlp2 W1 b1 W2 b2 W3 b3).apply (fun j => v (ix2 p j)) q := by
  obtain ⟨a1, a2, a3, a4, a5, a6⟩ := h1
  obtain ⟨c1, c2, c3, c4, c5, c6⟩ := h2
  obtain ⟨e1, e2, e3, e4, e5, e6⟩ := h3
  have l1 : ∀ i : Fin h, reluV (denseV D1 hb1 ht v W1 b1) (ix2 p i)
      = relu (dense (fun j => v (ix2 p j)) (mlp2 W1 b1 W2 b2 W3 b3).W1 (mlp2 W1 b1 W2 b2 W3 b3).b1 i) := fun i => by
    rw [reluV_apply, denseV_apply D1 a1 a2 a3 a4 a5 a6]; rfl
  have l2 : ∀ i : Fin h, reluV (denseV D2 hb1 ht (reluV (denseV D1 hb1 ht v W1 b1)) W2 b2) (ix2 p i)
      = relu (dense (fun k' => relu (dense (fun j => v (ix2 p j)) (mlp2 W1 b1 W2 b2 W3 b3).W1 (mlp2 W1 b1 W2 b2 W3 b3).b1 k'))
          (mlp2 W1 b1 W2 b2 W3 b3).W2 (mlp2 W1 b1 W2 b2 W3 b3).b2 i) := fun i => by
    rw [reluV_apply, denseV_apply D2 c1 c2 c3 c4 c5 c6, show (fun i => reluV (denseV D1 hb1 ht v W1 b1) (ix2 p i)) = _ from funext l1]; rfl
  unfold mlpV
  rw [denseV_apply D3 e1 e2 e3 e4 e5 e6, show (fun i => reluV (denseV D2 hb1 ht (reluV (denseV D1 hb1 ht v W1 b1)) W2 b2) (ix2 p i)) = _ from funext l2]
  rfl

/-- softplus as the kernel spells it, select and all. -/
def softplusV {s : Shape} (d : FVec Ideal s .f32) : FVec Ideal s .f32 :=
  select (cmpf .one (subf d (broadcast s (Scalar.ofBits .f32 0x00000000#32))) (subf d (broadcast s (Scalar.ofBits .f32 0x00000000#32))))
    (addf d (broadcast s (Scalar.ofBits .f32 0x00000000#32)))
    (addf (maximumf d (broadcast s (Scalar.ofBits .f32 0x00000000#32)))
      (log1p (exp (subf (broadcast s (Scalar.ofBits .f32 0x00000000#32)) (absf (subf d (broadcast s (Scalar.ofBits .f32 0x00000000#32))))))))

/-- A number is never different from itself, so the select takes its second branch; `d − 0 = d` and `0 − |d| = −|d|`. -/
theorem softplus_scalar (d : EReal) :
    Scalar.select (Ideal.cmp .one (d - 0) (d - 0)) (d + 0) (max d 0 + Ideal.log1p (Ideal.exp (0 - max (d - 0) (-(d - 0)))))
      = softplus d := by
  have h : Ideal.cmp .one (d - 0) (d - 0) = 0#1 := by simp [Ideal.cmp]
  rw [h, select_zero, sub_zero, zero_sub]; rfl

theorem softplusV_apply {s : Shape} (d : FVec Ideal s .f32) (i : s.Idx) : softplusV d i = softplus (d i) := by
  show Scalar.select (Ideal.cmp .one (d i - Ideal.ofBits .f32 0x00000000#32) (d i - Ideal.ofBits .f32 0x00000000#32))
      (d i + Ideal.ofBits .f32 0x00000000#32)
      (max (d i) (Ideal.ofBits .f32 0x00000000#32) + Ideal.log1p (Ideal.exp (Ideal.ofBits .f32 0x00000000#32
        - max (d i - Ideal.ofBits .f32 0x00000000#32) (-(d i - Ideal.ofBits .f32 0x00000000#32))))) = _
  rw [Ideal.ofBits_zero_f32]; exact softplus_scalar (d i)

/-- The squares of a row's entries, summed into a column. -/
def rowSqSum (v : FVec Ideal ⟨2, ![m, n]⟩ .f32) (hR : (⟨2, ![m, n]⟩ : Shape).Reduces [1] ⟨1, ![m]⟩)
    (hC : (⟨1, ![m]⟩ : Shape).ShapeCasts ⟨2, ![m, 1]⟩) : FVec Ideal ⟨2, ![m, 1]⟩ .f32 :=
  shapeCast ⟨2, ![m, 1]⟩ (multiReduction .add [1] ⟨1, ![m]⟩ (mulf v v) 0x00000000#32 hR (.inl rfl) rfl) hC

theorem rowSqSum_apply (v : FVec Ideal ⟨2, ![m, n]⟩ .f32) (hR : (⟨2, ![m, n]⟩ : Shape).Reduces [1] ⟨1, ![m]⟩)
    (hC : (⟨1, ![m]⟩ : Shape).ShapeCasts ⟨2, ![m, 1]⟩) (p : Fin m) (c : Fin 1) :
    rowSqSum v hR hC (ix2 p c) = ssq (fun j => v (ix2 p j)) := by
  unfold rowSqSum
  exact (castCol_apply _ hC p c).trans (rowReduce_apply (mulf v v) hR (.inl rfl) rfl p)

/-- A row's length plus the stabiliser, as a column. -/
def rowNormEps (v : FVec Ideal ⟨2, ![m, n]⟩ .f32) (hR : (⟨2, ![m, n]⟩ : Shape).Reduces [1] ⟨1, ![m]⟩)
    (hC : (⟨1, ![m]⟩ : Shape).ShapeCasts ⟨2, ![m, 1]⟩) : FVec Ideal ⟨2, ![m, 1]⟩ .f32 :=
  addf (sqrt (rowSqSum v hR hC)) (broadcast ⟨2, ![m, 1]⟩ (Scalar.ofBits .f32 0x322BCC77#32))

theorem rowNormEps_apply (v : FVec Ideal ⟨2, ![m, n]⟩ .f32) (hR : (⟨2, ![m, n]⟩ : Shape).Reduces [1] ⟨1, ![m]⟩)
    (hC : (⟨1, ![m]⟩ : Shape).ShapeCasts ⟨2, ![m, 1]⟩) (p : Fin m) (c : Fin 1) :
    rowNormEps v hR hC (ix2 p c) = nrm (fun j => v (ix2 p j)) + eps := by
  show Ideal.sqrt (rowSqSum v hR hC (ix2 p c)) + Ideal.ofBits .f32 0x322BCC77#32 = _
  rw [rowSqSum_apply]; rfl

/-- Every row divided by (its length + the stabiliser). -/
def unitRows (v : FVec Ideal ⟨2, ![m, n]⟩ .f32) (hR : (⟨2, ![m, n]⟩ : Shape).Reduces [1] ⟨1, ![m]⟩)
    (hC : (⟨1, ![m]⟩ : Shape).ShapeCasts ⟨2, ![m, 1]⟩) (hB : (⟨2, ![m, 1]⟩ : Shape).Broadcasts ⟨2, ![m, n]⟩) :
    FVec Ideal ⟨2, ![m, n]⟩ .f32 :=
  divf v (broadcastTo ⟨2, ![m, n]⟩ (rowNormEps v hR hC) hB)

theorem unitRows_apply (v : FVec Ideal ⟨2, ![m, n]⟩ .f32) (hR : (⟨2, ![m, n]⟩ : Shape).Reduces [1] ⟨1, ![m]⟩)
    (hC : (⟨1, ![m]⟩ : Shape).ShapeCasts ⟨2, ![m, 1]⟩) (hB : (⟨2, ![m, 1]⟩ : Shape).Broadcasts ⟨2, ![m, n]⟩)
    (p : Fin m) (q : Fin n) :
    unitRows v hR hC hB (ix2 p q) = unitv (fun j => v (ix2 p j)) q := by
  show Ideal.div (v (ix2 p q)) (broadcastTo ⟨2, ![m, n]⟩ (rowNormEps v hR hC) hB (ix2 p q)) = _
  rw [bcastCol_apply, rowNormEps_apply]; rfl

/-- Two columns and one more, side by side. -/
theorem concat21_apply {α : Type} (x₁ : (⟨2, ![m, 2]⟩ : Shape).Idx → α) (x₂ : (⟨2, ![m, 1]⟩ : Shape).Idx → α)
    (h : Shape.Concatenates [(⟨2, ![m, 2]⟩ : Shape), ⟨2, ![m, 1]⟩] ⟨2, ![m, 3]⟩ 1) (p : Fin m) (c : Fin 3) :
    concatenate ⟨2, ![m, 3]⟩ 1 [⟨⟨2, ![m, 2]⟩, x₁⟩, ⟨⟨2, ![m, 1]⟩, x₂⟩] h (ix2 p c)
      = if hc : c.val < 2 then x₁ (ix2 p ⟨c.val, hc⟩) else x₂ (ix2 p (0 : Fin 1)) := by
  by_cases hc : c.val < 2
  · rw [dif_pos hc]
    refine concatenate_pair_apply_left (1 : Fin 2) x₁ x₂ h (ix2 p c) rfl (ix2 p ⟨c.val, hc⟩) fun b => ?_
    match b with
    | ⟨0, _⟩ => rfl
    | ⟨1, _⟩ => rfl
  · rw [dif_neg hc]
    refine concatenate_pair_apply_right (1 : Fin 2) x₁ x₂ h (ix2 p c) rfl rfl (ix2 p (0 : Fin 1)) (fun b hb => ?_) ?_
    · match b with
      | ⟨0, _⟩ => rfl
      | ⟨1, _⟩ => exact absurd rfl hb
    · show 0 + 2 = c.val
      have := c.isLt; omega

end Net

section Body
open Cert.Net Cert.KernelIdeal Cert.KernelIdeal.Gen

/-! The blocks are loaded through shape casts to their own shape: the identity. -/
theorem pay2_eq (x : Vec Ideal S1x3 .f32) : k0_pay2 (F := Ideal) x = x := shapeCast_self _ _
theorem pay3_eq (x : Vec Ideal S3x256 .bf16) : k0_pay3 (F := Ideal) x = x := shapeCast_self _ _
theorem pay4_eq (x : Vec Ideal S1x256 .f32) : k0_pay4 (F := Ideal) x = x := shapeCast_self _ _
theorem pay5_eq (x : Vec Ideal S256x256 .bf16) : k0_pay5 (F := Ideal) x = x := shapeCast_self _ _
theorem pay6_eq (x : Vec Ideal S1x256 .f32) : k0_pay6 (F := Ideal) x = x := shapeCast_self _ _
theorem pay7_eq (x : Vec Ideal S256x3 .bf16) : k0_pay7 (F := Ideal) x = x := shapeCast_self _ _
theorem pay8_eq (x : Vec Ideal S1x3 .f32) : k0_pay8 (F := Ideal) x = x := shapeCast_self _ _
theorem pay9_eq (x : Vec Ideal S3x384 .bf16) : k0_pay9 (F := Ideal) x = x := shapeCast_self _ _
theorem pay10_eq (x : Vec Ideal S1x384 .f32) : k0_pay10 (F := Ideal) x = x := shapeCast_self _ _
theorem pay11_eq (x : Vec Ideal S384x384 .bf16) : k0_pay11 (F := Ideal) x = x := shapeCast_self _ _
theorem pay12_eq (x : Vec Ideal S1x384 .f32) : k0_pay12 (F := Ideal) x = x := shapeCast_self _ _
theorem pay13_eq (x : Vec Ideal S384x7 .bf16) : k0_pay13 (F := Ideal) x = x := shapeCast_self _ _
theorem pay14_eq (x : Vec Ideal S1x7 .f32) : k0_pay14 (F := Ideal) x = x := shapeCast_self _ _

/-- The centred rows. -/
theorem pay15_apply (x0 : Vec Ideal S1024x3 .f32) (x1 : Vec Ideal S1x3 .f32) (p : Fin 1024) (j : Fin 3) :
    k0_pay15 (F := Ideal) x0 x1 (ix2 p j) = x0 (ix2 p j) - x1 (ix2 (0 : Fin 1) j) := by
  show x0 (ix2 p j) - broadcastTo S1024x3 (k0_pay2 (F := Ideal) x1) broadcasts_S1x3_S1024x3 (ix2 p j) = _
  rw [broadcastTo_1b_ab_apply, pay2_eq]

/-- The first tower's output rows (1024 × 3) from the centred rows `y`. -/
def oAV (y : FVec Ideal S1024x3 .f32) (W1 : FVec Ideal S3x256 .bf16) (b1 : FVec Ideal S1x256 .f32) (W2 : FVec Ideal S256x256 .bf16) (b2 : FVec Ideal S1x256 .f32) (W3 : FVec Ideal S256x3 .bf16) (b3 : FVec Ideal S1x3 .f32) : FVec Ideal S1024x3 .f32 :=
  mlpV dot_S1024x3_S3x256_S1024x256_1_0_0_1_n_n dot_S1024x256_S256x256_S1024x256_1_0_0_1_n_n dot_S1024x256_S256x3_S1024x3_1_0_0_1_n_n broadcasts_S1x256_S1024x256 broadcasts_S1x3_S1024x3 bitsLt_bf16_f32
    (unitRows y reduces_S1024x3_S1024 shapeCasts_S1024_S1024x1 broadcasts_S1024x1_S1024x3) W1 b1 W2 b2 W3 b3

/-- The code rows `w = (s · a) · e` (1024 × 2). -/
def encW (y : FVec Ideal S1024x3 .f32) (W1 : FVec Ideal S3x256 .bf16) (b1 : FVec Ideal S1x256 .f32) (W2 : FVec Ideal S256x256 .bf16) (b2 : FVec Ideal S1x256 .f32) (W3 : FVec Ideal S256x3 .bf16) (b3 : FVec Ideal S1x3 .f32) : FVec Ideal S1024x2 .f32 :=
  mulf (broadcastTo S1024x2 (mulf (rowSqSum y reduces_S1024x3_S1024 shapeCasts_S1024_S1024x1)
      (softplusV (extractStridedSlice S1024x1 ![0, 2] (oAV y W1 b1 W2 b2 W3 b3) slices_S1024x3_o0_2_S1024x1))) broadcasts_S1024x1_S1024x2)
    (unitRows (extractStridedSlice S1024x2 ![0, 0] (oAV y W1 b1 W2 b2 W3 b3) slices_S1024x3_o0_0_S1024x2) reduces_S1024x2_S1024 shapeCasts_S1024_S1024x1 broadcasts_S1024x1_S1024x2)

theorem bodyW_eq (x0 : Vec Ideal S1024x3 .f32) (x1 : Vec Ideal S1x3 .f32) (x2 : Vec Ideal S3x256 .bf16) (x3 : Vec Ideal S1x256 .f32)
    (x4 : Vec Ideal S256x256 .bf16) (x5 : Vec Ideal S1x256 .f32) (x6 : Vec Ideal S256x3 .bf16) (x7 : Vec Ideal S1x3 .f32) :
    bodyW (F := Ideal) x0 x1 x2 x3 x4 x5 x6 x7 = encW (k0_pay15 (F := Ideal) x0 x1) x2 x3 x4 x5 x6 x7 := by
  unfold bodyW
  rw [pay3_eq, pay4_eq, pay5_eq, pay6_eq, pay7_eq, pay8_eq]
  rfl

/-- One row of the code, on the extended reals. -/
def specW (y : Fin 3 → EReal) (A : Mlp 3 256 3) : Fin 2 → EReal :=
  fun j => (ssq y * softplus (A.apply (unitv y) 2)) * unitv (fun i : Fin 2 => A.apply (unitv y) ⟨i.val, by omega⟩) j

theorem oAV_apply (y : FVec Ideal S1024x3 .f32) (W1 : FVec Ideal S3x256 .bf16) (b1 : FVec Ideal S1x256 .f32) (W2 : FVec Ideal S256x256 .bf16) (b2 : FVec Ideal S1x256 .f32) (W3 : FVec Ideal S256x3 .bf16) (b3 : FVec Ideal S1x3 .f32) (p : Fin 1024) (q : Fin 3) :
    oAV y W1 b1 W2 b2 W3 b3 (ix2 p q) = (mlp2 W1 b1 W2 b2 W3 b3).apply (unitv (fun i => y (ix2 p i))) q := by
  unfold oAV
  rw [mlpV_apply _ _ _ ⟨rfl, rfl, rfl, rfl, rfl, rfl⟩ ⟨rfl, rfl, rfl, rfl, rfl, rfl⟩ ⟨rfl, rfl, rfl, rfl, rfl, rfl⟩]
  exact congrArg (fun f => (mlp2 W1 b1 W2 b2 W3 b3).apply f q) (funext fun i => unitRows_apply y _ _ _ p i)

theorem encW_apply (y : FVec Ideal S1024x3 .f32) (W1 : FVec Ideal S3x256 .bf16) (b1 : FVec Ideal S1x256 .f32) (W2 : FVec Ideal S256x256 .bf16) (b2 : FVec Ideal S1x256 .f32) (W3 : FVec Ideal S256x3 .bf16) (b3 : FVec Ideal S1x3 .f32) (p : Fin 1024) (j : Fin 2) :
    encW y W1 b1 W2 b2 W3 b3 (ix2 p j) = specW (fun i => y (ix2 p i)) (mlp2 W1 b1 W2 b2 W3 b3) j := by
  show broadcastTo S1024x2 (mulf (rowSqSum y reduces_S1024x3_S1024 shapeCasts_S1024_S1024x1)
      (softplusV (extractStridedSlice S1024x1 ![0, 2] (oAV y W1 b1 W2 b2 W3 b3) slices_S1024x3_o0_2_S1024x1))) broadcasts_S1024x1_S1024x2 (ix2 p j)
    * unitRows (extractStridedSlice S1024x2 ![0, 0] (oAV y W1 b1 W2 b2 W3 b3) slices_S1024x3_o0_0_S1024x2) reduces_S1024x2_S1024 shapeCasts_S1024_S1024x1 broadcasts_S1024x1_S1024x2 (ix2 p j) = _
  rw [bcastCol_apply, unitRows_apply]
  show rowSqSum y reduces_S1024x3_S1024 shapeCasts_S1024_S1024x1 (ix2 p (0 : Fin 1))
      * softplusV (extractStridedSlice S1024x1 ![0, 2] (oAV y W1 b1 W2 b2 W3 b3) slices_S1024x3_o0_2_S1024x1) (ix2 p (0 : Fin 1))
    * unitv (fun i => extractStridedSlice S1024x2 ![0, 0] (oAV y W1 b1 W2 b2 W3 b3) slices_S1024x3_o0_0_S1024x2 (ix2 p i)) j = _
  rw [rowSqSum_apply, softplusV_apply,
    slice2_axis1_apply 2 (oAV y W1 b1 W2 b2 W3 b3) slices_S1024x3_o0_2_S1024x1 p (0 : Fin 1) (2 : Fin 3) rfl, oAV_apply,
    show (fun i : Fin 2 => extractStridedSlice S1024x2 ![0, 0] (oAV y W1 b1 W2 b2 W3 b3) slices_S1024x3_o0_0_S1024x2 (ix2 p i))
      = fun i : Fin 2 => (mlp2 W1 b1 W2 b2 W3 b3).apply (unitv (fun i => y (ix2 p i))) ⟨i.val, by omega⟩ from
      funext fun i => (slice2_axis1_apply 0 (oAV y W1 b1 W2 b2 W3 b3) slices_S1024x3_o0_0_S1024x2 p i ⟨i.val, by omega⟩
        (Nat.zero_add _).symm).trans (oAV_apply y W1 b1 W2 b2 W3 b3 p _)]
  rfl

/-- The second tower's output rows (1024 × 7) from the code rows `w`: its input is `θ | log(|w| + ε)`. -/
def oBV (w : FVec Ideal S1024x2 .f32) (V1 : FVec Ideal S3x384 .bf16) (c1 : FVec Ideal S1x384 .f32) (V2 : FVec Ideal S384x384 .bf16) (c2 : FVec Ideal S1x384 .f32) (V3 : FVec Ideal S384x7 .bf16) (c3 : FVec Ideal S1x7 .f32) : FVec Ideal S1024x7 .f32 :=
  mlpV dot_S1024x3_S3x384_S1024x384_1_0_0_1_n_n dot_S1024x384_S384x384_S1024x384_1_0_0_1_n_n dot_S1024x384_S384x7_S1024x7_1_0_0_1_n_n broadcasts_S1x384_S1024x384 broadcasts_S1x7_S1024x7 bitsLt_bf16_f32
    (concatenate S1024x3 1 [⟨S1024x2, unitRows w reduces_S1024x2_S1024 shapeCasts_S1024_S1024x1 broadcasts_S1024x1_S1024x2⟩,
        ⟨S1024x1, log (rowNormEps w reduces_S1024x2_S1024 shapeCasts_S1024_S1024x1)⟩] concatenates_S1024x2_S1024x1_S1024x3_d1) V1 c1 V2 c2 V3 c3

/-- The base direction normalised, plus the correction. -/
def cSumV (oB : FVec Ideal S1024x7 .f32) : FVec Ideal S1024x3 .f32 :=
  addf (unitRows (extractStridedSlice S1024x3 ![0, 0] oB slices_S1024x7_o0_0_S1024x3) reduces_S1024x3_S1024 shapeCasts_S1024_S1024x1 broadcasts_S1024x1_S1024x3)
    (extractStridedSlice S1024x3 ![0, 3] oB slices_S1024x7_o0_3_S1024x3)

/-- The rebuilt rows. -/
def decV (c : FVec Ideal S1x3 .f32) (w : FVec Ideal S1024x2 .f32) (V1 : FVec Ideal S3x384 .bf16) (c1 : FVec Ideal S1x384 .f32) (V2 : FVec Ideal S384x384 .bf16) (c2 : FVec Ideal S1x384 .f32) (V3 : FVec Ideal S384x7 .bf16) (c3 : FVec Ideal S1x7 .f32) : FVec Ideal S1024x3 .f32 :=
  addf (broadcastTo S1024x3 c broadcasts_S1x3_S1024x3)
    (mulf (broadcastTo S1024x3 (sqrt (sqrt (rowSqSum w reduces_S1024x2_S1024 shapeCasts_S1024_S1024x1))) broadcasts_S1024x1_S1024x3)
      (mulf (broadcastTo S1024x3 (softplusV (extractStridedSlice S1024x1 ![0, 6] (oBV w V1 c1 V2 c2 V3 c3) slices_S1024x7_o0_6_S1024x1)) broadcasts_S1024x1_S1024x3)
        (unitRows (cSumV (oBV w V1 c1 V2 c2 V3 c3)) reduces_S1024x3_S1024 shapeCasts_S1024_S1024x1 broadcasts_S1024x1_S1024x3)))

theorem body0_eq (x0 : Vec Ideal S1024x3 .f32) (x1 : Vec Ideal S1x3 .f32) (x2 : Vec Ideal S3x256 .bf16) (x3 : Vec Ideal S1x256 .f32)
    (x4 : Vec Ideal S256x256 .bf16) (x5 : Vec Ideal S1x256 .f32) (x6 : Vec Ideal S256x3 .bf16) (x7 : Vec Ideal S1x3 .f32)
    (x8 : Vec Ideal S3x384 .bf16) (x9 : Vec Ideal S1x384 .f32) (x10 : Vec Ideal S384x384 .bf16) (x11 : Vec Ideal S1x384 .f32)
    (x12 : Vec Ideal S384x7 .bf16) (x13 : Vec Ideal S1x7 .f32) :
    body0 (F := Ideal) x0 x1 x2 x3 x4 x5 x6 x7 x8 x9 x10 x11 x12 x13
      = decV x1 (encW (k0_pay15 (F := Ideal) x0 x1) x2 x3 x4 x5 x6 x7) x8 x9 x10 x11 x12 x13 := by
  unfold body0
  rw [bodyW_eq, pay2_eq, pay9_eq, pay10_eq, pay11_eq, pay12_eq, pay13_eq, pay14_eq]
  rfl

/-- One rebuilt row, on the extended reals, from the center `c`, the code `w` and the second tower. -/
def specOut (c : Fin 3 → EReal) (w : Fin 2 → EReal) (B : Mlp 3 384 7) : Fin 3 → EReal :=
  let ci : Fin 3 → EReal := fun k => if h : k.val < 2 then unitv w ⟨k.val, h⟩ else Ideal.log (nrm w + eps)
  let oB : Fin 7 → EReal := B.apply ci
  let cb : Fin 3 → EReal := unitv (fun j : Fin 3 => oB ⟨j.val, by omega⟩)
  let cc : Fin 3 → EReal := unitv (fun j : Fin 3 => cb j + oB ⟨j.val + 3, by omega⟩)
  fun j => c j + Ideal.sqrt (nrm w) * (softplus (oB 6) * cc j)

theorem oBV_apply (w : FVec Ideal S1024x2 .f32) (V1 : FVec Ideal S3x384 .bf16) (c1 : FVec Ideal S1x384 .f32) (V2 : FVec Ideal S384x384 .bf16) (c2 : FVec Ideal S1x384 .f32) (V3 : FVec Ideal S384x7 .bf16) (c3 : FVec Ideal S1x7 .f32) (p : Fin 1024) (q : Fin 7) :
    oBV w V1 c1 V2 c2 V3 c3 (ix2 p q) = (mlp2 V1 c1 V2 c2 V3 c3).apply
      (fun k : Fin 3 => if h : k.val < 2 then unitv (fun i => w (ix2 p i)) ⟨k.val, h⟩ else Ideal.log (nrm (fun i => w (ix2 p i)) + eps)) q := by
  unfold oBV
  rw [mlpV_apply _ _ _ ⟨rfl, rfl, rfl, rfl, rfl, rfl⟩ ⟨rfl, rfl, rfl, rfl, rfl, rfl⟩ ⟨rfl, rfl, rfl, rfl, rfl, rfl⟩]
  refine congrArg (fun f => (mlp2 V1 c1 V2 c2 V3 c3).apply f q) (funext fun k => ?_)
  rw [concat21_apply]
  by_cases h : k.val < 2
  · rw [dif_pos h, dif_pos h, unitRows_apply]
  · rw [dif_neg h, dif_neg h]
    show Ideal.log (rowNormEps w reduces_S1024x2_S1024 shapeCasts_S1024_S1024x1 (ix2 p (0 : Fin 1))) = _
    rw [rowNormEps_apply]

theorem cSumV_apply (oB : FVec Ideal S1024x7 .f32) (p : Fin 1024) (q : Fin 3) :
    cSumV oB (ix2 p q) = unitv (fun j : Fin 3 => oB (ix2 p (⟨j.val, by omega⟩ : Fin 7))) q + oB (ix2 p (⟨q.val + 3, by omega⟩ : Fin 7)) := by
  show unitRows (extractStridedSlice S1024x3 ![0, 0] oB slices_S1024x7_o0_0_S1024x3) reduces_S1024x3_S1024 shapeCasts_S1024_S1024x1 broadcasts_S1024x1_S1024x3 (ix2 p q)
    + extractStridedSlice S1024x3 ![0, 3] oB slices_S1024x7_o0_3_S1024x3 (ix2 p q) = _
  rw [unitRows_apply, slice2_axis1_apply 3 oB slices_S1024x7_o0_3_S1024x3 p q (⟨q.val + 3, by omega⟩ : Fin 7) (Nat.add_comm _ _),
    show (fun j : Fin 3 => extractStridedSlice S1024x3 ![0, 0] oB slices_S1024x7_o0_0_S1024x3 (ix2 p j))
      = fun j : Fin 3 => oB (ix2 p (⟨j.val, by omega⟩ : Fin 7)) from
      funext fun j => slice2_axis1_apply 0 oB slices_S1024x7_o0_0_S1024x3 p j ⟨j.val, by omega⟩ (Nat.zero_add _).symm]

theorem decV_apply (c : FVec Ideal S1x3 .f32) (w : FVec Ideal S1024x2 .f32) (V1 : FVec Ideal S3x384 .bf16) (c1 : FVec Ideal S1x384 .f32) (V2 : FVec Ideal S384x384 .bf16) (c2 : FVec Ideal S1x384 .f32) (V3 : FVec Ideal S384x7 .bf16) (c3 : FVec Ideal S1x7 .f32) (p : Fin 1024) (q : Fin 3) :
    decV c w V1 c1 V2 c2 V3 c3 (ix2 p q) = specOut (fun j => c (ix2 (0 : Fin 1) j)) (fun j => w (ix2 p j)) (mlp2 V1 c1 V2 c2 V3 c3) q := by
  show broadcastTo S1024x3 c broadcasts_S1x3_S1024x3 (ix2 p q)
    + broadcastTo S1024x3 (sqrt (sqrt (rowSqSum w reduces_S1024x2_S1024 shapeCasts_S1024_S1024x1))) broadcasts_S1024x1_S1024x3 (ix2 p q)
      * (broadcastTo S1024x3 (softplusV (extractStridedSlice S1024x1 ![0, 6] (oBV w V1 c1 V2 c2 V3 c3) slices_S1024x7_o0_6_S1024x1)) broadcasts_S1024x1_S1024x3 (ix2 p q)
        * unitRows (cSumV (oBV w V1 c1 V2 c2 V3 c3)) reduces_S1024x3_S1024 shapeCasts_S1024_S1024x1 broadcasts_S1024x1_S1024x3 (ix2 p q)) = _
  rw [broadcastTo_1b_ab_apply, bcastCol_apply, bcastCol_apply, unitRows_apply]
  show c (ix2 (0 : Fin 1) q)
    + Ideal.sqrt (Ideal.sqrt (rowSqSum w reduces_S1024x2_S1024 shapeCasts_S1024_S1024x1 (ix2 p (0 : Fin 1))))
      * (softplusV (extractStridedSlice S1024x1 ![0, 6] (oBV w V1 c1 V2 c2 V3 c3) slices_S1024x7_o0_6_S1024x1) (ix2 p (0 : Fin 1))
        * unitv (fun j => cSumV (oBV w V1 c1 V2 c2 V3 c3) (ix2 p j)) q) = _
  rw [rowSqSum_apply, softplusV_apply,
    slice2_axis1_apply 6 (oBV w V1 c1 V2 c2 V3 c3) slices_S1024x7_o0_6_S1024x1 p (0 : Fin 1) (6 : Fin 7) rfl,
    show (fun j => cSumV (oBV w V1 c1 V2 c2 V3 c3) (ix2 p j)) = _ from funext fun j => cSumV_apply (oBV w V1 c1 V2 c2 V3 c3) p j]
  simp only [oBV_apply]
  rfl

/-- THE STORED BLOCK AT `(p, q)`: the kernel's row function of row `p` of the loaded blocks. -/
theorem body0_apply (x0 : Vec Ideal S1024x3 .f32) (x1 : Vec Ideal S1x3 .f32) (x2 : Vec Ideal S3x256 .bf16) (x3 : Vec Ideal S1x256 .f32)
    (x4 : Vec Ideal S256x256 .bf16) (x5 : Vec Ideal S1x256 .f32) (x6 : Vec Ideal S256x3 .bf16) (x7 : Vec Ideal S1x3 .f32)
    (x8 : Vec Ideal S3x384 .bf16) (x9 : Vec Ideal S1x384 .f32) (x10 : Vec Ideal S384x384 .bf16) (x11 : Vec Ideal S1x384 .f32)
    (x12 : Vec Ideal S384x7 .bf16) (x13 : Vec Ideal S1x7 .f32) (p : Fin 1024) (q : Fin 3) :
    body0 (F := Ideal) x0 x1 x2 x3 x4 x5 x6 x7 x8 x9 x10 x11 x12 x13 (ix2 p q)
      = kerRow (fun j => x0 (ix2 p j)) (fun j => x1 (ix2 (0 : Fin 1) j)) (mlp2 x2 x3 x4 x5 x6 x7) (mlp2 x8 x9 x10 x11 x12 x13) q := by
  rw [body0_eq, decV_apply,
    show (fun j => encW (k0_pay15 (F := Ideal) x0 x1) x2 x3 x4 x5 x6 x7 (ix2 p j))
      = specW (fun i => x0 (ix2 p i) - x1 (ix2 (0 : Fin 1) i)) (mlp2 x2 x3 x4 x5 x6 x7) from
      funext fun j => (encW_apply (k0_pay15 (F := Ideal) x0 x1) x2 x3 x4 x5 x6 x7 p j).trans
        (congrArg (fun f => specW f (mlp2 x2 x3 x4 x5 x6 x7) j) (funext fun i => pay15_apply x0 x1 p i))]
  rfl

end Body

end Cert.KernelIdeal.HFrame

end
-- ==== Proof.Fuse.lean ====
/-
  The kernel's two fused towers compute what the reference's five separate perceptrons compute, row by row, on the
  extended reals.

  Weights laid side by side make a dense layer give its two outputs side by side; block-diagonal weights make it act
  on each half of its input separately, because a zero block contributes x * 0 = 0 for every extended real (the
  infinities included) and 0 + a = a; a zero row under a first-layer matrix makes the layer ignore the last input.
  relu acts entry by entry, so a fused three-layer tower is the separate perceptrons' outputs side by side.
  The reference's two powers are the kernel's expressions: a sum of squares lies in [0, ⊤], where the square of
  the square root is the number itself and the power one half is the square root (both also at ⊤).
  This module is pure algebra; it imports no program.
-/
import proofs.«158485_j30597347016754_2_alg».proof.Proof.Spec

noncomputable section

namespace Cert.Net

open Idealize.ShloMosaic

/-! ### Laying vectors and matrices side by side -/

def hcat {k n1 n2 : ℕ} (a : Fin k → Fin n1 → EReal) (b : Fin k → Fin n2 → EReal) : Fin k → Fin (n1 + n2) → EReal :=
  fun i j => if h : j.val < n1 then a i ⟨j.val, h⟩ else b i ⟨j.val - n1, by omega⟩
def vcat {k1 k2 n : ℕ} (a : Fin k1 → Fin n → EReal) (b : Fin k2 → Fin n → EReal) : Fin (k1 + k2) → Fin n → EReal :=
  fun i j => if h : i.val < k1 then a ⟨i.val, h⟩ j else b ⟨i.val - k1, by omega⟩ j
def cat {n1 n2 : ℕ} (a : Fin n1 → EReal) (b : Fin n2 → EReal) : Fin (n1 + n2) → EReal :=
  fun j => if h : j.val < n1 then a ⟨j.val, h⟩ else b ⟨j.val - n1, by omega⟩
def zeros (k n : ℕ) : Fin k → Fin n → EReal := fun _ _ => 0
/-- Block diagonal: the first matrix top left, the second bottom right, zeros elsewhere. -/
def bdiag {k1 k2 n1 n2 : ℕ} (a : Fin k1 → Fin n1 → EReal) (b : Fin k2 → Fin n2 → EReal) :
    Fin (k1 + k2) → Fin (n1 + n2) → EReal :=
  vcat (hcat a (zeros k1 n2)) (hcat (zeros k2 n1) b)
/-- A zero third row under a two-row matrix. -/
def pad {n : ℕ} (a : Fin 2 → Fin n → EReal) : Fin 3 → Fin n → EReal := vcat a (zeros 1 n)

def fuseA (ea : Mlp 3 128 2) (em : Mlp 3 128 1) : Mlp 3 256 3 :=
  ⟨hcat ea.W1 em.W1, cat ea.b1 em.b1, bdiag ea.W2 em.W2, cat ea.b2 em.b2, bdiag ea.W3 em.W3, cat ea.b3 em.b3⟩
def fuseB (db : Mlp 2 128 3) (dc : Mlp 3 128 3) (dm : Mlp 2 128 1) : Mlp 3 384 7 :=
  ⟨hcat (hcat (pad db.W1) dc.W1) (pad dm.W1), cat (cat db.b1 dc.b1) dm.b1, bdiag (bdiag db.W2 dc.W2) dm.W2,
    cat (cat db.b2 dc.b2) dm.b2, bdiag (bdiag db.W3 dc.W3) dm.W3, cat (cat db.b3 dc.b3) dm.b3⟩

section Cat
variable {k k1 k2 n n1 n2 : ℕ}

theorem cat_castAdd (a : Fin n1 → EReal) (b : Fin n2 → EReal) (j : Fin n1) : cat a b (Fin.castAdd n2 j) = a j := by
  simp [cat]
theorem cat_natAdd (a : Fin n1 → EReal) (b : Fin n2 → EReal) (j : Fin n2) : cat a b (Fin.natAdd n1 j) = b j := by
  simp [cat]
theorem hcat_castAdd (a : Fin k → Fin n1 → EReal) (b : Fin k → Fin n2 → EReal) (i : Fin k) (j : Fin n1) :
    hcat a b i (Fin.castAdd n2 j) = a i j := by
  simp [hcat]
theorem hcat_natAdd (a : Fin k → Fin n1 → EReal) (b : Fin k → Fin n2 → EReal) (i : Fin k) (j : Fin n2) :
    hcat a b i (Fin.natAdd n1 j) = b i j := by
  simp [hcat]
theorem vcat_castAdd (a : Fin k1 → Fin n → EReal) (b : Fin k2 → Fin n → EReal) (i : Fin k1) (j : Fin n) :
    vcat a b (Fin.castAdd k2 i) j = a i j := by
  simp [vcat]
theorem vcat_natAdd (a : Fin k1 → Fin n → EReal) (b : Fin k2 → Fin n → EReal) (i : Fin k2) (j : Fin n) :
    vcat a b (Fin.natAdd k1 i) j = b i j := by
  simp [vcat]

/-- A dense layer over weights laid side by side is the two dense layers side by side. -/
theorem dense_hcat (v : Fin k → EReal) (W : Fin k → Fin n1 → EReal) (W' : Fin k → Fin n2 → EReal)
    (b : Fin n1 → EReal) (b' : Fin n2 → EReal) :
    dense v (hcat W W') (cat b b') = cat (dense v W b) (dense v W' b') := by
  funext j
  refine Fin.addCases (fun j => ?_) (fun j => ?_) j
  · simp only [dense, hcat_castAdd, cat_castAdd]
  · simp only [dense, hcat_natAdd, cat_natAdd]

/-- A dense layer over block-diagonal weights acts on each half of its input separately: a zero block
    contributes x * 0 = 0, which holds for every extended real, the infinities included. -/
theorem dense_bdiag (u : Fin k1 → EReal) (v : Fin k2 → EReal) (W : Fin k1 → Fin n1 → EReal)
    (W' : Fin k2 → Fin n2 → EReal) (b : Fin n1 → EReal) (b' : Fin n2 → EReal) :
    dense (cat u v) (bdiag W W') (cat b b') = cat (dense u W b) (dense v W' b') := by
  funext j
  refine Fin.addCases (fun j => ?_) (fun j => ?_) j
  · simp only [dense, bdiag, Fin.sum_univ_add, vcat_castAdd, vcat_natAdd, hcat_castAdd, cat_castAdd, cat_natAdd,
      zeros, mul_zero, Finset.sum_const_zero, add_zero]
  · simp only [dense, bdiag, Fin.sum_univ_add, vcat_castAdd, vcat_natAdd, hcat_natAdd, cat_castAdd, cat_natAdd,
      zeros, mul_zero, Finset.sum_const_zero, zero_add]

/-- relu, entry by entry. -/
def reluv {n : ℕ} (v : Fin n → EReal) : Fin n → EReal := fun j => relu (v j)

theorem reluv_cat (a : Fin n1 → EReal) (b : Fin n2 → EReal) : reluv (cat a b) = cat (reluv a) (reluv b) := by
  funext j
  refine Fin.addCases (fun j => ?_) (fun j => ?_) j
  · simp only [reluv, cat_castAdd]
  · simp only [reluv, cat_natAdd]

/-- A zero third row makes a dense layer ignore the third input. -/
theorem dense_pad (v : Fin 3 → EReal) (W : Fin 2 → Fin n → EReal) (b : Fin n → EReal) :
    dense v (pad W) b = dense (fun i : Fin 2 => v (Fin.castAdd 1 i)) W b := by
  funext j
  have h := Fin.sum_univ_add (a := 2) (b := 1) (fun i : Fin (2 + 1) => v i * pad W i j)
  simp only [dense]
  refine congrArg (· + b j) ?_
  refine h.trans ?_
  simp only [pad, vcat_castAdd, vcat_natAdd, zeros, mul_zero, Finset.sum_const_zero, add_zero]

end Cat

theorem Mlp.apply_eq {d h o : ℕ} (M : Mlp d h o) (v : Fin d → EReal) :
    M.apply v = dense (reluv (dense (reluv (dense v M.W1 M.b1)) M.W2 M.b2)) M.W3 M.b3 := rfl

theorem fuseA_apply (ea : Mlp 3 128 2) (em : Mlp 3 128 1) (u : Fin 3 → EReal) :
    (fuseA ea em).apply u = cat (ea.apply u) (em.apply u) := by
  simp only [Mlp.apply_eq, fuseA]
  rw [dense_hcat, reluv_cat, dense_bdiag, reluv_cat, dense_bdiag]

theorem fuseB_apply (db : Mlp 2 128 3) (dc : Mlp 3 128 3) (dm : Mlp 2 128 1) (ci : Fin 3 → EReal) :
    (fuseB db dc dm).apply ci
      = cat (cat (db.apply (fun i : Fin 2 => ci (Fin.castAdd 1 i))) (dc.apply ci))
          (dm.apply (fun i : Fin 2 => ci (Fin.castAdd 1 i))) := by
  simp only [Mlp.apply_eq, fuseB]
  rw [dense_hcat, dense_hcat, dense_pad, dense_pad, reluv_cat, reluv_cat, dense_bdiag, dense_bdiag, reluv_cat, reluv_cat,
    dense_bdiag, dense_bdiag]

/-! ### The reference's two powers -/

theorem two_eq : two = ((2 : ℝ) : EReal) := by
  simp [Ideal.ofBits, Ideal.ieee, -EReal.coe_mul]; norm_num
theorem half_eq : half = (((1 / 2 : ℝ)) : EReal) := by
  simp [Ideal.ofBits, Ideal.ieee, -EReal.coe_mul]; norm_num

theorem mul_self_nonneg_ereal (x : EReal) : 0 ≤ x * x := by
  induction x using EReal.rec with
  | bot => simp
  | coe r => exact_mod_cast mul_self_nonneg r
  | top => simp

theorem ssq_nonneg {n : ℕ} (v : Fin n → EReal) : 0 ≤ ssq v :=
  Finset.sum_nonneg (fun j _ => mul_self_nonneg_ereal (v j))

theorem sqrt_nonneg_of_nonneg {x : EReal} (hx : 0 ≤ x) : 0 ≤ Ideal.sqrt x := by
  induction x using EReal.rec with
  | bot => simp at hx
  | coe r =>
    have hr : 0 ≤ r := by exact_mod_cast hx
    rw [Ideal.sqrt_coe, if_neg (not_lt.mpr hr)]
    exact_mod_cast Real.sqrt_nonneg r
  | top => simp

theorem nrm_nonneg {n : ℕ} (v : Fin n → EReal) : 0 ≤ nrm v := sqrt_nonneg_of_nonneg (ssq_nonneg v)

/-- Squaring undoes the square root on the nonnegative extended reals, at the top too. -/
theorem pow_sqrt_two {x : EReal} (hx : 0 ≤ x) : Ideal.pow (Ideal.sqrt x) two = x := by
  rw [two_eq]
  induction x using EReal.rec with
  | bot => simp at hx
  | coe r =>
    have hr : 0 ≤ r := by exact_mod_cast hx
    rw [Ideal.sqrt_coe, if_neg (not_lt.mpr hr), Ideal.pow_coe_coe]
    have : Real.rpow (Real.sqrt r) 2 = r := by
      rw [Real.rpow_eq_pow, Real.rpow_two, Real.sq_sqrt hr]
    rw [this]
  | top =>
    have h2 : (0 : EReal) < ((2 : ℝ) : EReal) := by exact_mod_cast (two_pos : (0 : ℝ) < 2)
    rw [Ideal.sqrt_top, Ideal.pow_top, if_pos h2]

/-- The power one half is the square root on the nonnegative extended reals, at the top too. -/
theorem pow_half {x : EReal} (hx : 0 ≤ x) : Ideal.pow x half = Ideal.sqrt x := by
  rw [half_eq]
  induction x using EReal.rec with
  | bot => simp at hx
  | coe r =>
    have hr : 0 ≤ r := by exact_mod_cast hx
    rw [Ideal.sqrt_coe, if_neg (not_lt.mpr hr), Ideal.pow_coe_coe, Real.rpow_eq_pow, ← Real.sqrt_eq_rpow]
  | top =>
    have h2 : (0 : EReal) < ((1 / 2 : ℝ) : EReal) := by exact_mod_cast (by norm_num : (0 : ℝ) < 1 / 2)
    rw [Ideal.sqrt_top, Ideal.pow_top, if_pos h2]

theorem pow_nrm_two {n : ℕ} (v : Fin n → EReal) : Ideal.pow (nrm v) two = ssq v := pow_sqrt_two (ssq_nonneg v)
theorem pow_nrm_half {n : ℕ} (v : Fin n → EReal) : Ideal.pow (nrm v) half = Ideal.sqrt (nrm v) :=
  pow_half (nrm_nonneg v)

/-! ### Reading the fused towers' output columns -/

theorem catA_lo (a : Fin 2 → EReal) (b : Fin 1 → EReal) (j : Fin 2) (h : j.val < 3) :
    (cat a b : Fin 3 → EReal) ⟨j.val, h⟩ = a j := cat_castAdd a b j
theorem catA_hi (a : Fin 2 → EReal) (b : Fin 1 → EReal) : (cat a b : Fin 3 → EReal) 2 = b 0 := cat_natAdd a b 0
theorem catB_lo (a b : Fin 3 → EReal) (c : Fin 1 → EReal) (j : Fin 3) (h : j.val < 7) :
    (cat (cat a b) c : Fin 7 → EReal) ⟨j.val, h⟩ = a j :=
  (cat_castAdd (cat a b) c (Fin.castAdd 3 j)).trans (cat_castAdd a b j)
theorem catB_mid (a b : Fin 3 → EReal) (c : Fin 1 → EReal) (j : Fin 3) (h : j.val + 3 < 7) :
    (cat (cat a b) c : Fin 7 → EReal) ⟨j.val + 3, h⟩ = b j := by
  have e : (⟨j.val + 3, h⟩ : Fin 7) = Fin.castAdd 1 (Fin.natAdd 3 j) := Fin.ext (Nat.add_comm _ _)
  rw [e]
  exact (cat_castAdd (cat a b) c (Fin.natAdd 3 j)).trans (cat_natAdd a b j)
theorem catB_hi (a b : Fin 3 → EReal) (c : Fin 1 → EReal) : (cat (cat a b) c : Fin 7 → EReal) 6 = c 0 :=
  cat_natAdd (cat a b) c 0

/-- The kernel's row, with its two fused towers, is the reference's row with the five separate perceptrons. -/
theorem ker_eq_ref (x c : Fin 3 → EReal) (ea : Mlp 3 128 2) (em : Mlp 3 128 1) (db : Mlp 2 128 3)
    (dc : Mlp 3 128 3) (dm : Mlp 2 128 1) :
    kerRow x c (fuseA ea em) (fuseB db dc dm) = refRow x c ea em db dc dm := by
  simp only [kerRow, refRow, fuseA_apply, fuseB_apply, catA_lo, catA_hi, catB_lo, catB_mid, catB_hi,
    pow_nrm_two, pow_nrm_half, Fin.coe_castAdd, Fin.is_lt, dite_true, Fin.eta]
  rfl

end Cert.Net

end
-- ==== Proof.HostW.lean ====
/-
  The fused weight arrays, read entry by entry on the extended reals.

  Before the region runs, thirteen arrays are assembled from the perceptrons' weights: the centre as a one-row matrix;
  for tower A the two heads' first-layer weights side by side, their second- and third-layer weights block-diagonally
  (zero blocks off the diagonal), and their biases end to end as one-row matrices; for tower B the same with three
  heads, the two heads that read only the direction first getting a zero third row under their first-layer weights.
  Each array is one composition of concatenations, broadcasts of the zero word, reshapes of a vector to a one-row
  matrix and a narrowing of the element format.  At the exact instance the narrowing is the identity and the zero word
  is the number 0, a concatenation reads the piece whose span holds the coordinate, and a reshape keeps row-major
  order; so every array is, entry by entry, the side-by-side / stacked / block-diagonal matrix of the weights.
  The pieces are assembled by lemmas that take each piece's reading as a hypothesis, so a nested array is read in one
  term.
-/
import proofs.«158485_j30597347016754_2_alg».proof.Proof.Gen.KernelIdeal.Launch
import proofs.«158485_j30597347016754_2_alg».proof.Proof.Fuse
import Idealize.ShloMosaic.Lib.ValueIdx
import Idealize.ShloMosaic.Lib.Pipeline.Value

noncomputable section

namespace Cert.KernelIdeal.HostW

open Idealize.ShloMosaic Idealize.ShloMosaic.ValueIdx
open Cert.KernelIdeal Cert.KernelIdeal.Gen
open Cert.Net (hcat vcat cat zeros bdiag pad)

/-! ## Concatenations, zero blocks and row reshapes read as matrices and vectors

A rank-2 array `x` is read as the matrix `fun i j => x (ix2 i j)`, a rank-1 array as the vector `fun j => x (ix1 j)`.
Each lemma takes the readings of the pieces as hypotheses, so that the reading of a nested construction is assembled
piece by piece. -/

section Pieces
variable {k k1 k2 n n1 n2 n3 : ℕ}

theorem hcat_lt (a : Fin k → Fin n1 → EReal) (b : Fin k → Fin n2 → EReal) (i : Fin k) (j : Fin (n1 + n2))
    (h : j.val < n1) : hcat a b i j = a i ⟨j.val, h⟩ := dif_pos h
theorem hcat_ge (a : Fin k → Fin n1 → EReal) (b : Fin k → Fin n2 → EReal) (i : Fin k) (j : Fin (n1 + n2))
    (h : ¬ j.val < n1) : hcat a b i j = b i ⟨j.val - n1, by omega⟩ := dif_neg h
theorem cat_lt (a : Fin n1 → EReal) (b : Fin n2 → EReal) (j : Fin (n1 + n2))
    (h : j.val < n1) : cat a b j = a ⟨j.val, h⟩ := dif_pos h
theorem cat_ge (a : Fin n1 → EReal) (b : Fin n2 → EReal) (j : Fin (n1 + n2))
    (h : ¬ j.val < n1) : cat a b j = b ⟨j.val - n1, by omega⟩ := dif_neg h

/-- Two arrays side by side along the second axis. -/
theorem cols_eq {A : Fin k → Fin n1 → EReal} {B : Fin k → Fin n2 → EReal}
    (x₁ : (⟨2, ![k, n1]⟩ : Shape).Idx → EReal) (x₂ : (⟨2, ![k, n2]⟩ : Shape).Idx → EReal)
    (h : Shape.Concatenates [(⟨2, ![k, n1]⟩ : Shape), ⟨2, ![k, n2]⟩] ⟨2, ![k, n1 + n2]⟩ 1)
    (h₁ : (fun i j => x₁ (ix2 i j)) = A) (h₂ : (fun i j => x₂ (ix2 i j)) = B) :
    (fun i j => concatenate ⟨2, ![k, n1 + n2]⟩ 1 [⟨⟨2, ![k, n1]⟩, x₁⟩, ⟨⟨2, ![k, n2]⟩, x₂⟩] h (ix2 i j)) = hcat A B := by
  subst h₁ h₂
  funext i j
  by_cases hj : j.val < n1
  · refine Eq.trans ?_ (hcat_lt _ _ i j hj).symm
    exact concatenate_pair_apply_left (t := ⟨2, ![k, n1 + n2]⟩) (s₁ := ⟨2, ![k, n1]⟩) (s₂ := ⟨2, ![k, n2]⟩) (1 : Fin 2)
      x₁ x₂ h (ix2 i j) rfl (ix2 i ⟨j.val, hj⟩) (fun b => by
        match b with
        | ⟨0, _⟩ => rfl
        | ⟨1, _⟩ => rfl)
  · refine Eq.trans ?_ (hcat_ge _ _ i j hj).symm
    exact concatenate_pair_apply_right (t := ⟨2, ![k, n1 + n2]⟩) (s₁ := ⟨2, ![k, n1]⟩) (s₂ := ⟨2, ![k, n2]⟩) (1 : Fin 2)
      x₁ x₂ h (ix2 i j) rfl rfl (ix2 i ⟨j.val - n1, by omega⟩) (fun b hb => by
        match b with
        | ⟨0, _⟩ => rfl
        | ⟨1, _⟩ => exact absurd rfl hb) (by show j.val - n1 + n1 = j.val; omega)

/-- Two arrays one above the other along the first axis. -/
theorem rows_eq {A : Fin k1 → Fin n → EReal} {B : Fin k2 → Fin n → EReal}
    (x₁ : (⟨2, ![k1, n]⟩ : Shape).Idx → EReal) (x₂ : (⟨2, ![k2, n]⟩ : Shape).Idx → EReal)
    (h : Shape.Concatenates [(⟨2, ![k1, n]⟩ : Shape), ⟨2, ![k2, n]⟩] ⟨2, ![k1 + k2, n]⟩ 0)
    (h₁ : (fun i j => x₁ (ix2 i j)) = A) (h₂ : (fun i j => x₂ (ix2 i j)) = B) :
    (fun i j => concatenate ⟨2, ![k1 + k2, n]⟩ 0 [⟨⟨2, ![k1, n]⟩, x₁⟩, ⟨⟨2, ![k2, n]⟩, x₂⟩] h (ix2 i j)) = vcat A B := by
  subst h₁ h₂
  funext i j
  by_cases hi : i.val < k1
  · refine Eq.trans ?_ (dif_pos hi).symm
    exact concatenate_pair_apply_left (t := ⟨2, ![k1 + k2, n]⟩) (s₁ := ⟨2, ![k1, n]⟩) (s₂ := ⟨2, ![k2, n]⟩) (0 : Fin 2)
      x₁ x₂ h (ix2 i j) rfl (ix2 ⟨i.val, hi⟩ j) (fun b => by
        match b with
        | ⟨0, _⟩ => rfl
        | ⟨1, _⟩ => rfl)
  · refine Eq.trans ?_ (dif_neg hi).symm
    exact concatenate_pair_apply_right (t := ⟨2, ![k1 + k2, n]⟩) (s₁ := ⟨2, ![k1, n]⟩) (s₂ := ⟨2, ![k2, n]⟩) (0 : Fin 2)
      x₁ x₂ h (ix2 i j) rfl rfl (ix2 ⟨i.val - k1, by omega⟩ j) (fun b hb => by
        match b with
        | ⟨0, _⟩ => exact absurd rfl hb
        | ⟨1, _⟩ => rfl) (by show i.val - k1 + k1 = i.val; omega)

/-- Two vectors end to end. -/
theorem vec_eq {A : Fin n1 → EReal} {B : Fin n2 → EReal}
    (x₁ : (⟨1, ![n1]⟩ : Shape).Idx → EReal) (x₂ : (⟨1, ![n2]⟩ : Shape).Idx → EReal)
    (h : Shape.Concatenates [(⟨1, ![n1]⟩ : Shape), ⟨1, ![n2]⟩] ⟨1, ![n1 + n2]⟩ 0)
    (h₁ : (fun j => x₁ (ix1 j)) = A) (h₂ : (fun j => x₂ (ix1 j)) = B) :
    (fun j => concatenate ⟨1, ![n1 + n2]⟩ 0 [⟨⟨1, ![n1]⟩, x₁⟩, ⟨⟨1, ![n2]⟩, x₂⟩] h (ix1 j)) = cat A B := by
  subst h₁ h₂
  funext j
  by_cases hj : j.val < n1
  · refine Eq.trans ?_ (cat_lt _ _ j hj).symm
    exact concatenate_pair_apply_left (t := ⟨1, ![n1 + n2]⟩) (s₁ := ⟨1, ![n1]⟩) (s₂ := ⟨1, ![n2]⟩) (0 : Fin 1)
      x₁ x₂ h (ix1 j) rfl (ix1 ⟨j.val, hj⟩) (fun b => by
        match b with
        | ⟨0, _⟩ => rfl)
  · refine Eq.trans ?_ (cat_ge _ _ j hj).symm
    exact concatenate_pair_apply_right (t := ⟨1, ![n1 + n2]⟩) (s₁ := ⟨1, ![n1]⟩) (s₂ := ⟨1, ![n2]⟩) (0 : Fin 1)
      x₁ x₂ h (ix1 j) rfl rfl (ix1 ⟨j.val - n1, by omega⟩) (fun b hb => by
        match b with
        | ⟨0, _⟩ => exact absurd rfl hb) (by show j.val - n1 + n1 = j.val; omega)

/-- Three arrays side by side along the second axis. -/
theorem cols3_eq {A : Fin k → Fin n1 → EReal} {B : Fin k → Fin n2 → EReal} {C : Fin k → Fin n3 → EReal}
    (x₁ : (⟨2, ![k, n1]⟩ : Shape).Idx → EReal) (x₂ : (⟨2, ![k, n2]⟩ : Shape).Idx → EReal)
    (x₃ : (⟨2, ![k, n3]⟩ : Shape).Idx → EReal)
    (h : Shape.Concatenates [(⟨2, ![k, n1]⟩ : Shape), ⟨2, ![k, n2]⟩, ⟨2, ![k, n3]⟩] ⟨2, ![k, n1 + n2 + n3]⟩ 1)
    (h₁ : (fun i j => x₁ (ix2 i j)) = A) (h₂ : (fun i j => x₂ (ix2 i j)) = B) (h₃ : (fun i j => x₃ (ix2 i j)) = C) :
    (fun i j => concatenate ⟨2, ![k, n1 + n2 + n3]⟩ 1
        [⟨⟨2, ![k, n1]⟩, x₁⟩, ⟨⟨2, ![k, n2]⟩, x₂⟩, ⟨⟨2, ![k, n3]⟩, x₃⟩] h (ix2 i j)) = hcat (hcat A B) C := by
  subst h₁ h₂ h₃
  funext i j
  by_cases h12 : j.val < n1 + n2
  · refine Eq.trans ?_ (hcat_lt _ _ i j h12).symm
    by_cases h1 : j.val < n1
    · refine Eq.trans ?_ (hcat_lt _ _ i ⟨j.val, h12⟩ h1).symm
      exact concatenate_apply_piece (t := ⟨2, ![k, n1 + n2 + n3]⟩) (1 : Fin 2) [⟨⟨2, ![k, n1]⟩, x₁⟩, ⟨⟨2, ![k, n2]⟩, x₂⟩, ⟨⟨2, ![k, n3]⟩, x₃⟩] h (ix2 i j) 0 (by simp)
        ⟨2, ![k, n1]⟩ x₁ rfl rfl 0 rfl (ix2 i ⟨j.val, h1⟩) (fun b hb => by
          match b with
          | ⟨0, _⟩ => rfl
          | ⟨1, _⟩ => exact absurd rfl hb) (by show 0 + j.val = j.val; omega)
    · refine Eq.trans ?_ (hcat_ge _ _ i ⟨j.val, h12⟩ h1).symm
      exact concatenate_apply_piece (t := ⟨2, ![k, n1 + n2 + n3]⟩) (1 : Fin 2) [⟨⟨2, ![k, n1]⟩, x₁⟩, ⟨⟨2, ![k, n2]⟩, x₂⟩, ⟨⟨2, ![k, n3]⟩, x₃⟩] h (ix2 i j) 1 (by simp)
        ⟨2, ![k, n2]⟩ x₂ rfl rfl n1 (by simp) (ix2 i ⟨j.val - n1, by omega⟩) (fun b hb => by
          match b with
          | ⟨0, _⟩ => rfl
          | ⟨1, _⟩ => exact absurd rfl hb) (by show n1 + (j.val - n1) = j.val; omega)
  · refine Eq.trans ?_ (hcat_ge _ _ i j h12).symm
    exact concatenate_apply_piece (t := ⟨2, ![k, n1 + n2 + n3]⟩) (1 : Fin 2) [⟨⟨2, ![k, n1]⟩, x₁⟩, ⟨⟨2, ![k, n2]⟩, x₂⟩, ⟨⟨2, ![k, n3]⟩, x₃⟩] h (ix2 i j) 2 (by simp)
      ⟨2, ![k, n3]⟩ x₃ rfl rfl (n1 + n2) (by simp) (ix2 i ⟨j.val - (n1 + n2), by omega⟩) (fun b hb => by
        match b with
        | ⟨0, _⟩ => rfl
        | ⟨1, _⟩ => exact absurd rfl hb) (by show n1 + n2 + (j.val - (n1 + n2)) = j.val; omega)

/-- Three vectors end to end. -/
theorem vec3_eq {A : Fin n1 → EReal} {B : Fin n2 → EReal} {C : Fin n3 → EReal}
    (x₁ : (⟨1, ![n1]⟩ : Shape).Idx → EReal) (x₂ : (⟨1, ![n2]⟩ : Shape).Idx → EReal) (x₃ : (⟨1, ![n3]⟩ : Shape).Idx → EReal)
    (h : Shape.Concatenates [(⟨1, ![n1]⟩ : Shape), ⟨1, ![n2]⟩, ⟨1, ![n3]⟩] ⟨1, ![n1 + n2 + n3]⟩ 0)
    (h₁ : (fun j => x₁ (ix1 j)) = A) (h₂ : (fun j => x₂ (ix1 j)) = B) (h₃ : (fun j => x₃ (ix1 j)) = C) :
    (fun j => concatenate ⟨1, ![n1 + n2 + n3]⟩ 0
        [⟨⟨1, ![n1]⟩, x₁⟩, ⟨⟨1, ![n2]⟩, x₂⟩, ⟨⟨1, ![n3]⟩, x₃⟩] h (ix1 j)) = cat (cat A B) C := by
  subst h₁ h₂ h₃
  funext j
  by_cases h12 : j.val < n1 + n2
  · refine Eq.trans ?_ (cat_lt _ _ j h12).symm
    by_cases h1 : j.val < n1
    · refine Eq.trans ?_ (cat_lt _ _ ⟨j.val, h12⟩ h1).symm
      exact concatenate_apply_piece (t := ⟨1, ![n1 + n2 + n3]⟩) (0 : Fin 1) [⟨⟨1, ![n1]⟩, x₁⟩, ⟨⟨1, ![n2]⟩, x₂⟩, ⟨⟨1, ![n3]⟩, x₃⟩] h (ix1 j) 0 (by simp)
        ⟨1, ![n1]⟩ x₁ rfl rfl 0 rfl (ix1 ⟨j.val, h1⟩) (fun b hb => by
          match b with
          | ⟨0, _⟩ => exact absurd rfl hb) (by show 0 + j.val = j.val; omega)
    · refine Eq.trans ?_ (cat_ge _ _ ⟨j.val, h12⟩ h1).symm
      exact concatenate_apply_piece (t := ⟨1, ![n1 + n2 + n3]⟩) (0 : Fin 1) [⟨⟨1, ![n1]⟩, x₁⟩, ⟨⟨1, ![n2]⟩, x₂⟩, ⟨⟨1, ![n3]⟩, x₃⟩] h (ix1 j) 1 (by simp)
        ⟨1, ![n2]⟩ x₂ rfl rfl n1 (by simp) (ix1 ⟨j.val - n1, by omega⟩) (fun b hb => by
          match b with
          | ⟨0, _⟩ => exact absurd rfl hb) (by show n1 + (j.val - n1) = j.val; omega)
  · refine Eq.trans ?_ (cat_ge _ _ j h12).symm
    exact concatenate_apply_piece (t := ⟨1, ![n1 + n2 + n3]⟩) (0 : Fin 1) [⟨⟨1, ![n1]⟩, x₁⟩, ⟨⟨1, ![n2]⟩, x₂⟩, ⟨⟨1, ![n3]⟩, x₃⟩] h (ix1 j) 2 (by simp)
      ⟨1, ![n3]⟩ x₃ rfl rfl (n1 + n2) (by simp) (ix1 ⟨j.val - (n1 + n2), by omega⟩) (fun b hb => by
        match b with
        | ⟨0, _⟩ => exact absurd rfl hb) (by show n1 + n2 + (j.val - (n1 + n2)) = j.val; omega)

/-- A block filled with the zero word is the zero matrix. -/
theorem zero_eq (h : S_.BroadcastsInDim ⟨2, ![k, n]⟩ (![] : Fin 0 → Fin (⟨2, ![k, n]⟩ : Shape).rank)) :
    (fun i j => broadcastInDim ⟨2, ![k, n]⟩ ![] h (constant (F := Ideal) S_ .f32 0x00000000#32) (ix2 i j)) = zeros k n := by
  funext i j
  exact Ideal.ofBits_zero_f32

/-- A vector reshaped to a one-row matrix, read along the row. -/
theorem row_eq {A : Fin n → EReal} (x : (⟨1, ![n]⟩ : Shape).Idx → EReal) (h : (⟨1, ![n]⟩ : Shape).ShapeCasts ⟨2, ![1, n]⟩)
    (h₁ : (fun j => x (ix1 j)) = A) :
    (fun j => shapeCast ⟨2, ![1, n]⟩ x h (ix2 (0 : Fin 1) j)) = A := by
  subst h₁
  funext j
  exact shapeCast_apply x h (ix2 (0 : Fin 1) j) (ix1 j) (by
    rw [Shape.rowMajor_val_two, Shape.rowMajor_val_one]; show j.val = 0 * n + j.val; omega)

end Pieces

/-! ## The thirteen arrays, as pure terms of the argument arrays -/

section Defs
variable {F : FTy → Type} [FloatOps F]

/-- The centre as a one-row matrix. -/
def center2 (a1 : (⟨S3, .f32⟩ : BufTy).Contents (Elt F)) : (⟨S1x3, .f32⟩ : BufTy).Contents (Elt F) :=
  shapeCast S1x3 a1 shapeCasts_S3_S1x3

/-- First-layer weights of tower A: the two heads' weights side by side. -/
def W1A (a2 a8 : (⟨S3x128, .f32⟩ : BufTy).Contents (Elt F)) : (⟨S3x256, .bf16⟩ : BufTy).Contents (Elt F) :=
  truncf .bf16 (concatenate S3x256 1 [⟨S3x128, a2⟩, ⟨S3x128, a8⟩] concatenates_S3x128_S3x128_S3x256_d1) bitsLt_bf16_f32
/-- First-layer bias of tower A. -/
def b1A (a3 a9 : (⟨S128, .f32⟩ : BufTy).Contents (Elt F)) : (⟨S1x256, .f32⟩ : BufTy).Contents (Elt F) :=
  shapeCast S1x256 (concatenate S256 0 [⟨S128, a3⟩, ⟨S128, a9⟩] concatenates_S128_S128_S256_d0) shapeCasts_S256_S1x256
/-- Second-layer weights of tower A: block diagonal. -/
def W2A (a4 a10 : (⟨S128x128, .f32⟩ : BufTy).Contents (Elt F)) : (⟨S256x256, .bf16⟩ : BufTy).Contents (Elt F) :=
  truncf .bf16 (concatenate S256x256 0 [⟨S128x256, (concatenate S128x256 1 [⟨S128x128, a4⟩, ⟨S128x128, (broadcastInDim S128x128 ![] bcast_S_S128x128 (constant S_ .f32 0x00000000#32))⟩] concatenates_S128x128_S128x128_S128x256_d1)⟩, ⟨S128x256, (concatenate S128x256 1 [⟨S128x128, (broadcastInDim S128x128 ![] bcast_S_S128x128 (constant S_ .f32 0x00000000#32))⟩, ⟨S128x128, a10⟩] concatenates_S128x128_S128x128_S128x256_d1)⟩] concatenates_S128x256_S128x256_S256x256_d0) bitsLt_bf16_f32
/-- Second-layer bias of tower A. -/
def b2A (a5 a11 : (⟨S128, .f32⟩ : BufTy).Contents (Elt F)) : (⟨S1x256, .f32⟩ : BufTy).Contents (Elt F) :=
  shapeCast S1x256 (concatenate S256 0 [⟨S128, a5⟩, ⟨S128, a11⟩] concatenates_S128_S128_S256_d0) shapeCasts_S256_S1x256
/-- Third-layer weights of tower A: block diagonal. -/
def W3A (a6 : (⟨S128x2, .f32⟩ : BufTy).Contents (Elt F)) (a12 : (⟨S128x1, .f32⟩ : BufTy).Contents (Elt F)) : (⟨S256x3, .bf16⟩ : BufTy).Contents (Elt F) :=
  truncf .bf16 (concatenate S256x3 0 [⟨S128x3, (concatenate S128x3 1 [⟨S128x2, a6⟩, ⟨S128x1, (broadcastInDim S128x1 ![] bcast_S_S128x1 (constant S_ .f32 0x00000000#32))⟩] concatenates_S128x2_S128x1_S128x3_d1)⟩, ⟨S128x3, (concatenate S128x3 1 [⟨S128x2, (broadcastInDim S128x2 ![] bcast_S_S128x2 (constant S_ .f32 0x00000000#32))⟩, ⟨S128x1, a12⟩] concatenates_S128x2_S128x1_S128x3_d1)⟩] concatenates_S128x3_S128x3_S256x3_d0) bitsLt_bf16_f32
/-- Third-layer bias of tower A. -/
def b3A (a7 : (⟨S2, .f32⟩ : BufTy).Contents (Elt F)) (a13 : (⟨S1, .f32⟩ : BufTy).Contents (Elt F)) : (⟨S1x3, .f32⟩ : BufTy).Contents (Elt F) :=
  shapeCast S1x3 (concatenate S3 0 [⟨S2, a7⟩, ⟨S1, a13⟩] concatenates_S2_S1_S3_d0) shapeCasts_S3_S1x3

/-- First-layer weights of tower B: the three heads' weights side by side, the two-input heads padded with a zero row. -/
def W1B (a14 : (⟨S2x128, .f32⟩ : BufTy).Contents (Elt F)) (a20 : (⟨S3x128, .f32⟩ : BufTy).Contents (Elt F)) (a26 : (⟨S2x128, .f32⟩ : BufTy).Contents (Elt F)) : (⟨S3x384, .bf16⟩ : BufTy).Contents (Elt F) :=
  truncf .bf16 (concatenate S3x384 1 [⟨S3x128, (concatenate S3x128 0 [⟨S2x128, a14⟩, ⟨S1x128, (broadcastInDim S1x128 ![] bcast_S_S1x128 (constant S_ .f32 0x00000000#32))⟩] concatenates_S2x128_S1x128_S3x128_d0)⟩, ⟨S3x128, a20⟩, ⟨S3x128, (concatenate S3x128 0 [⟨S2x128, a26⟩, ⟨S1x128, (broadcastInDim S1x128 ![] bcast_S_S1x128 (constant S_ .f32 0x00000000#32))⟩] concatenates_S2x128_S1x128_S3x128_d0)⟩] concatenates_S3x128_S3x128_S3x128_S3x384_d1) bitsLt_bf16_f32
/-- First-layer bias of tower B. -/
def b1B (a15 a21 a27 : (⟨S128, .f32⟩ : BufTy).Contents (Elt F)) : (⟨S1x384, .f32⟩ : BufTy).Contents (Elt F) :=
  shapeCast S1x384 (concatenate S384 0 [⟨S128, a15⟩, ⟨S128, a21⟩, ⟨S128, a27⟩] concatenates_S128_S128_S128_S384_d0) shapeCasts_S384_S1x384
/-- Second-layer weights of tower B: block diagonal of three. -/
def W2B (a16 a22 a28 : (⟨S128x128, .f32⟩ : BufTy).Contents (Elt F)) : (⟨S384x384, .bf16⟩ : BufTy).Contents (Elt F) :=
  truncf .bf16 (concatenate S384x384 0 [⟨S256x384, (concatenate S256x384 1 [⟨S256x256, (concatenate S256x256 0 [⟨S128x256, (concatenate S128x256 1 [⟨S128x128, a16⟩, ⟨S128x128, (broadcastInDim S128x128 ![] bcast_S_S128x128 (constant S_ .f32 0x00000000#32))⟩] concatenates_S128x128_S128x128_S128x256_d1)⟩, ⟨S128x256, (concatenate S128x256 1 [⟨S128x128, (broadcastInDim S128x128 ![] bcast_S_S128x128 (constant S_ .f32 0x00000000#32))⟩, ⟨S128x128, a22⟩] concatenates_S128x128_S128x128_S128x256_d1)⟩] concatenates_S128x256_S128x256_S256x256_d0)⟩, ⟨S256x128, (broadcastInDim S256x128 ![] bcast_S_S256x128 (constant S_ .f32 0x00000000#32))⟩] concatenates_S256x256_S256x128_S256x384_d1)⟩, ⟨S128x384, (concatenate S128x384 1 [⟨S128x256, (broadcastInDim S128x256 ![] bcast_S_S128x256 (constant S_ .f32 0x00000000#32))⟩, ⟨S128x128, a28⟩] concatenates_S128x256_S128x128_S128x384_d1)⟩] concatenates_S256x384_S128x384_S384x384_d0) bitsLt_bf16_f32
/-- Second-layer bias of tower B. -/
def b2B (a17 a23 a29 : (⟨S128, .f32⟩ : BufTy).Contents (Elt F)) : (⟨S1x384, .f32⟩ : BufTy).Contents (Elt F) :=
  shapeCast S1x384 (concatenate S384 0 [⟨S128, a17⟩, ⟨S128, a23⟩, ⟨S128, a29⟩] concatenates_S128_S128_S128_S384_d0) shapeCasts_S384_S1x384
/-- Third-layer weights of tower B: block diagonal of three. -/
def W3B (a18 a24 : (⟨S128x3, .f32⟩ : BufTy).Contents (Elt F)) (a30 : (⟨S128x1, .f32⟩ : BufTy).Contents (Elt F)) : (⟨S384x7, .bf16⟩ : BufTy).Contents (Elt F) :=
  truncf .bf16 (concatenate S384x7 0 [⟨S256x7, (concatenate S256x7 1 [⟨S256x6, (concatenate S256x6 0 [⟨S128x6, (concatenate S128x6 1 [⟨S128x3, a18⟩, ⟨S128x3, (broadcastInDim S128x3 ![] bcast_S_S128x3 (constant S_ .f32 0x00000000#32))⟩] concatenates_S128x3_S128x3_S128x6_d1)⟩, ⟨S128x6, (concatenate S128x6 1 [⟨S128x3, (broadcastInDim S128x3 ![] bcast_S_S128x3 (constant S_ .f32 0x00000000#32))⟩, ⟨S128x3, a24⟩] concatenates_S128x3_S128x3_S128x6_d1)⟩] concatenates_S128x6_S128x6_S256x6_d0)⟩, ⟨S256x1, (broadcastInDim S256x1 ![] bcast_S_S256x1 (constant S_ .f32 0x00000000#32))⟩] concatenates_S256x6_S256x1_S256x7_d1)⟩, ⟨S128x7, (concatenate S128x7 1 [⟨S128x6, (broadcastInDim S128x6 ![] bcast_S_S128x6 (constant S_ .f32 0x00000000#32))⟩, ⟨S128x1, a30⟩] concatenates_S128x6_S128x1_S128x7_d1)⟩] concatenates_S256x7_S128x7_S384x7_d0) bitsLt_bf16_f32
/-- Third-layer bias of tower B. -/
def b3B (a19 a25 : (⟨S3, .f32⟩ : BufTy).Contents (Elt F)) (a31 : (⟨S1, .f32⟩ : BufTy).Contents (Elt F)) : (⟨S1x7, .f32⟩ : BufTy).Contents (Elt F) :=
  shapeCast S1x7 (concatenate S7 0 [⟨S3, a19⟩, ⟨S3, a25⟩, ⟨S1, a31⟩] concatenates_S3_S3_S1_S7_d0) shapeCasts_S7_S1x7

end Defs

/-! ## The arrays at the exact instance, read as matrices and vectors -/

section AtIdeal

theorem W1A_mat (a2 a8 : (⟨S3x128, .f32⟩ : BufTy).Contents (Elt Ideal)) :
    (fun (i : Fin 3) (j : Fin 256) => W1A (F := Ideal) a2 a8 (ix2 i j)) = hcat (fun i j => a2 (ix2 i j)) (fun i j => a8 (ix2 i j)) :=
  cols_eq (k := 3) (n1 := 128) (n2 := 128) a2 a8 concatenates_S3x128_S3x128_S3x256_d1 rfl rfl

theorem b1A_vec (a3 a9 : (⟨S128, .f32⟩ : BufTy).Contents (Elt Ideal)) :
    (fun (j : Fin 256) => b1A (F := Ideal) a3 a9 (ix2 (0 : Fin 1) j)) = cat (fun j => a3 (ix1 j)) (fun j => a9 (ix1 j)) :=
  row_eq (n := 128 + 128) _ shapeCasts_S256_S1x256
    (vec_eq (n1 := 128) (n2 := 128) a3 a9 concatenates_S128_S128_S256_d0 rfl rfl)

theorem W2A_mat (a4 a10 : (⟨S128x128, .f32⟩ : BufTy).Contents (Elt Ideal)) :
    (fun (i : Fin 256) (j : Fin 256) => W2A (F := Ideal) a4 a10 (ix2 i j)) = bdiag (fun i j => a4 (ix2 i j)) (fun i j => a10 (ix2 i j)) :=
  (rows_eq (k1 := 128) (k2 := 128) (n := 128 + 128) _ _ concatenates_S128x256_S128x256_S256x256_d0
      (cols_eq (k := 128) (n1 := 128) (n2 := 128) _ _ concatenates_S128x128_S128x128_S128x256_d1 rfl (zero_eq bcast_S_S128x128))
      (cols_eq (k := 128) (n1 := 128) (n2 := 128) _ _ concatenates_S128x128_S128x128_S128x256_d1 (zero_eq bcast_S_S128x128) rfl))

theorem b2A_vec (a5 a11 : (⟨S128, .f32⟩ : BufTy).Contents (Elt Ideal)) :
    (fun (j : Fin 256) => b2A (F := Ideal) a5 a11 (ix2 (0 : Fin 1) j)) = cat (fun j => a5 (ix1 j)) (fun j => a11 (ix1 j)) :=
  row_eq (n := 128 + 128) _ shapeCasts_S256_S1x256
    (vec_eq (n1 := 128) (n2 := 128) a5 a11 concatenates_S128_S128_S256_d0 rfl rfl)

theorem W3A_mat (a6 : (⟨S128x2, .f32⟩ : BufTy).Contents (Elt Ideal)) (a12 : (⟨S128x1, .f32⟩ : BufTy).Contents (Elt Ideal)) :
    (fun (i : Fin 256) (j : Fin 3) => W3A (F := Ideal) a6 a12 (ix2 i j)) = bdiag (fun i j => a6 (ix2 i j)) (fun i j => a12 (ix2 i j)) :=
  (rows_eq (k1 := 128) (k2 := 128) (n := 2 + 1) _ _ concatenates_S128x3_S128x3_S256x3_d0
      (cols_eq (k := 128) (n1 := 2) (n2 := 1) _ _ concatenates_S128x2_S128x1_S128x3_d1 rfl (zero_eq bcast_S_S128x1))
      (cols_eq (k := 128) (n1 := 2) (n2 := 1) _ _ concatenates_S128x2_S128x1_S128x3_d1 (zero_eq bcast_S_S128x2) rfl))

theorem b3A_vec (a7 : (⟨S2, .f32⟩ : BufTy).Contents (Elt Ideal)) (a13 : (⟨S1, .f32⟩ : BufTy).Contents (Elt Ideal)) :
    (fun (j : Fin 3) => b3A (F := Ideal) a7 a13 (ix2 (0 : Fin 1) j)) = cat (fun j => a7 (ix1 j)) (fun j => a13 (ix1 j)) :=
  row_eq (n := 2 + 1) _ shapeCasts_S3_S1x3
    (vec_eq (n1 := 2) (n2 := 1) a7 a13 concatenates_S2_S1_S3_d0 rfl rfl)

theorem center2_vec (a1 : (⟨S3, .f32⟩ : BufTy).Contents (Elt Ideal)) :
    (fun (j : Fin 3) => center2 (F := Ideal) a1 (ix2 (0 : Fin 1) j)) = (fun j => a1 (ix1 j)) :=
  row_eq (n := 3) a1 shapeCasts_S3_S1x3 rfl

theorem W1B_mat (a14 : (⟨S2x128, .f32⟩ : BufTy).Contents (Elt Ideal)) (a20 : (⟨S3x128, .f32⟩ : BufTy).Contents (Elt Ideal)) (a26 : (⟨S2x128, .f32⟩ : BufTy).Contents (Elt Ideal)) :
    (fun (i : Fin 3) (j : Fin 384) => W1B (F := Ideal) a14 a20 a26 (ix2 i j))
      = hcat (hcat (pad (fun i j => a14 (ix2 i j))) (fun i j => a20 (ix2 i j))) (pad (fun i j => a26 (ix2 i j))) :=
  cols3_eq (k := 3) (n1 := 128) (n2 := 128) (n3 := 128) _ a20 _ concatenates_S3x128_S3x128_S3x128_S3x384_d1
    (rows_eq (k1 := 2) (k2 := 1) (n := 128) a14 _ concatenates_S2x128_S1x128_S3x128_d0 rfl (zero_eq bcast_S_S1x128))
    rfl
    (rows_eq (k1 := 2) (k2 := 1) (n := 128) a26 _ concatenates_S2x128_S1x128_S3x128_d0 rfl (zero_eq bcast_S_S1x128))

theorem b1B_vec (a15 a21 a27 : (⟨S128, .f32⟩ : BufTy).Contents (Elt Ideal)) :
    (fun (j : Fin 384) => b1B (F := Ideal) a15 a21 a27 (ix2 (0 : Fin 1) j)) = cat (cat (fun j => a15 (ix1 j)) (fun j => a21 (ix1 j))) (fun j => a27 (ix1 j)) :=
  row_eq (n := 128 + 128 + 128) _ shapeCasts_S384_S1x384
    (vec3_eq (n1 := 128) (n2 := 128) (n3 := 128) a15 a21 a27 concatenates_S128_S128_S128_S384_d0 rfl rfl rfl)

theorem W2B_mat (a16 a22 a28 : (⟨S128x128, .f32⟩ : BufTy).Contents (Elt Ideal)) :
    (fun (i : Fin 384) (j : Fin 384) => W2B (F := Ideal) a16 a22 a28 (ix2 i j))
      = bdiag (bdiag (fun i j => a16 (ix2 i j)) (fun i j => a22 (ix2 i j))) (fun i j => a28 (ix2 i j)) :=
  (rows_eq (k1 := 256) (k2 := 128) (n := 256 + 128) _ _ concatenates_S256x384_S128x384_S384x384_d0
      (cols_eq (k := 256) (n1 := 256) (n2 := 128) _ _ concatenates_S256x256_S256x128_S256x384_d1 (rows_eq (k1 := 128) (k2 := 128) (n := 128 + 128) _ _ concatenates_S128x256_S128x256_S256x256_d0
      (cols_eq (k := 128) (n1 := 128) (n2 := 128) _ _ concatenates_S128x128_S128x128_S128x256_d1 rfl (zero_eq bcast_S_S128x128))
      (cols_eq (k := 128) (n1 := 128) (n2 := 128) _ _ concatenates_S128x128_S128x128_S128x256_d1 (zero_eq bcast_S_S128x128) rfl)) (zero_eq bcast_S_S256x128))
      (cols_eq (k := 128) (n1 := 256) (n2 := 128) _ _ concatenates_S128x256_S128x128_S128x384_d1 (zero_eq bcast_S_S128x256) rfl))

theorem b2B_vec (a17 a23 a29 : (⟨S128, .f32⟩ : BufTy).Contents (Elt Ideal)) :
    (fun (j : Fin 384) => b2B (F := Ideal) a17 a23 a29 (ix2 (0 : Fin 1) j)) = cat (cat (fun j => a17 (ix1 j)) (fun j => a23 (ix1 j))) (fun j => a29 (ix1 j)) :=
  row_eq (n := 128 + 128 + 128) _ shapeCasts_S384_S1x384
    (vec3_eq (n1 := 128) (n2 := 128) (n3 := 128) a17 a23 a29 concatenates_S128_S128_S128_S384_d0 rfl rfl rfl)

theorem W3B_mat (a18 a24 : (⟨S128x3, .f32⟩ : BufTy).Contents (Elt Ideal)) (a30 : (⟨S128x1, .f32⟩ : BufTy).Contents (Elt Ideal)) :
    (fun (i : Fin 384) (j : Fin 7) => W3B (F := Ideal) a18 a24 a30 (ix2 i j))
      = bdiag (bdiag (fun i j => a18 (ix2 i j)) (fun i j => a24 (ix2 i j))) (fun i j => a30 (ix2 i j)) :=
  (rows_eq (k1 := 256) (k2 := 128) (n := 6 + 1) _ _ concatenates_S256x7_S128x7_S384x7_d0
      (cols_eq (k := 256) (n1 := 6) (n2 := 1) _ _ concatenates_S256x6_S256x1_S256x7_d1 (rows_eq (k1 := 128) (k2 := 128) (n := 3 + 3) _ _ concatenates_S128x6_S128x6_S256x6_d0
      (cols_eq (k := 128) (n1 := 3) (n2 := 3) _ _ concatenates_S128x3_S128x3_S128x6_d1 rfl (zero_eq bcast_S_S128x3))
      (cols_eq (k := 128) (n1 := 3) (n2 := 3) _ _ concatenates_S128x3_S128x3_S128x6_d1 (zero_eq bcast_S_S128x3) rfl)) (zero_eq bcast_S_S256x1))
      (cols_eq (k := 128) (n1 := 6) (n2 := 1) _ _ concatenates_S128x6_S128x1_S128x7_d1 (zero_eq bcast_S_S128x6) rfl))

theorem b3B_vec (a19 a25 : (⟨S3, .f32⟩ : BufTy).Contents (Elt Ideal)) (a31 : (⟨S1, .f32⟩ : BufTy).Contents (Elt Ideal)) :
    (fun (j : Fin 7) => b3B (F := Ideal) a19 a25 a31 (ix2 (0 : Fin 1) j)) = cat (cat (fun j => a19 (ix1 j)) (fun j => a25 (ix1 j))) (fun j => a31 (ix1 j)) :=
  row_eq (n := 3 + 3 + 1) _ shapeCasts_S7_S1x7
    (vec3_eq (n1 := 3) (n2 := 3) (n3 := 1) a19 a25 a31 concatenates_S3_S3_S1_S7_d0 rfl rfl rfl)

/-! ### The same, entry by entry -/

theorem center2_apply (a1 : (⟨S3, .f32⟩ : BufTy).Contents (Elt Ideal)) (j : Fin 3) :
    center2 (F := Ideal) a1 (ix2 (0 : Fin 1) j) = (fun j => a1 (ix1 j)) j :=
  congrFun (center2_vec a1) j

theorem W1A_apply (a2 a8 : (⟨S3x128, .f32⟩ : BufTy).Contents (Elt Ideal)) (k : Fin 3) (j : Fin 256) :
    W1A (F := Ideal) a2 a8 (ix2 k j) = hcat (fun k j => a2 (ix2 k j)) (fun k j => a8 (ix2 k j)) k j :=
  congrFun (congrFun (W1A_mat a2 a8) k) j

theorem b1A_apply (a3 a9 : (⟨S128, .f32⟩ : BufTy).Contents (Elt Ideal)) (j : Fin 256) :
    b1A (F := Ideal) a3 a9 (ix2 (0 : Fin 1) j) = cat (fun j => a3 (ix1 j)) (fun j => a9 (ix1 j)) j :=
  congrFun (b1A_vec a3 a9) j

theorem W2A_apply (a4 a10 : (⟨S128x128, .f32⟩ : BufTy).Contents (Elt Ideal)) (k : Fin 256) (j : Fin 256) :
    W2A (F := Ideal) a4 a10 (ix2 k j) = bdiag (fun k j => a4 (ix2 k j)) (fun k j => a10 (ix2 k j)) k j :=
  congrFun (congrFun (W2A_mat a4 a10) k) j

theorem b2A_apply (a5 a11 : (⟨S128, .f32⟩ : BufTy).Contents (Elt Ideal)) (j : Fin 256) :
    b2A (F := Ideal) a5 a11 (ix2 (0 : Fin 1) j) = cat (fun j => a5 (ix1 j)) (fun j => a11 (ix1 j)) j :=
  congrFun (b2A_vec a5 a11) j

theorem W3A_apply (a6 : (⟨S128x2, .f32⟩ : BufTy).Contents (Elt Ideal)) (a12 : (⟨S128x1, .f32⟩ : BufTy).Contents (Elt Ideal)) (k : Fin 256) (j : Fin 3) :
    W3A (F := Ideal) a6 a12 (ix2 k j) = bdiag (fun k j => a6 (ix2 k j)) (fun k j => a12 (ix2 k j)) k j :=
  congrFun (congrFun (W3A_mat a6 a12) k) j

theorem b3A_apply (a7 : (⟨S2, .f32⟩ : BufTy).Contents (Elt Ideal)) (a13 : (⟨S1, .f32⟩ : BufTy).Contents (Elt Ideal)) (j : Fin 3) :
    b3A (F := Ideal) a7 a13 (ix2 (0 : Fin 1) j) = cat (fun j => a7 (ix1 j)) (fun j => a13 (ix1 j)) j :=
  congrFun (b3A_vec a7 a13) j

theorem W1B_apply (a14 : (⟨S2x128, .f32⟩ : BufTy).Contents (Elt Ideal)) (a20 : (⟨S3x128, .f32⟩ : BufTy).Contents (Elt Ideal)) (a26 : (⟨S2x128, .f32⟩ : BufTy).Contents (Elt Ideal)) (k : Fin 3) (j : Fin 384) :
    W1B (F := Ideal) a14 a20 a26 (ix2 k j) = hcat (hcat (pad (fun k j => a14 (ix2 k j))) (fun k j => a20 (ix2 k j))) (pad (fun k j => a26 (ix2 k j))) k j :=
  congrFun (congrFun (W1B_mat a14 a20 a26) k) j

theorem b1B_apply (a15 a21 a27 : (⟨S128, .f32⟩ : BufTy).Contents (Elt Ideal)) (j : Fin 384) :
    b1B (F := Ideal) a15 a21 a27 (ix2 (0 : Fin 1) j) = cat (cat (fun j => a15 (ix1 j)) (fun j => a21 (ix1 j))) (fun j => a27 (ix1 j)) j :=
  congrFun (b1B_vec a15 a21 a27) j

theorem W2B_apply (a16 a22 a28 : (⟨S128x128, .f32⟩ : BufTy).Contents (Elt Ideal)) (k : Fin 384) (j : Fin 384) :
    W2B (F := Ideal) a16 a22 a28 (ix2 k j) = bdiag (bdiag (fun k j => a16 (ix2 k j)) (fun k j => a22 (ix2 k j))) (fun k j => a28 (ix2 k j)) k j :=
  congrFun (congrFun (W2B_mat a16 a22 a28) k) j

theorem b2B_apply (a17 a23 a29 : (⟨S128, .f32⟩ : BufTy).Contents (Elt Ideal)) (j : Fin 384) :
    b2B (F := Ideal) a17 a23 a29 (ix2 (0 : Fin 1) j) = cat (cat (fun j => a17 (ix1 j)) (fun j => a23 (ix1 j))) (fun j => a29 (ix1 j)) j :=
  congrFun (b2B_vec a17 a23 a29) j

theorem W3B_apply (a18 a24 : (⟨S128x3, .f32⟩ : BufTy).Contents (Elt Ideal)) (a30 : (⟨S128x1, .f32⟩ : BufTy).Contents (Elt Ideal)) (k : Fin 384) (j : Fin 7) :
    W3B (F := Ideal) a18 a24 a30 (ix2 k j) = bdiag (bdiag (fun k j => a18 (ix2 k j)) (fun k j => a24 (ix2 k j))) (fun k j => a30 (ix2 k j)) k j :=
  congrFun (congrFun (W3B_mat a18 a24 a30) k) j

theorem b3B_apply (a19 a25 : (⟨S3, .f32⟩ : BufTy).Contents (Elt Ideal)) (a31 : (⟨S1, .f32⟩ : BufTy).Contents (Elt Ideal)) (j : Fin 7) :
    b3B (F := Ideal) a19 a25 a31 (ix2 (0 : Fin 1) j) = cat (cat (fun j => a19 (ix1 j)) (fun j => a25 (ix1 j))) (fun j => a31 (ix1 j)) j :=
  congrFun (b3B_vec a19 a25 a31) j

end AtIdeal

end Cert.KernelIdeal.HostW

end
-- ==== Proof.NetArr.lean ====
/-
  The weights of a perceptron read off six arrays, and the whole result as one function of the thirty-two arguments:
  row `n` of the result is the row function of the specification applied to row `n` of the input.
-/
import proofs.«158485_j30597347016754_2_alg».proof.Proof.Spec
import Idealize.ShloMosaic.Lib.ValueIdx

noncomputable section

namespace Cert.Net

open Idealize.ShloMosaic Idealize.ShloMosaic.ValueIdx

/-- A three-layer perceptron (hidden width 128) whose weights are the entries of six arrays. -/
def mlpOf {d o : ℕ} (W1 : (⟨2, ![d, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, o]⟩ : Shape).Idx → EReal) (b3 : (⟨1, ![o]⟩ : Shape).Idx → EReal) : Mlp d 128 o :=
  ⟨fun k j => W1 (ix2 k j), fun j => b1 (ix1 j), fun k j => W2 (ix2 k j), fun j => b2 (ix1 j),
   fun k j => W3 (ix2 k j), fun j => b3 (ix1 j)⟩

/-- The result array: entry `(n, q)` is entry `q` of the reference's row function at row `n` of `x`. -/
def G (x : (⟨2, ![262144, 3]⟩ : Shape).Idx → EReal) (c : (⟨1, ![3]⟩ : Shape).Idx → EReal)
    (ea : Mlp 3 128 2) (em : Mlp 3 128 1) (db : Mlp 2 128 3) (dc : Mlp 3 128 3) (dm : Mlp 2 128 1) :
    (⟨2, ![262144, 3]⟩ : Shape).Idx → EReal :=
  fun i => refRow (fun j => x (ix2 (i 0) j)) (fun j => c (ix1 j)) ea em db dc dm (i 1)

end Cert.Net

end
-- ==== Proof.KIValue.lean ====
/-
  The result array of the kernel program at the exact instance, as one function of the argument arrays.

  At grid point `t` the body reads rows `1024·t … 1024·t + 1023` of the input and the thirteen host-built arrays whole, and
  writes back rows `1024·t …` of the result. Entry `(p, q)` of what it writes is the fused row function at row
  `1024·t + p` with the fused weights; the fused weights are the five perceptrons' laid side by side and block-diagonally, so
  that value is the reference's row function at that row. The 256 blocks tile the 262144 rows, so the array after the
  run is that function everywhere.
-/
import proofs.«158485_j30597347016754_2_alg».proof.Proof.KIFrame
import proofs.«158485_j30597347016754_2_alg».proof.Proof.KIBody
import proofs.«158485_j30597347016754_2_alg».proof.Proof.HostW
import proofs.«158485_j30597347016754_2_alg».proof.Proof.Fuse
import proofs.«158485_j30597347016754_2_alg».proof.Proof.NetArr
import Idealize.ShloMosaic.Lib.Pipeline.Value
import Idealize.ShloMosaic.Lib.StableHlo.Run

set_option maxRecDepth 16384

noncomputable section

namespace Cert.KernelIdeal.HValue

open Cert.KernelIdeal Cert.KernelIdeal.Gen Cert.KernelIdeal.HFrame
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The host-built arrays as the region finds them -/

set_option maxHeartbeats 4000000 in
theorem V_w1 (c : Dev nD) : (V m c main_v0 : S1x3.Idx → EReal) = HostW.center2 (F := Ideal) (m ((c : Thread nD τ).loc main_arg1)) := by
  dsimp only [V, hostOps0]; after_results; rfl

set_option maxHeartbeats 4000000 in
theorem V_w2 (c : Dev nD) : (V m c main_v48 : S3x256.Idx → EReal) = HostW.W1A (F := Ideal) (m ((c : Thread nD τ).loc main_arg2)) (m ((c : Thread nD τ).loc main_arg8)) := by
  dsimp only [V, hostOps0]; after_results; rfl

set_option maxHeartbeats 4000000 in
theorem V_w3 (c : Dev nD) : (V m c main_v3 : S1x256.Idx → EReal) = HostW.b1A (F := Ideal) (m ((c : Thread nD τ).loc main_arg3)) (m ((c : Thread nD τ).loc main_arg9)) := by
  dsimp only [V, hostOps0]; after_results; rfl

set_option maxHeartbeats 4000000 in
theorem V_w4 (c : Dev nD) : (V m c main_v49 : S256x256.Idx → EReal) = HostW.W2A (F := Ideal) (m ((c : Thread nD τ).loc main_arg4)) (m ((c : Thread nD τ).loc main_arg10)) := by
  dsimp only [V, hostOps0]; after_results; rfl

set_option maxHeartbeats 4000000 in
theorem V_w5 (c : Dev nD) : (V m c main_v10 : S1x256.Idx → EReal) = HostW.b2A (F := Ideal) (m ((c : Thread nD τ).loc main_arg5)) (m ((c : Thread nD τ).loc main_arg11)) := by
  dsimp only [V, hostOps0]; after_results; rfl

set_option maxHeartbeats 4000000 in
theorem V_w6 (c : Dev nD) : (V m c main_v50 : S256x3.Idx → EReal) = HostW.W3A (F := Ideal) (m ((c : Thread nD τ).loc main_arg6)) (m ((c : Thread nD τ).loc main_arg12)) := by
  dsimp only [V, hostOps0]; after_results; rfl

set_option maxHeartbeats 4000000 in
theorem V_w7 (c : Dev nD) : (V m c main_v17 : S1x3.Idx → EReal) = HostW.b3A (F := Ideal) (m ((c : Thread nD τ).loc main_arg7)) (m ((c : Thread nD τ).loc main_arg13)) := by
  dsimp only [V, hostOps0]; after_results; rfl

set_option maxHeartbeats 4000000 in
theorem V_w8 (c : Dev nD) : (V m c main_v51 : S3x384.Idx → EReal) = HostW.W1B (F := Ideal) (m ((c : Thread nD τ).loc main_arg14)) (m ((c : Thread nD τ).loc main_arg20)) (m ((c : Thread nD τ).loc main_arg26)) := by
  dsimp only [V, hostOps0]; after_results; rfl

set_option maxHeartbeats 4000000 in
theorem V_w9 (c : Dev nD) : (V m c main_v23 : S1x384.Idx → EReal) = HostW.b1B (F := Ideal) (m ((c : Thread nD τ).loc main_arg15)) (m ((c : Thread nD τ).loc main_arg21)) (m ((c : Thread nD τ).loc main_arg27)) := by
  dsimp only [V, hostOps0]; after_results; rfl

set_option maxHeartbeats 4000000 in
theorem V_w10 (c : Dev nD) : (V m c main_v52 : S384x384.Idx → EReal) = HostW.W2B (F := Ideal) (m ((c : Thread nD τ).loc main_arg16)) (m ((c : Thread nD τ).loc main_arg22)) (m ((c : Thread nD τ).loc main_arg28)) := by
  dsimp only [V, hostOps0]; after_results; rfl

set_option maxHeartbeats 4000000 in
theorem V_w11 (c : Dev nD) : (V m c main_v35 : S1x384.Idx → EReal) = HostW.b2B (F := Ideal) (m ((c : Thread nD τ).loc main_arg17)) (m ((c : Thread nD τ).loc main_arg23)) (m ((c : Thread nD τ).loc main_arg29)) := by
  dsimp only [V, hostOps0]; after_results; rfl

set_option maxHeartbeats 4000000 in
theorem V_w12 (c : Dev nD) : (V m c main_v53 : S384x7.Idx → EReal) = HostW.W3B (F := Ideal) (m ((c : Thread nD τ).loc main_arg18)) (m ((c : Thread nD τ).loc main_arg24)) (m ((c : Thread nD τ).loc main_arg30)) := by
  dsimp only [V, hostOps0]; after_results; rfl

set_option maxHeartbeats 4000000 in
theorem V_w13 (c : Dev nD) : (V m c main_v47 : S1x7.Idx → EReal) = HostW.b3B (F := Ideal) (m ((c : Thread nD τ).loc main_arg19)) (m ((c : Thread nD τ).loc main_arg25)) (m ((c : Thread nD τ).loc main_arg31)) := by
  dsimp only [V, hostOps0]; after_results; rfl

/-! ## The index maps, decided over the grid: the input's and the result's blocks move down the rows, the rest stay -/

theorem idx_facts : ∀ t : Fin cfg0.N, win0_0.index t (0 : Fin 2) = t.val
    ∧ win0_0.index t (1 : Fin 2) = 0
    ∧ win0_14.index t (0 : Fin 2) = t.val
    ∧ win0_14.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0 :=
  (by decide +kernel : ∀ t : Fin grid0.N, _)

/-! ## The staged blocks -/

/-- Row `p` of the input's block at point `t` is row `1024·t + p` of the input. -/
theorem iblk0_apply (c : Dev nD) (t : Fin cfg0.N) (p : Fin 1024) (j : Fin 3) (n : Fin 262144) (hn : n.val = t.val * 1024 + p.val) :
    iblk m c 0 t (ix2 p j) = m ((c : Thread nD τ).loc main_arg0) (ix2 n j) := by
  obtain ⟨e0, e1, -, -, -, -, -, -, -, -, -, -, -, -, -, -, -, -, -, -, -, -, -, -, -, -, -, -, -, -⟩ := idx_facts t
  show V m c main_arg0 (((cfg0.win 0).blk t).view.emb (ix2 p j)) = _
  rw [V_main_arg0]
  refine congrArg _ ?_
  funext a; apply Fin.ext
  match a with
  | ⟨0, _⟩ => show win0_0.index t (0 : Fin 2) * 1024 + 1 * p.val = n.val; omega
  | ⟨1, _⟩ => show win0_0.index t (1 : Fin 2) * 3 + 1 * j.val = j.val; omega

/-! A window whose index map is constantly zero and whose block is its whole array stages that array at every point. -/

theorem iblk1_eq (c : Dev nD) (t : Fin cfg0.N) : (iblk m c 1 t : S1x3.Idx → EReal) = V m c main_v0 := by
  obtain ⟨-, -, -, -, e0, e1, -, -, -, -, -, -, -, -, -, -, -, -, -, -, -, -, -, -, -, -, -, -, -, -⟩ := idx_facts t
  funext y
  show V m c main_v0 (((cfg0.win 1).blk t).view.emb y) = V m c main_v0 y
  refine congrArg _ ?_
  funext a; apply Fin.ext
  match a with
  | ⟨0, _⟩ => show win0_1.index t (0 : Fin 2) * 1 + 1 * (y 0).val = (y 0).val; omega
  | ⟨1, _⟩ => show win0_1.index t (1 : Fin 2) * 3 + 1 * (y 1).val = (y 1).val; omega

theorem iblk2_eq (c : Dev nD) (t : Fin cfg0.N) : (iblk m c 2 t : S3x256.Idx → EReal) = V m c main_v48 := by
  obtain ⟨-, -, -, -, -, -, e0, e1, -, -, -, -, -, -, -, -, -, -, -, -, -, -, -, -, -, -, -, -, -, -⟩ := idx_facts t
  funext y
  show V m c main_v48 (((cfg0.win 2).blk t).view.emb y) = V m c main_v48 y
  refine congrArg _ ?_
  funext a; apply Fin.ext
  match a with
  | ⟨0, _⟩ => show win0_2.index t (0 : Fin 2) * 3 + 1 * (y 0).val = (y 0).val; omega
  | ⟨1, _⟩ => show win0_2.index t (1 : Fin 2) * 256 + 1 * (y 1).val = (y 1).val; omega

theorem iblk3_eq (c : Dev nD) (t : Fin cfg0.N) : (iblk m c 3 t : S1x256.Idx → EReal) = V m c main_v3 := by
  obtain ⟨-, -, -, -, -, -, -, -, e0, e1, -, -, -, -, -, -, -, -, -, -, -, -, -, -, -, -, -, -, -, -⟩ := idx_facts t
  funext y
  show V m c main_v3 (((cfg0.win 3).blk t).view.emb y) = V m c main_v3 y
  refine congrArg _ ?_
  funext a; apply Fin.ext
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem iblk4_eq (c : Dev nD) (t : Fin cfg0.N) : (iblk m c 4 t : S256x256.Idx → EReal) = V m c main_v49 := by
  obtain ⟨-, -, -, -, -, -, -, -, -, -, e0, e1, -, -, -, -, -, -, -, -, -, -, -, -, -, -, -, -, -, -⟩ := idx_facts t
  funext y
  show V m c main_v49 (((cfg0.win 4).blk t).view.emb y) = V m c main_v49 y
  refine congrArg _ ?_
  funext a; apply Fin.ext
  match a with
  | ⟨0, _⟩ => show win0_4.index t (0 : Fin 2) * 256 + 1 * (y 0).val = (y 0).val; omega
  | ⟨1, _⟩ => show win0_4.index t (1 : Fin 2) * 256 + 1 * (y 1).val = (y 1).val; omega

theorem iblk5_eq (c : Dev nD) (t : Fin cfg0.N) : (iblk m c 5 t : S1x256.Idx → EReal) = V m c main_v10 := by
  obtain ⟨-, -, -, -, -, -, -, -, -, -, -, -, e0, e1, -, -, -, -, -, -, -, -, -, -, -, -, -, -, -, -⟩ := idx_facts t
  funext y
  show V m c main_v10 (((cfg0.win 5).blk t).view.emb y) = V m c main_v10 y
  refine congrArg _ ?_
  funext a; apply Fin.ext
  match a with
  | ⟨0, _⟩ => show win0_5.index t (0 : Fin 2) * 1 + 1 * (y 0).val = (y 0).val; omega
  | ⟨1, _⟩ => show win0_5.index t (1 : Fin 2) * 256 + 1 * (y 1).val = (y 1).val; omega

theorem iblk6_eq (c : Dev nD) (t : Fin cfg0.N) : (iblk m c 6 t : S256x3.Idx → EReal) = V m c main_v50 := by
  obtain ⟨-, -, -, -, -, -, -, -, -, -, -, -, -, -, e0, e1, -, -, -, -, -, -, -, -, -, -, -, -, -, -⟩ := idx_facts t
  funext y
  show V m c main_v50 (((cfg0.win 6).blk t).view.emb y) = V m c main_v50 y
  refine congrArg _ ?_
  funext a; apply Fin.ext
  match a with
  | ⟨0, _⟩ => show win0_6.index t (0 : Fin 2) * 256 + 1 * (y 0).val = (y 0).val; omega
  | ⟨1, _⟩ => show win0_6.index t (1 : Fin 2) * 3 + 1 * (y 1).val = (y 1).val; omega

theorem iblk7_eq (c : Dev nD) (t : Fin cfg0.N) : (iblk m c 7 t : S1x3.Idx → EReal) = V m c main_v17 := by
  obtain ⟨-, -, -, -, -, -, -, -, -, -, -, -, -, -, -, -, e0, e1, -, -, -, -, -, -, -, -, -, -, -, -⟩ := idx_facts t
  funext y
  show V m c main_v17 (((cfg0.win 7).blk t).view.emb y) = V m c main_v17 y
  refine congrArg _ ?_
  funext a; apply Fin.ext
  match a with
  | ⟨0, _⟩ => show win0_7.index t (0 : Fin 2) * 1 + 1 * (y 0).val = (y 0).val; omega
  | ⟨1, _⟩ => show win0_7.index t (1 : Fin 2) * 3 + 1 * (y 1).val = (y 1).val; omega

theorem iblk8_eq (c : Dev nD) (t : Fin cfg0.N) : (iblk m c 8 t : S3x384.Idx → EReal) = V m c main_v51 := by
  obtain ⟨-, -, -, -, -, -, -, -, -, -, -, -, -, -, -, -, -, -, e0, e1, -, -, -, -, -, -, -, -, -, -⟩ := idx_facts t
  funext y
  show V m c main_v51 (((cfg0.win 8).blk t).view.emb y) = V m c main_v51 y
  refine congrArg _ ?_
  funext a; apply Fin.ext
  match a with
  | ⟨0, _⟩ => show win0_8.index t (0 : Fin 2) * 3 + 1 * (y 0).val = (y 0).val; omega
  | ⟨1, _⟩ => show win0_8.index t (1 : Fin 2) * 384 + 1 * (y 1).val = (y 1).val; omega

theorem iblk9_eq (c : Dev nD) (t : Fin cfg0.N) : (iblk m c 9 t : S1x384.Idx → EReal) = V m c main_v23 := by
  obtain ⟨-, -, -, -, -, -, -, -, -, -, -, -, -, -, -, -, -, -, -, -, e0, e1, -, -, -, -, -, -, -, -⟩ := idx_facts t
  funext y
  show V m c main_v23 (((cfg0.win 9).blk t).view.emb y) = V m c main_v23 y
  refine congrArg _ ?_
  funext a; apply Fin.ext
  match a with
  | ⟨0, _⟩ => show win0_9.index t (0 : Fin 2) * 1 + 1 * (y 0).val = (y 0).val; omega
  | ⟨1, _⟩ => show win0_9.index t (1 : Fin 2) * 384 + 1 * (y 1).val = (y 1).val; omega

theorem iblk10_eq (c : Dev nD) (t : Fin cfg0.N) : (iblk m c 10 t : S384x384.Idx → EReal) = V m c main_v52 := by
  obtain ⟨-, -, -, -, -, -, -, -, -, -, -, -, -, -, -, -, -, -, -, -, -, -, e0, e1, -, -, -, -, -, -⟩ := idx_facts t
  funext y
  show V m c main_v52 (((cfg0.win 10).blk t).view.emb y) = V m c main_v52 y
  refine congrArg _ ?_
  funext a; apply Fin.ext
  match a with
  | ⟨0, _⟩ => show win0_10.index t (0 : Fin 2) * 384 + 1 * (y 0).val = (y 0).val; omega
  | ⟨1, _⟩ => show win0_10.index t (1 : Fin 2) * 384 + 1 * (y 1).val = (y 1).val; omega

theorem iblk11_eq (c : Dev nD) (t : Fin cfg0.N) : (iblk m c 11 t : S1x384.Idx → EReal) = V m c main_v35 := by
  obtain ⟨-, -, -, -, -, -, -, -, -, -, -, -, -, -, -, -, -, -, -, -, -, -, -, -, e0, e1, -, -, -, -⟩ := idx_facts t
  funext y
  show V m c main_v35 (((cfg0.win 11).blk t).view.emb y) = V m c main_v35 y
  refine congrArg _ ?_
  funext a; apply Fin.ext
  match a with
  | ⟨0, _⟩ => show win0_11.index t (0 : Fin 2) * 1 + 1 * (y 0).val = (y 0).val; omega
  | ⟨1, _⟩ => show win0_11.index t (1 : Fin 2) * 384 + 1 * (y 1).val = (y 1).val; omega

theorem iblk12_eq (c : Dev nD) (t : Fin cfg0.N) : (iblk m c 12 t : S384x7.Idx → EReal) = V m c main_v53 := by
  obtain ⟨-, -, -, -, -, -, -, -, -, -, -, -, -, -, -, -, -, -, -, -, -, -, -, -, -, -, e0, e1, -, -⟩ := idx_facts t
  funext y
  show V m c main_v53 (((cfg0.win 12).blk t).view.emb y) = V m c main_v53 y
  refine congrArg _ ?_
  funext a; apply Fin.ext
  match a with
  | ⟨0, _⟩ => show win0_12.index t (0 : Fin 2) * 384 + 1 * (y 0).val = (y 0).val; omega
  | ⟨1, _⟩ => show win0_12.index t (1 : Fin 2) * 7 + 1 * (y 1).val = (y 1).val; omega

theorem iblk13_eq (c : Dev nD) (t : Fin cfg0.N) : (iblk m c 13 t : S1x7.Idx → EReal) = V m c main_v47 := by
  obtain ⟨-, -, -, -, -, -, -, -, -, -, -, -, -, -, -, -, -, -, -, -, -, -, -, -, -, -, -, -, e0, e1⟩ := idx_facts t
  funext y
  show V m c main_v47 (((cfg0.win 13).blk t).view.emb y) = V m c main_v47 y
  refine congrArg _ ?_
  funext a; apply Fin.ext
  match a with
  | ⟨0, _⟩ => show win0_13.index t (0 : Fin 2) * 1 + 1 * (y 0).val = (y 0).val; omega
  | ⟨1, _⟩ => show win0_13.index t (1 : Fin 2) * 7 + 1 * (y 1).val = (y 1).val; omega

/-! ## The fused towers are the five perceptrons -/

theorem towerA (c : Dev nD) (t : Fin cfg0.N) :
    mlp2 (iblk m c 2 t) (iblk m c 3 t) (iblk m c 4 t) (iblk m c 5 t) (iblk m c 6 t) (iblk m c 7 t)
      = Cert.Net.fuseA (Cert.Net.mlpOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.Net.mlpOf (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  rw [iblk2_eq, iblk3_eq, iblk4_eq, iblk5_eq, iblk6_eq, iblk7_eq, V_w2, V_w3, V_w4, V_w5, V_w6, V_w7]
  unfold mlp2 Cert.Net.fuseA Cert.Net.mlpOf
  rw [HostW.W1A_mat, HostW.b1A_vec, HostW.W2A_mat, HostW.b2A_vec, HostW.W3A_mat, HostW.b3A_vec]

theorem towerB (c : Dev nD) (t : Fin cfg0.N) :
    mlp2 (iblk m c 8 t) (iblk m c 9 t) (iblk m c 10 t) (iblk m c 11 t) (iblk m c 12 t) (iblk m c 13 t)
      = Cert.Net.fuseB (Cert.Net.mlpOf (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (Cert.Net.mlpOf (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) (Cert.Net.mlpOf (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31))) := by
  rw [iblk8_eq, iblk9_eq, iblk10_eq, iblk11_eq, iblk12_eq, iblk13_eq, V_w8, V_w9, V_w10, V_w11, V_w12, V_w13]
  unfold mlp2 Cert.Net.fuseB Cert.Net.mlpOf
  rw [HostW.W1B_mat, HostW.b1B_vec, HostW.W2B_mat, HostW.b2B_vec, HostW.W3B_mat, HostW.b3B_vec]

/-! ## What a point writes back -/

/-- The result as one function of the launch arrays of core `c`. -/
abbrev Gm (c : Dev nD) : S262144x3.Idx → EReal := (Cert.Net.G (m ((c : Thread nD τ).loc main_arg0)) (m ((c : Thread nD τ).loc main_arg1)) (Cert.Net.mlpOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.Net.mlpOf (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (Cert.Net.mlpOf (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (Cert.Net.mlpOf (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) (Cert.Net.mlpOf (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31))))

theorem hz : (![0, 0] : Fin 2 → Nat) = fun _ => 0 := funext fun a => by fin_cases a <;> rfl

/-- Entry `(p, q)` of the stored block at point `t` is entry `(1024·t + p, q)` of the result function. -/
theorem stored_eq (c : Dev nD) (t : Fin cfg0.N) :
    (fun j : S1024x3.Idx => body0 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) j)
      = fun j => Gm m c (((cfg0.win 14).blk t).view.emb j) := by
  funext j
  obtain ⟨p, q, rfl⟩ : ∃ (p : Fin 1024) (q : Fin 3), j = ix2 p q := ⟨j 0, j 1, eq_ix2 j⟩
  obtain ⟨-, -, e2, e3, -, -, -, -, -, -, -, -, -, -, -, -, -, -, -, -, -, -, -, -, -, -, -, -, -, -⟩ := idx_facts t
  have ht : t.val < 256 := lt_of_lt_of_eq t.isLt N_0
  have hn : t.val * 1024 + p.val < 262144 := by have := p.isLt; omega
  refine (body0_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p q).trans ?_
  rw [towerA, towerB, Cert.Net.ker_eq_ref]
  have hx : (fun j => iblk m c 0 t (ix2 p j)) = fun j => m ((c : Thread nD τ).loc main_arg0) (ix2 (⟨t.val * 1024 + p.val, hn⟩ : Fin 262144) j) :=
    funext fun j => iblk0_apply m c t p j ⟨_, hn⟩ rfl
  have hc : (fun j => iblk m c 1 t (ix2 (0 : Fin 1) j)) = fun j => m ((c : Thread nD τ).loc main_arg1) (ix1 j) := by
    rw [iblk1_eq, V_w1]; exact HostW.center2_vec _
  rw [hx, hc]
  have hemb : ((cfg0.win 14).blk t).view.emb (ix2 p q) = ix2 (⟨t.val * 1024 + p.val, hn⟩ : Fin 262144) q := by
    funext a; apply Fin.ext
    match a with
    | ⟨0, _⟩ => show win0_14.index t (0 : Fin 2) * 1024 + 1 * p.val = t.val * 1024 + p.val; omega
    | ⟨1, _⟩ => show win0_14.index t (1 : Fin 2) * 3 + 1 * q.val = q.val; omega
  rw [hemb]
  rfl

theorem flushed14_eq (c : Dev nD) (t : Fin cfg0.N) :
    (dats m 0 c).flushed 14 t = ((cfg0.win 14).blk t).view.read (Elt Ideal) (Gm m c) := by
  show (cfg0.win 14).cut (grid0.coords t) ((dats m 0 c).after 14 t) = _
  rw [after0_14]
  unfold out0_14
  rw [View.canon_unit_zero hz]
  simp only [View.ld_unit_zero (S := S1024x3) hz, View.ld_unit_zero (S := S1x3) hz, View.ld_unit_zero (S := S3x256) hz, View.ld_unit_zero (S := S1x256) hz, View.ld_unit_zero (S := S256x256) hz, View.ld_unit_zero (S := S256x3) hz, View.ld_unit_zero (S := S3x384) hz, View.ld_unit_zero (S := S1x384) hz, View.ld_unit_zero (S := S384x384) hz, View.ld_unit_zero (S := S384x7) hz, View.ld_unit_zero (S := S1x7) hz]
  exact stored_eq m c t

/-! ## The blocks tile the array -/

theorem mem_blk14 (t : Fin cfg0.N) (i : S262144x3.Idx) :
    i ∈ ((cfg0.win 14).blk t).view.set ↔ ∀ a : Fin 2, win0_14.index t a * S1024x3.size a ≤ (i a).val ∧ (i a).val < win0_14.index t a * S1024x3.size a + S1024x3.size a := by
  show i ∈ ((View.whole main_v54).slice (win0_14.rect t)).set ↔ _
  rw [View.set_slice_whole, Rect.mem_set_unit]
  exact Iff.rfl

/-- Row `n` lies in the block of point `n / 1024`. -/
theorem cover14 (i : S262144x3.Idx) : ∃ t : Fin cfg0.N, (cfg0.win 14).flush t = true ∧ i ∈ ((cfg0.win 14).blk t).view.set := by
  have hi0 : (i 0).val < 262144 := (i 0).isLt
  have hi1 : (i 1).val < 3 := (i 1).isLt
  have hlt : (i 0).val / 1024 < cfg0.N := lt_of_lt_of_eq (by omega : (i 0).val / 1024 < 256) N_0.symm
  obtain ⟨-, -, e2, e3, -, -, -, -, -, -, -, -, -, -, -, -, -, -, -, -, -, -, -, -, -, -, -, -, -, -⟩ := idx_facts ⟨(i 0).val / 1024, hlt⟩
  refine ⟨⟨(i 0).val / 1024, hlt⟩, flush0_14 _, ?_⟩
  rw [mem_blk14]
  intro a
  match a with
  | ⟨0, _⟩ =>
    show win0_14.index ⟨(i 0).val / 1024, hlt⟩ (0 : Fin 2) * 1024 ≤ (i 0).val ∧ (i 0).val < win0_14.index ⟨(i 0).val / 1024, hlt⟩ (0 : Fin 2) * 1024 + 1024
    have e2' : win0_14.index ⟨(i 0).val / 1024, hlt⟩ (0 : Fin 2) = (i 0).val / 1024 := e2
    omega
  | ⟨1, _⟩ =>
    show win0_14.index ⟨(i 0).val / 1024, hlt⟩ (1 : Fin 2) * 3 ≤ (i 1).val ∧ (i 1).val < win0_14.index ⟨(i 0).val / 1024, hlt⟩ (1 : Fin 2) * 3 + 3
    omega

/-- The result array after the run. -/
theorem final14 (c : Dev nD) : (dats m 0 c).arrAt 14 cfg0.N = Gm m c :=
  (dats m 0 c).arrAt_eq_of_cover 14 (Gm m c) (fun t _ => flushed14_eq m c t) cover14

/-! ## The run, read -/

set_option maxHeartbeats 4000000 in
/-- Every weakly fair execution terminates with the result array at the result function of the launch arrays and the
    arguments unchanged. -/
theorem run : θ_run defs (onTc (τ := τ) (main (F := Ideal))) ⟨m, fun _ => 0, ρ⟩ fun r => ∀ c : Dev nD,
      r.2.mem ((c : Thread nD τ).loc main_v54) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31) :=
  (θ_run defs _ _).mono (fun r h c => ⟨((h c).1 14).trans (final14 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c),
      ((h c).2 main_arg29 (Pipeline.mem_restRefs_of main_arg29 (by decide) (by decide))).trans (V_main_arg29 m c),
      ((h c).2 main_arg30 (Pipeline.mem_restRefs_of main_arg30 (by decide) (by decide))).trans (V_main_arg30 m c),
      ((h c).2 main_arg31 (Pipeline.mem_restRefs_of main_arg31 (by decide) (by decide))).trans (V_main_arg31 m c)⟩)
    (run_main m ρ)

end Cert.KernelIdeal.HValue

end
-- ==== Proof.RefRead.lean ====
/-
  The reference program's run and its stages read at an index, imported here so that the hand modules of the
  reference side share one import.
-/
import proofs.«158485_j30597347016754_2_alg».proof.Proof.RunP
import proofs.«158485_j30597347016754_2_alg».proof.Proof.ReadP
-- ==== Proof.RefValue.lean ====
/-
  The reference program read one row at a time.  Every stage of the program is read at an index from the stages before
  it; the centred row, its direction, the five perceptrons, the two softplus gates, the code `w`, its direction and
  log-length, and the rebuilt row are identified, in that order, with the terms of the specification's row function,
  so that entry `(n, q)` of the last stage is entry `q` of the row function at row `n` of the input.
-/
import proofs.«158485_j30597347016754_2_alg».proof.Proof.RefRead
import proofs.«158485_j30597347016754_2_alg».proof.Proof.NetArr

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Net

/-- Nothing is unordered on the extended reals: "`d` differs from `d`" is false. -/
theorem cmpf_une_self (d : EReal) : FloatOps.cmpf (F := Ideal) (φ := .f32) .une d d = 0#1 := by
  show Ideal.cmp .une d d = 0#1
  simp [Ideal.cmp]

/-- The absolute value on the extended reals. -/
theorem absf_eq (d : EReal) : FloatOps.absf (F := Ideal) (φ := .f32) d = max d (-d) := rfl

variable (x0 : (⟨S262144x3, .f32⟩ : BufTy).Contents (Elt Ideal)) (x1 : (⟨S3, .f32⟩ : BufTy).Contents (Elt Ideal))
  (x2 : (⟨S3x128, .f32⟩ : BufTy).Contents (Elt Ideal))
  (x3 : (⟨S128, .f32⟩ : BufTy).Contents (Elt Ideal))
  (x4 : (⟨S128x128, .f32⟩ : BufTy).Contents (Elt Ideal))
  (x5 : (⟨S128, .f32⟩ : BufTy).Contents (Elt Ideal))
  (x6 : (⟨S128x2, .f32⟩ : BufTy).Contents (Elt Ideal))
  (x7 : (⟨S2, .f32⟩ : BufTy).Contents (Elt Ideal))
  (x8 : (⟨S3x128, .f32⟩ : BufTy).Contents (Elt Ideal))
  (x9 : (⟨S128, .f32⟩ : BufTy).Contents (Elt Ideal))
  (x10 : (⟨S128x128, .f32⟩ : BufTy).Contents (Elt Ideal))
  (x11 : (⟨S128, .f32⟩ : BufTy).Contents (Elt Ideal))
  (x12 : (⟨S128x1, .f32⟩ : BufTy).Contents (Elt Ideal))
  (x13 : (⟨S1, .f32⟩ : BufTy).Contents (Elt Ideal))
  (x14 : (⟨S2x128, .f32⟩ : BufTy).Contents (Elt Ideal))
  (x15 : (⟨S128, .f32⟩ : BufTy).Contents (Elt Ideal))
  (x16 : (⟨S128x128, .f32⟩ : BufTy).Contents (Elt Ideal))
  (x17 : (⟨S128, .f32⟩ : BufTy).Contents (Elt Ideal))
  (x18 : (⟨S128x3, .f32⟩ : BufTy).Contents (Elt Ideal))
  (x19 : (⟨S3, .f32⟩ : BufTy).Contents (Elt Ideal))
  (x20 : (⟨S3x128, .f32⟩ : BufTy).Contents (Elt Ideal))
  (x21 : (⟨S128, .f32⟩ : BufTy).Contents (Elt Ideal))
  (x22 : (⟨S128x128, .f32⟩ : BufTy).Contents (Elt Ideal))
  (x23 : (⟨S128, .f32⟩ : BufTy).Contents (Elt Ideal))
  (x24 : (⟨S128x3, .f32⟩ : BufTy).Contents (Elt Ideal))
  (x25 : (⟨S3, .f32⟩ : BufTy).Contents (Elt Ideal))
  (x26 : (⟨S2x128, .f32⟩ : BufTy).Contents (Elt Ideal))
  (x27 : (⟨S128, .f32⟩ : BufTy).Contents (Elt Ideal))
  (x28 : (⟨S128x128, .f32⟩ : BufTy).Contents (Elt Ideal))
  (x29 : (⟨S128, .f32⟩ : BufTy).Contents (Elt Ideal))
  (x30 : (⟨S128x1, .f32⟩ : BufTy).Contents (Elt Ideal))
  (x31 : (⟨S1, .f32⟩ : BufTy).Contents (Elt Ideal))

/-! ## The row function's terms, at row `n` of the arrays -/

/-- The centred row `y = x − c`. -/
def yr (n : Fin 262144) : Fin 3 → EReal := fun j => x0 (ix2 n j) - x1 (ix1 j)
/-- Its direction `u`. -/
def ur (n : Fin 262144) : Fin 3 → EReal := unitv (yr x0 x1 n)
/-- `|y| ^ 2`. -/
def rpr (n : Fin 262144) : EReal := Ideal.pow (nrm (yr x0 x1 n)) two
/-- The normalised direction head `e`. -/
def er (n : Fin 262144) : Fin 2 → EReal := unitv ((mlpOf x2 x3 x4 x5 x6 x7).apply (ur x0 x1 n))
/-- The magnitude head through softplus, `a`. -/
def ar (n : Fin 262144) : EReal := softplus ((mlpOf x8 x9 x10 x11 x12 x13).apply (ur x0 x1 n) 0)
/-- The code `w = (|y|^2 · a) · e`. -/
def wr (n : Fin 262144) : Fin 2 → EReal := fun j => (rpr x0 x1 n * ar x0 x1 x8 x9 x10 x11 x12 x13 n) * er x0 x1 x2 x3 x4 x5 x6 x7 n j
/-- Its length. -/
def rwr (n : Fin 262144) : EReal := nrm (wr x0 x1 x2 x3 x4 x5 x6 x7 x8 x9 x10 x11 x12 x13 n)
/-- Its direction `θ`. -/
def thr (n : Fin 262144) : Fin 2 → EReal := unitv (wr x0 x1 x2 x3 x4 x5 x6 x7 x8 x9 x10 x11 x12 x13 n)
/-- The base direction. -/
def cbr (n : Fin 262144) : Fin 3 → EReal := unitv ((mlpOf x14 x15 x16 x17 x18 x19).apply (thr x0 x1 x2 x3 x4 x5 x6 x7 x8 x9 x10 x11 x12 x13 n))
/-- `log(|w| + ε)`. -/
def lrr (n : Fin 262144) : EReal := Ideal.log (rwr x0 x1 x2 x3 x4 x5 x6 x7 x8 x9 x10 x11 x12 x13 n + eps)
/-- The correction perceptron's input: `θ` followed by the log-length. -/
def cir (n : Fin 262144) : Fin 3 → EReal := fun k => if h : k.val < 2 then thr x0 x1 x2 x3 x4 x5 x6 x7 x8 x9 x10 x11 x12 x13 n ⟨k.val, h⟩ else lrr x0 x1 x2 x3 x4 x5 x6 x7 x8 x9 x10 x11 x12 x13 n
/-- The correction. -/
def ccor (n : Fin 262144) : Fin 3 → EReal := (mlpOf x20 x21 x22 x23 x24 x25).apply (cir x0 x1 x2 x3 x4 x5 x6 x7 x8 x9 x10 x11 x12 x13 n)
/-- The corrected direction. -/
def ccr (n : Fin 262144) : Fin 3 → EReal := unitv (fun j => cbr x0 x1 x2 x3 x4 x5 x6 x7 x8 x9 x10 x11 x12 x13 x14 x15 x16 x17 x18 x19 n j + ccor x0 x1 x2 x3 x4 x5 x6 x7 x8 x9 x10 x11 x12 x13 x20 x21 x22 x23 x24 x25 n j)
/-- The gate. -/
def bgr (n : Fin 262144) : EReal := softplus ((mlpOf x26 x27 x28 x29 x30 x31).apply (thr x0 x1 x2 x3 x4 x5 x6 x7 x8 x9 x10 x11 x12 x13 n) 0)
/-- The rebuilt row. -/
def outr (n : Fin 262144) : Fin 3 → EReal :=
  fun j => x1 (ix1 j) + Ideal.pow (rwr x0 x1 x2 x3 x4 x5 x6 x7 x8 x9 x10 x11 x12 x13 n) half * (bgr x0 x1 x2 x3 x4 x5 x6 x7 x8 x9 x10 x11 x12 x13 x26 x27 x28 x29 x30 x31 n * ccr x0 x1 x2 x3 x4 x5 x6 x7 x8 x9 x10 x11 x12 x13 x14 x15 x16 x17 x18 x19 x20 x21 x22 x23 x24 x25 n j)

/-! ## The centred row, its length, its direction -/

theorem idx_v1 (n : Fin 262144) (j : Fin 3) : idx_main_v0 (idx_main_v1 (ix2 n j)) = ix1 j :=
  funext fun a => Fin.ext (by match a with | ⟨0, _⟩ => rfl)
/-- `y = x − c`, the centre broadcast along the rows. -/
theorem y_apply (n : Fin 262144) (j : Fin 3) : val_main_v2 (F := Ideal) x0 x1 (ix2 n j) = yr x0 x1 n j := by
  rw [val_main_v2_apply, val_main_v1_apply, val_main_v0_apply, idx_v1]
  simp only [Ideal.subf_def, yr]

theorem idx_call0_red (n : Fin 262144) (k : Fin 3) : idx_main_call0_v1 (ix1 n) k = ix2 n k :=
  funext fun a => Fin.ext (by match a with | ⟨0, _⟩ => rfl | ⟨1, _⟩ => rfl)
/-- The length of row `n` of this stage's operand. -/
theorem nrm_v3 (n : Fin 262144) :
    val_main_v3 (F := Ideal) x0 x1 (ix1 n) = nrm (fun k : Fin 3 => val_main_v2 (F := Ideal) x0 x1 (ix2 n k)) := by
  rw [val_main_v3_apply, val_main_call0_v1_apply, val_main_call0_cst_apply]
  simp only [idx_call0_red, val_main_call0_v0_apply, Ideal.ofBits_def, Ideal.ofBits_zero_f32, zero_add,
    Ideal.hostUnary_sqrt_def, Ideal.mulf_def, nrm, ssq]

/-- `|y|`. -/
theorem r_apply (n : Fin 262144) : val_main_v3 (F := Ideal) x0 x1 (ix1 n) = nrm (yr x0 x1 n) :=
  (nrm_v3 x0 x1 n).trans (congrArg nrm (funext fun k => y_apply x0 x1 n k))

theorem idx_call1_red (n : Fin 262144) (z : Fin 1) (k : Fin 3) :
    idx_main_call1_v1 (idx_main_call1_v2 (ix2 n z)) k = ix2 n k :=
  funext fun a => Fin.ext (by match a with | ⟨0, _⟩ => rfl | ⟨1, _⟩ => rfl)
theorem idx_v7 (n : Fin 262144) (j : Fin 3) : idx_main_v7 (ix2 n j) = ix2 n (0 : Fin 1) :=
  funext fun a => Fin.ext (by match a with | ⟨0, _⟩ => rfl | ⟨1, _⟩ => rfl)
/-- The length of row `n` of this stage's operand, as the keep-dimension norm computes it: the square root of
    (zero plus) the sum of the squares. -/
theorem nrm_v4 (n : Fin 262144) (z : Fin 1) :
    val_main_v4 (F := Ideal) x0 x1 (ix2 n z) = nrm (fun k : Fin 3 => val_main_v2 (F := Ideal) x0 x1 (ix2 n k)) := by
  rw [val_main_v4_apply, val_main_call1_v2_apply, val_main_call1_v1_apply, val_main_call1_cst_apply]
  simp only [idx_call1_red, val_main_call1_v0_apply, Ideal.ofBits_def, Ideal.ofBits_zero_f32, zero_add,
    Ideal.hostUnary_sqrt_def, Ideal.mulf_def, nrm, ssq]
/-- The row divided by (its length + ε). -/
theorem unit_v8 (n : Fin 262144) (j : Fin 3) :
    val_main_v8 (F := Ideal) x0 x1 (ix2 n j) = unitv (fun k : Fin 3 => val_main_v2 (F := Ideal) x0 x1 (ix2 n k)) j := by
  rw [val_main_v8_apply, val_main_v7_apply, idx_v7, val_main_v6_apply, nrm_v4, val_main_v5_apply, val_main_cst_apply]
  simp only [Ideal.hostDivf_def, Ideal.addf_def, Ideal.ofBits_def, unitv]

/-- The direction `u` of the centred row. -/
theorem u_apply (n : Fin 262144) (j : Fin 3) : val_main_v8 (F := Ideal) x0 x1 (ix2 n j) = ur x0 x1 n j :=
  (unit_v8 x0 x1 n j).trans (congrFun (congrArg unitv (funext fun k => y_apply x0 x1 n k)) j)

/-- `|y| ^ 2`, the exponent being the program's word for two. -/
theorem rp_apply (n : Fin 262144) : val_main_v10 (F := Ideal) x0 x1 (ix1 n) = rpr x0 x1 n := by
  rw [val_main_v10_apply, r_apply, val_main_v9_apply, val_main_cst_0_apply]
  simp only [Ideal.hostPowf_def, Ideal.ofBits_def, rpr]

/-! ## The encoder's two perceptrons -/

theorem lidx_v11 (n : Fin 262144) (j : Fin 128) (k : Fin 3) : lidx_main_v11 (ix2 n j) k = ix2 n k :=
  funext fun a => Fin.ext (by match a with | ⟨0, _⟩ => rfl | ⟨1, _⟩ => rfl)
theorem ridx_v11 (n : Fin 262144) (j : Fin 128) (k : Fin 3) : ridx_main_v11 (ix2 n j) k = ix2 k j :=
  funext fun a => Fin.ext (by match a with | ⟨0, _⟩ => rfl | ⟨1, _⟩ => rfl)
theorem idx_v13 (n : Fin 262144) (j : Fin 128) : idx_main_v12 (idx_main_v13 (ix2 n j)) = ix1 j :=
  funext fun a => Fin.ext (by match a with | ⟨0, _⟩ => rfl)
theorem layer_v15 (n : Fin 262144) (j : Fin 128) :
    val_main_v15 (F := Ideal) x0 x1 x2 x3 (ix2 n j) =
      relu (dense (fun k : Fin 3 => val_main_v8 (F := Ideal) x0 x1 (ix2 n k)) (fun (k : Fin 3) (j : Fin 128) => x2 (ix2 k j))
        (fun j : Fin 128 => x3 (ix1 j)) j) := by
  rw [val_main_v15_apply, val_main_call2_v0_apply, val_main_call2_cst_apply, val_main_v14_apply, val_main_v11_apply, val_main_v13_apply, val_main_v12_apply, idx_v13]
  simp only [lidx_v11, ridx_v11, Ideal.addf_def, dense, Ideal.maximumf_def, Ideal.ofBits_def, Ideal.ofBits_zero_f32, relu]

theorem lidx_v16 (n : Fin 262144) (j : Fin 128) (k : Fin 128) : lidx_main_v16 (ix2 n j) k = ix2 n k :=
  funext fun a => Fin.ext (by match a with | ⟨0, _⟩ => rfl | ⟨1, _⟩ => rfl)
theorem ridx_v16 (n : Fin 262144) (j : Fin 128) (k : Fin 128) : ridx_main_v16 (ix2 n j) k = ix2 k j :=
  funext fun a => Fin.ext (by match a with | ⟨0, _⟩ => rfl | ⟨1, _⟩ => rfl)
theorem idx_v18 (n : Fin 262144) (j : Fin 128) : idx_main_v17 (idx_main_v18 (ix2 n j)) = ix1 j :=
  funext fun a => Fin.ext (by match a with | ⟨0, _⟩ => rfl)
theorem layer_v20 (n : Fin 262144) (j : Fin 128) :
    val_main_v20 (F := Ideal) x0 x1 x2 x3 x4 x5 (ix2 n j) =
      relu (dense (fun k : Fin 128 => val_main_v15 (F := Ideal) x0 x1 x2 x3 (ix2 n k)) (fun (k : Fin 128) (j : Fin 128) => x4 (ix2 k j))
        (fun j : Fin 128 => x5 (ix1 j)) j) := by
  rw [val_main_v20_apply, val_main_call3_v0_apply, val_main_call3_cst_apply, val_main_v19_apply, val_main_v16_apply, val_main_v18_apply, val_main_v17_apply, idx_v18]
  simp only [lidx_v16, ridx_v16, Ideal.addf_def, dense, Ideal.maximumf_def, Ideal.ofBits_def, Ideal.ofBits_zero_f32, relu]

theorem lidx_v21 (n : Fin 262144) (j : Fin 2) (k : Fin 128) : lidx_main_v21 (ix2 n j) k = ix2 n k :=
  funext fun a => Fin.ext (by match a with | ⟨0, _⟩ => rfl | ⟨1, _⟩ => rfl)
theorem ridx_v21 (n : Fin 262144) (j : Fin 2) (k : Fin 128) : ridx_main_v21 (ix2 n j) k = ix2 k j :=
  funext fun a => Fin.ext (by match a with | ⟨0, _⟩ => rfl | ⟨1, _⟩ => rfl)
theorem idx_v23 (n : Fin 262144) (j : Fin 2) : idx_main_v22 (idx_main_v23 (ix2 n j)) = ix1 j :=
  funext fun a => Fin.ext (by match a with | ⟨0, _⟩ => rfl)
theorem layer_v24 (n : Fin 262144) (j : Fin 2) :
    val_main_v24 (F := Ideal) x0 x1 x2 x3 x4 x5 x6 x7 (ix2 n j) =
      dense (fun k : Fin 128 => val_main_v20 (F := Ideal) x0 x1 x2 x3 x4 x5 (ix2 n k)) (fun (k : Fin 128) (j : Fin 2) => x6 (ix2 k j))
        (fun j : Fin 2 => x7 (ix1 j)) j := by
  rw [val_main_v24_apply, val_main_v21_apply, val_main_v23_apply, val_main_v22_apply, idx_v23]
  simp only [lidx_v21, ridx_v21, Ideal.addf_def, dense]

/-- The three layers together are the specification's perceptron on the weights read off the six arrays. -/
theorem mlp_ea (n : Fin 262144) (j : Fin 2) :
    val_main_v24 (F := Ideal) x0 x1 x2 x3 x4 x5 x6 x7 (ix2 n j) = (mlpOf x2 x3 x4 x5 x6 x7).apply (fun k : Fin 3 => val_main_v8 (F := Ideal) x0 x1 (ix2 n k)) j := by
  rw [layer_v24]
  simp only [layer_v20, layer_v15]
  rfl

/-- The direction head reads `u`. -/
theorem ea_apply (n : Fin 262144) (j : Fin 2) : val_main_v24 (F := Ideal) x0 x1 x2 x3 x4 x5 x6 x7 (ix2 n j) = (mlpOf x2 x3 x4 x5 x6 x7).apply (ur x0 x1 n) j :=
  (mlp_ea x0 x1 x2 x3 x4 x5 x6 x7 n j).trans (congrFun (congrArg (mlpOf x2 x3 x4 x5 x6 x7).apply (funext fun k => u_apply x0 x1 n k)) j)

theorem idx_call4_red (n : Fin 262144) (z : Fin 1) (k : Fin 2) :
    idx_main_call4_v1 (idx_main_call4_v2 (ix2 n z)) k = ix2 n k :=
  funext fun a => Fin.ext (by match a with | ⟨0, _⟩ => rfl | ⟨1, _⟩ => rfl)
theorem idx_v28 (n : Fin 262144) (j : Fin 2) : idx_main_v28 (ix2 n j) = ix2 n (0 : Fin 1) :=
  funext fun a => Fin.ext (by match a with | ⟨0, _⟩ => rfl | ⟨1, _⟩ => rfl)
/-- The length of row `n` of this stage's operand, as the keep-dimension norm computes it: the square root of
    (zero plus) the sum of the squares. -/
theorem nrm_v25 (n : Fin 262144) (z : Fin 1) :
    val_main_v25 (F := Ideal) x0 x1 x2 x3 x4 x5 x6 x7 (ix2 n z) = nrm (fun k : Fin 2 => val_main_v24 (F := Ideal) x0 x1 x2 x3 x4 x5 x6 x7 (ix2 n k)) := by
  rw [val_main_v25_apply, val_main_call4_v2_apply, val_main_call4_v1_apply, val_main_call4_cst_apply]
  simp only [idx_call4_red, val_main_call4_v0_apply, Ideal.ofBits_def, Ideal.ofBits_zero_f32, zero_add,
    Ideal.hostUnary_sqrt_def, Ideal.mulf_def, nrm, ssq]
/-- The row divided by (its length + ε). -/
theorem unit_v29 (n : Fin 262144) (j : Fin 2) :
    val_main_v29 (F := Ideal) x0 x1 x2 x3 x4 x5 x6 x7 (ix2 n j) = unitv (fun k : Fin 2 => val_main_v24 (F := Ideal) x0 x1 x2 x3 x4 x5 x6 x7 (ix2 n k)) j := by
  rw [val_main_v29_apply, val_main_v28_apply, idx_v28, val_main_v27_apply, nrm_v25, val_main_v26_apply, val_main_cst_1_apply]
  simp only [Ideal.hostDivf_def, Ideal.addf_def, Ideal.ofBits_def, unitv]

/-- The normalised direction head `e`. -/
theorem e_apply (n : Fin 262144) (j : Fin 2) : val_main_v29 (F := Ideal) x0 x1 x2 x3 x4 x5 x6 x7 (ix2 n j) = er x0 x1 x2 x3 x4 x5 x6 x7 n j :=
  (unit_v29 x0 x1 x2 x3 x4 x5 x6 x7 n j).trans (congrFun (congrArg unitv (funext fun k => ea_apply x0 x1 x2 x3 x4 x5 x6 x7 n k)) j)

theorem lidx_v30 (n : Fin 262144) (j : Fin 128) (k : Fin 3) : lidx_main_v30 (ix2 n j) k = ix2 n k :=
  funext fun a => Fin.ext (by match a with | ⟨0, _⟩ => rfl | ⟨1, _⟩ => rfl)
theorem ridx_v30 (n : Fin 262144) (j : Fin 128) (k : Fin 3) : ridx_main_v30 (ix2 n j) k = ix2 k j :=
  funext fun a => Fin.ext (by match a with | ⟨0, _⟩ => rfl | ⟨1, _⟩ => rfl)
theorem idx_v32 (n : Fin 262144) (j : Fin 128) : idx_main_v31 (idx_main_v32 (ix2 n j)) = ix1 j :=
  funext fun a => Fin.ext (by match a with | ⟨0, _⟩ => rfl)
theorem layer_v34 (n : Fin 262144) (j : Fin 128) :
    val_main_v34 (F := Ideal) x0 x1 x8 x9 (ix2 n j) =
      relu (dense (fun k : Fin 3 => val_main_v8 (F := Ideal) x0 x1 (ix2 n k)) (fun (k : Fin 3) (j : Fin 128) => x8 (ix2 k j))
        (fun j : Fin 128 => x9 (ix1 j)) j) := by
  rw [val_main_v34_apply, val_main_call5_v0_apply, val_main_call5_cst_apply, val_main_v33_apply, val_main_v30_apply, val_main_v32_apply, val_main_v31_apply, idx_v32]
  simp only [lidx_v30, ridx_v30, Ideal.addf_def, dense, Ideal.maximumf_def, Ideal.ofBits_def, Ideal.ofBits_zero_f32, relu]

theorem lidx_v35 (n : Fin 262144) (j : Fin 128) (k : Fin 128) : lidx_main_v35 (ix2 n j) k = ix2 n k :=
  funext fun a => Fin.ext (by match a with | ⟨0, _⟩ => rfl | ⟨1, _⟩ => rfl)
theorem ridx_v35 (n : Fin 262144) (j : Fin 128) (k : Fin 128) : ridx_main_v35 (ix2 n j) k = ix2 k j :=
  funext fun a => Fin.ext (by match a with | ⟨0, _⟩ => rfl | ⟨1, _⟩ => rfl)
theorem idx_v37 (n : Fin 262144) (j : Fin 128) : idx_main_v36 (idx_main_v37 (ix2 n j)) = ix1 j :=
  funext fun a => Fin.ext (by match a with | ⟨0, _⟩ => rfl)
theorem layer_v39 (n : Fin 262144) (j : Fin 128) :
    val_main_v39 (F := Ideal) x0 x1 x8 x9 x10 x11 (ix2 n j) =
      relu (dense (fun k : Fin 128 => val_main_v34 (F := Ideal) x0 x1 x8 x9 (ix2 n k)) (fun (k : Fin 128) (j : Fin 128) => x10 (ix2 k j))
        (fun j : Fin 128 => x11 (ix1 j)) j) := by
  rw [val_main_v39_apply, val_main_call6_v0_apply, val_main_call6_cst_apply, val_main_v38_apply, val_main_v35_apply, val_main_v37_apply, val_main_v36_apply, idx_v37]
  simp only [lidx_v35, ridx_v35, Ideal.addf_def, dense, Ideal.maximumf_def, Ideal.ofBits_def, Ideal.ofBits_zero_f32, relu]

theorem lidx_v40 (n : Fin 262144) (j : Fin 1) (k : Fin 128) : lidx_main_v40 (ix2 n j) k = ix2 n k :=
  funext fun a => Fin.ext (by match a with | ⟨0, _⟩ => rfl | ⟨1, _⟩ => rfl)
theorem ridx_v40 (n : Fin 262144) (j : Fin 1) (k : Fin 128) : ridx_main_v40 (ix2 n j) k = ix2 k j :=
  funext fun a => Fin.ext (by match a with | ⟨0, _⟩ => rfl | ⟨1, _⟩ => rfl)
theorem idx_v42 (n : Fin 262144) (j : Fin 1) : idx_main_v41 (idx_main_v42 (ix2 n j)) = ix1 j :=
  funext fun a => Fin.ext (by match a with | ⟨0, _⟩ => have := j.isLt; show (0 : ℕ) = j.val; omega)
theorem layer_v43 (n : Fin 262144) (j : Fin 1) :
    val_main_v43 (F := Ideal) x0 x1 x8 x9 x10 x11 x12 x13 (ix2 n j) =
      dense (fun k : Fin 128 => val_main_v39 (F := Ideal) x0 x1 x8 x9 x10 x11 (ix2 n k)) (fun (k : Fin 128) (j : Fin 1) => x12 (ix2 k j))
        (fun j : Fin 1 => x13 (ix1 j)) j := by
  rw [val_main_v43_apply, val_main_v40_apply, val_main_v42_apply, val_main_v41_apply, idx_v42]
  simp only [lidx_v40, ridx_v40, Ideal.addf_def, dense]

/-- The three layers together are the specification's perceptron on the weights read off the six arrays. -/
theorem mlp_em (n : Fin 262144) (j : Fin 1) :
    val_main_v43 (F := Ideal) x0 x1 x8 x9 x10 x11 x12 x13 (ix2 n j) = (mlpOf x8 x9 x10 x11 x12 x13).apply (fun k : Fin 3 => val_main_v8 (F := Ideal) x0 x1 (ix2 n k)) j := by
  rw [layer_v43]
  simp only [layer_v39, layer_v34]
  rfl

/-- The magnitude head reads `u`. -/
theorem em_apply (n : Fin 262144) (j : Fin 1) : val_main_v43 (F := Ideal) x0 x1 x8 x9 x10 x11 x12 x13 (ix2 n j) = (mlpOf x8 x9 x10 x11 x12 x13).apply (ur x0 x1 n) j :=
  (mlp_em x0 x1 x8 x9 x10 x11 x12 x13 n j).trans (congrFun (congrArg (mlpOf x8 x9 x10 x11 x12 x13).apply (funext fun k => u_apply x0 x1 n k)) j)

theorem idx_v44 (n : Fin 262144) : idx_main_v44 (ix1 n) = ix2 n (0 : Fin 1) :=
  funext fun a => Fin.ext (by match a with | ⟨0, _⟩ => exact Nat.div_one _ | ⟨1, _⟩ => rfl)
/-- softplus of the single output column: the guard "the operand differs from itself" is false, so the select takes
    `max(z, 0) + log1p(exp(−|z − 0|))`, and `z − 0 = z`. -/
theorem sp_v45 (n : Fin 262144) :
    val_main_v45 (F := Ideal) x0 x1 x8 x9 x10 x11 x12 x13 (ix1 n) = softplus (val_main_v43 (F := Ideal) x0 x1 x8 x9 x10 x11 x12 x13 (ix2 n (0 : Fin 1))) := by
  simp only [val_main_v45_apply, val_main_call7_v4_apply, val_main_call7_v11_apply, val_main_call7_v1_apply, val_main_call7_v0_apply, val_main_call7_v10_apply, val_main_call7_v9_apply, val_main_call7_v8_apply, val_main_call7_v7_apply, val_main_call7_v3_apply, val_main_call7_v2_apply, val_main_call7_cst_apply, val_main_v44_apply, idx_v44,
    cmpf_une_self, select_zero, Ideal.ofBits_def, Ideal.ofBits_zero_f32, Ideal.subf_def, sub_zero, Ideal.addf_def,
    Ideal.maximumf_def, Ideal.hostUnary_log1p_def, Ideal.hostUnary_exp_def, Ideal.hostNegf_def, Ideal.negf_def,
    Ideal.hostAbsf_def, absf_eq, softplus]

/-- `a`, softplus of the magnitude head. -/
theorem a_apply (n : Fin 262144) : val_main_v45 (F := Ideal) x0 x1 x8 x9 x10 x11 x12 x13 (ix1 n) = ar x0 x1 x8 x9 x10 x11 x12 x13 n :=
  (sp_v45 x0 x1 x8 x9 x10 x11 x12 x13 n).trans (congrArg softplus (em_apply x0 x1 x8 x9 x10 x11 x12 x13 n 0))

/-! ## The code `w`, its length, direction and log-length -/

theorem idx_v49 (n : Fin 262144) (j : Fin 2) : idx_main_v49 (ix2 n j) = ix2 n (0 : Fin 1) :=
  funext fun a => Fin.ext (by match a with | ⟨0, _⟩ => rfl | ⟨1, _⟩ => rfl)
theorem idx_v46 (n : Fin 262144) (z : Fin 1) : idx_main_v46 (ix2 n z) = ix1 n :=
  funext fun a => Fin.ext (by match a with | ⟨0, _⟩ => rfl)
theorem idx_v47 (n : Fin 262144) (z : Fin 1) : idx_main_v47 (ix2 n z) = ix1 n :=
  funext fun a => Fin.ext (by match a with | ⟨0, _⟩ => rfl)
/-- `w = (|y|^2 · a) · e`, in the program's grouping. -/
theorem w_apply (n : Fin 262144) (j : Fin 2) : val_main_v50 (F := Ideal) x0 x1 x2 x3 x4 x5 x6 x7 x8 x9 x10 x11 x12 x13 (ix2 n j) = wr x0 x1 x2 x3 x4 x5 x6 x7 x8 x9 x10 x11 x12 x13 n j := by
  rw [val_main_v50_apply, val_main_v49_apply, idx_v49, val_main_v48_apply, val_main_v46_apply, idx_v46, val_main_v47_apply, idx_v47, rp_apply, a_apply, e_apply]
  simp only [Ideal.mulf_def, wr]

theorem idx_call8_red (n : Fin 262144) (k : Fin 2) : idx_main_call8_v1 (ix1 n) k = ix2 n k :=
  funext fun a => Fin.ext (by match a with | ⟨0, _⟩ => rfl | ⟨1, _⟩ => rfl)
/-- The length of row `n` of this stage's operand. -/
theorem nrm_v51 (n : Fin 262144) :
    val_main_v51 (F := Ideal) x0 x1 x2 x3 x4 x5 x6 x7 x8 x9 x10 x11 x12 x13 (ix1 n) = nrm (fun k : Fin 2 => val_main_v50 (F := Ideal) x0 x1 x2 x3 x4 x5 x6 x7 x8 x9 x10 x11 x12 x13 (ix2 n k)) := by
  rw [val_main_v51_apply, val_main_call8_v1_apply, val_main_call8_cst_apply]
  simp only [idx_call8_red, val_main_call8_v0_apply, Ideal.ofBits_def, Ideal.ofBits_zero_f32, zero_add,
    Ideal.hostUnary_sqrt_def, Ideal.mulf_def, nrm, ssq]

/-- `|w|`. -/
theorem rw_apply (n : Fin 262144) : val_main_v51 (F := Ideal) x0 x1 x2 x3 x4 x5 x6 x7 x8 x9 x10 x11 x12 x13 (ix1 n) = rwr x0 x1 x2 x3 x4 x5 x6 x7 x8 x9 x10 x11 x12 x13 n :=
  (nrm_v51 x0 x1 x2 x3 x4 x5 x6 x7 x8 x9 x10 x11 x12 x13 n).trans (congrArg nrm (funext fun k => w_apply x0 x1 x2 x3 x4 x5 x6 x7 x8 x9 x10 x11 x12 x13 n k))
/-- `|w| ^ (1/2)`, the exponent being the program's word for one half. -/
theorem sq_apply (n : Fin 262144) : val_main_v53 (F := Ideal) x0 x1 x2 x3 x4 x5 x6 x7 x8 x9 x10 x11 x12 x13 (ix1 n) = Ideal.pow (rwr x0 x1 x2 x3 x4 x5 x6 x7 x8 x9 x10 x11 x12 x13 n) half := by
  rw [val_main_v53_apply, rw_apply, val_main_v52_apply, val_main_cst_2_apply]
  simp only [Ideal.hostPowf_def, Ideal.ofBits_def]

theorem idx_call9_red (n : Fin 262144) (z : Fin 1) (k : Fin 2) :
    idx_main_call9_v1 (idx_main_call9_v2 (ix2 n z)) k = ix2 n k :=
  funext fun a => Fin.ext (by match a with | ⟨0, _⟩ => rfl | ⟨1, _⟩ => rfl)
theorem idx_v57 (n : Fin 262144) (j : Fin 2) : idx_main_v57 (ix2 n j) = ix2 n (0 : Fin 1) :=
  funext fun a => Fin.ext (by match a with | ⟨0, _⟩ => rfl | ⟨1, _⟩ => rfl)
/-- The length of row `n` of this stage's operand, as the keep-dimension norm computes it: the square root of
    (zero plus) the sum of the squares. -/
theorem nrm_v54 (n : Fin 262144) (z : Fin 1) :
    val_main_v54 (F := Ideal) x0 x1 x2 x3 x4 x5 x6 x7 x8 x9 x10 x11 x12 x13 (ix2 n z) = nrm (fun k : Fin 2 => val_main_v50 (F := Ideal) x0 x1 x2 x3 x4 x5 x6 x7 x8 x9 x10 x11 x12 x13 (ix2 n k)) := by
  rw [val_main_v54_apply, val_main_call9_v2_apply, val_main_call9_v1_apply, val_main_call9_cst_apply]
  simp only [idx_call9_red, val_main_call9_v0_apply, Ideal.ofBits_def, Ideal.ofBits_zero_f32, zero_add,
    Ideal.hostUnary_sqrt_def, Ideal.mulf_def, nrm, ssq]
/-- The row divided by (its length + ε). -/
theorem unit_v58 (n : Fin 262144) (j : Fin 2) :
    val_main_v58 (F := Ideal) x0 x1 x2 x3 x4 x5 x6 x7 x8 x9 x10 x11 x12 x13 (ix2 n j) = unitv (fun k : Fin 2 => val_main_v50 (F := Ideal) x0 x1 x2 x3 x4 x5 x6 x7 x8 x9 x10 x11 x12 x13 (ix2 n k)) j := by
  rw [val_main_v58_apply, val_main_v57_apply, idx_v57, val_main_v56_apply, nrm_v54, val_main_v55_apply, val_main_cst_3_apply]
  simp only [Ideal.hostDivf_def, Ideal.addf_def, Ideal.ofBits_def, unitv]

/-- The direction `θ` of the code. -/
theorem th_apply (n : Fin 262144) (j : Fin 2) : val_main_v58 (F := Ideal) x0 x1 x2 x3 x4 x5 x6 x7 x8 x9 x10 x11 x12 x13 (ix2 n j) = thr x0 x1 x2 x3 x4 x5 x6 x7 x8 x9 x10 x11 x12 x13 n j :=
  (unit_v58 x0 x1 x2 x3 x4 x5 x6 x7 x8 x9 x10 x11 x12 x13 n j).trans (congrFun (congrArg unitv (funext fun k => w_apply x0 x1 x2 x3 x4 x5 x6 x7 x8 x9 x10 x11 x12 x13 n k)) j)

/-- `log(|w| + ε)`. -/
theorem lr_apply (n : Fin 262144) : val_main_v80 (F := Ideal) x0 x1 x2 x3 x4 x5 x6 x7 x8 x9 x10 x11 x12 x13 (ix1 n) = lrr x0 x1 x2 x3 x4 x5 x6 x7 x8 x9 x10 x11 x12 x13 n := by
  rw [val_main_v80_apply, val_main_v79_apply, rw_apply, val_main_v78_apply, val_main_cst_5_apply]
  simp only [Ideal.hostUnary_log_def, Ideal.addf_def, Ideal.ofBits_def, lrr]
theorem idx_v81 (n : Fin 262144) (z : Fin 1) : idx_main_v81 (ix2 n z) = ix1 n :=
  funext fun a => Fin.ext (by match a with | ⟨0, _⟩ => rfl)
/-- A row of the two-piece concatenation along the columns: the first two entries come from the first piece, the
    third from the second piece's only column. -/
theorem concat_read (A : (⟨S262144x2, .f32⟩ : BufTy).Contents (Elt Ideal)) (B : (⟨S262144x1, .f32⟩ : BufTy).Contents (Elt Ideal))
    (n : Fin 262144) (k : Fin 3) :
    concatenate S262144x3 1 [⟨S262144x2, A⟩, ⟨S262144x1, B⟩] concatenates_S262144x2_S262144x1_S262144x3_d1 (ix2 n k) =
      if h : k.val < 2 then A (ix2 n (⟨k.val, h⟩ : Fin 2)) else B (ix2 n (0 : Fin 1)) := by
  by_cases h : k.val < 2
  · rw [dif_pos h]
    exact concatenate_pair_apply_left (t := S262144x3) (s₁ := S262144x2) (s₂ := S262144x1) 1 A B
      concatenates_S262144x2_S262144x1_S262144x3_d1 (ix2 n k) rfl (ix2 n (⟨k.val, h⟩ : Fin 2))
      (fun b => by match b with | ⟨0, _⟩ => rfl | ⟨1, _⟩ => rfl)
  · rw [dif_neg h]
    exact concatenate_pair_apply_right (t := S262144x3) (s₁ := S262144x2) (s₂ := S262144x1) 1 A B
      concatenates_S262144x2_S262144x1_S262144x3_d1 (ix2 n k) rfl rfl (ix2 n (0 : Fin 1))
      (fun b hb => by match b with | ⟨0, _⟩ => rfl | ⟨1, _⟩ => exact absurd rfl hb)
      (by have := k.isLt; show 0 + 2 = k.val; omega)
/-- The correction perceptron's input: columns 0 and 1 are `θ`, column 2 is the log-length. -/
theorem ci_apply (n : Fin 262144) (k : Fin 3) : val_main_v82 (F := Ideal) x0 x1 x2 x3 x4 x5 x6 x7 x8 x9 x10 x11 x12 x13 (ix2 n k) = cir x0 x1 x2 x3 x4 x5 x6 x7 x8 x9 x10 x11 x12 x13 n k := by
  unfold val_main_v82
  rw [concat_read]
  unfold cir
  by_cases h : k.val < 2
  · rw [dif_pos h, dif_pos h]
    exact th_apply x0 x1 x2 x3 x4 x5 x6 x7 x8 x9 x10 x11 x12 x13 n _
  · rw [dif_neg h, dif_neg h, val_main_v81_apply, idx_v81]
    exact lr_apply x0 x1 x2 x3 x4 x5 x6 x7 x8 x9 x10 x11 x12 x13 n

/-! ## The decoder's three perceptrons -/

theorem lidx_v59 (n : Fin 262144) (j : Fin 128) (k : Fin 2) : lidx_main_v59 (ix2 n j) k = ix2 n k :=
  funext fun a => Fin.ext (by match a with | ⟨0, _⟩ => rfl | ⟨1, _⟩ => rfl)
theorem ridx_v59 (n : Fin 262144) (j : Fin 128) (k : Fin 2) : ridx_main_v59 (ix2 n j) k = ix2 k j :=
  funext fun a => Fin.ext (by match a with | ⟨0, _⟩ => rfl | ⟨1, _⟩ => rfl)
theorem idx_v61 (n : Fin 262144) (j : Fin 128) : idx_main_v60 (idx_main_v61 (ix2 n j)) = ix1 j :=
  funext fun a => Fin.ext (by match a with | ⟨0, _⟩ => rfl)
theorem layer_v63 (n : Fin 262144) (j : Fin 128) :
    val_main_v63 (F := Ideal) x0 x1 x2 x3 x4 x5 x6 x7 x8 x9 x10 x11 x12 x13 x14 x15 (ix2 n j) =
      relu (dense (fun k : Fin 2 => val_main_v58 (F := Ideal) x0 x1 x2 x3 x4 x5 x6 x7 x8 x9 x10 x11 x12 x13 (ix2 n k)) (fun (k : Fin 2) (j : Fin 128) => x14 (ix2 k j))
        (fun j : Fin 128 => x15 (ix1 j)) j) := by
  rw [val_main_v63_apply, val_main_call10_v0_apply, val_main_call10_cst_apply, val_main_v62_apply, val_main_v59_apply, val_main_v61_apply, val_main_v60_apply, idx_v61]
  simp only [lidx_v59, ridx_v59, Ideal.addf_def, dense, Ideal.maximumf_def, Ideal.ofBits_def, Ideal.ofBits_zero_f32, relu]

theorem lidx_v64 (n : Fin 262144) (j : Fin 128) (k : Fin 128) : lidx_main_v64 (ix2 n j) k = ix2 n k :=
  funext fun a => Fin.ext (by match a with | ⟨0, _⟩ => rfl | ⟨1, _⟩ => rfl)
theorem ridx_v64 (n : Fin 262144) (j : Fin 128) (k : Fin 128) : ridx_main_v64 (ix2 n j) k = ix2 k j :=
  funext fun a => Fin.ext (by match a with | ⟨0, _⟩ => rfl | ⟨1, _⟩ => rfl)
theorem idx_v66 (n : Fin 262144) (j : Fin 128) : idx_main_v65 (idx_main_v66 (ix2 n j)) = ix1 j :=
  funext fun a => Fin.ext (by match a with | ⟨0, _⟩ => rfl)
theorem layer_v68 (n : Fin 262144) (j : Fin 128) :
    val_main_v68 (F := Ideal) x0 x1 x2 x3 x4 x5 x6 x7 x8 x9 x10 x11 x12 x13 x14 x15 x16 x17 (ix2 n j) =
      relu (dense (fun k : Fin 128 => val_main_v63 (F := Ideal) x0 x1 x2 x3 x4 x5 x6 x7 x8 x9 x10 x11 x12 x13 x14 x15 (ix2 n k)) (fun (k : Fin 128) (j : Fin 128) => x16 (ix2 k j))
        (fun j : Fin 128 => x17 (ix1 j)) j) := by
  rw [val_main_v68_apply, val_main_call11_v0_apply, val_main_call11_cst_apply, val_main_v67_apply, val_main_v64_apply, val_main_v66_apply, val_main_v65_apply, idx_v66]
  simp only [lidx_v64, ridx_v64, Ideal.addf_def, dense, Ideal.maximumf_def, Ideal.ofBits_def, Ideal.ofBits_zero_f32, relu]

theorem lidx_v69 (n : Fin 262144) (j : Fin 3) (k : Fin 128) : lidx_main_v69 (ix2 n j) k = ix2 n k :=
  funext fun a => Fin.ext (by match a with | ⟨0, _⟩ => rfl | ⟨1, _⟩ => rfl)
theorem ridx_v69 (n : Fin 262144) (j : Fin 3) (k : Fin 128) : ridx_main_v69 (ix2 n j) k = ix2 k j :=
  funext fun a => Fin.ext (by match a with | ⟨0, _⟩ => rfl | ⟨1, _⟩ => rfl)
theorem idx_v71 (n : Fin 262144) (j : Fin 3) : idx_main_v70 (idx_main_v71 (ix2 n j)) = ix1 j :=
  funext fun a => Fin.ext (by match a with | ⟨0, _⟩ => rfl)
theorem layer_v72 (n : Fin 262144) (j : Fin 3) :
    val_main_v72 (F := Ideal) x0 x1 x2 x3 x4 x5 x6 x7 x8 x9 x10 x11 x12 x13 x14 x15 x16 x17 x18 x19 (ix2 n j) =
      dense (fun k : Fin 128 => val_main_v68 (F := Ideal) x0 x1 x2 x3 x4 x5 x6 x7 x8 x9 x10 x11 x12 x13 x14 x15 x16 x17 (ix2 n k)) (fun (k : Fin 128) (j : Fin 3) => x18 (ix2 k j))
        (fun j : Fin 3 => x19 (ix1 j)) j := by
  rw [val_main_v72_apply, val_main_v69_apply, val_main_v71_apply, val_main_v70_apply, idx_v71]
  simp only [lidx_v69, ridx_v69, Ideal.addf_def, dense]

/-- The three layers together are the specification's perceptron on the weights read off the six arrays. -/
theorem mlp_db (n : Fin 262144) (j : Fin 3) :
    val_main_v72 (F := Ideal) x0 x1 x2 x3 x4 x5 x6 x7 x8 x9 x10 x11 x12 x13 x14 x15 x16 x17 x18 x19 (ix2 n j) = (mlpOf x14 x15 x16 x17 x18 x19).apply (fun k : Fin 2 => val_main_v58 (F := Ideal) x0 x1 x2 x3 x4 x5 x6 x7 x8 x9 x10 x11 x12 x13 (ix2 n k)) j := by
  rw [layer_v72]
  simp only [layer_v68, layer_v63]
  rfl

/-- The base-direction perceptron reads `θ`. -/
theorem db_apply (n : Fin 262144) (j : Fin 3) : val_main_v72 (F := Ideal) x0 x1 x2 x3 x4 x5 x6 x7 x8 x9 x10 x11 x12 x13 x14 x15 x16 x17 x18 x19 (ix2 n j) = (mlpOf x14 x15 x16 x17 x18 x19).apply (thr x0 x1 x2 x3 x4 x5 x6 x7 x8 x9 x10 x11 x12 x13 n) j :=
  (mlp_db x0 x1 x2 x3 x4 x5 x6 x7 x8 x9 x10 x11 x12 x13 x14 x15 x16 x17 x18 x19 n j).trans (congrFun (congrArg (mlpOf x14 x15 x16 x17 x18 x19).apply (funext fun k => th_apply x0 x1 x2 x3 x4 x5 x6 x7 x8 x9 x10 x11 x12 x13 n k)) j)

theorem idx_call12_red (n : Fin 262144) (z : Fin 1) (k : Fin 3) :
    idx_main_call12_v1 (idx_main_call12_v2 (ix2 n z)) k = ix2 n k :=
  funext fun a => Fin.ext (by match a with | ⟨0, _⟩ => rfl | ⟨1, _⟩ => rfl)
theorem idx_v76 (n : Fin 262144) (j : Fin 3) : idx_main_v76 (ix2 n j) = ix2 n (0 : Fin 1) :=
  funext fun a => Fin.ext (by match a with | ⟨0, _⟩ => rfl | ⟨1, _⟩ => rfl)
/-- The length of row `n` of this stage's operand, as the keep-dimension norm computes it: the square root of
    (zero plus) the sum of the squares. -/
theorem nrm_v73 (n : Fin 262144) (z : Fin 1) :
    val_main_v73 (F := Ideal) x0 x1 x2 x3 x4 x5 x6 x7 x8 x9 x10 x11 x12 x13 x14 x15 x16 x17 x18 x19 (ix2 n z) = nrm (fun k : Fin 3 => val_main_v72 (F := Ideal) x0 x1 x2 x3 x4 x5 x6 x7 x8 x9 x10 x11 x12 x13 x14 x15 x16 x17 x18 x19 (ix2 n k)) := by
  rw [val_main_v73_apply, val_main_call12_v2_apply, val_main_call12_v1_apply, val_main_call12_cst_apply]
  simp only [idx_call12_red, val_main_call12_v0_apply, Ideal.ofBits_def, Ideal.ofBits_zero_f32, zero_add,
    Ideal.hostUnary_sqrt_def, Ideal.mulf_def, nrm, ssq]
/-- The row divided by (its length + ε). -/
theorem unit_v77 (n : Fin 262144) (j : Fin 3) :
    val_main_v77 (F := Ideal) x0 x1 x2 x3 x4 x5 x6 x7 x8 x9 x10 x11 x12 x13 x14 x15 x16 x17 x18 x19 (ix2 n j) = unitv (fun k : Fin 3 => val_main_v72 (F := Ideal) x0 x1 x2 x3 x4 x5 x6 x7 x8 x9 x10 x11 x12 x13 x14 x15 x16 x17 x18 x19 (ix2 n k)) j := by
  rw [val_main_v77_apply, val_main_v76_apply, idx_v76, val_main_v75_apply, nrm_v73, val_main_v74_apply, val_main_cst_4_apply]
  simp only [Ideal.hostDivf_def, Ideal.addf_def, Ideal.ofBits_def, unitv]

/-- The base direction. -/
theorem cb_apply (n : Fin 262144) (j : Fin 3) : val_main_v77 (F := Ideal) x0 x1 x2 x3 x4 x5 x6 x7 x8 x9 x10 x11 x12 x13 x14 x15 x16 x17 x18 x19 (ix2 n j) = cbr x0 x1 x2 x3 x4 x5 x6 x7 x8 x9 x10 x11 x12 x13 x14 x15 x16 x17 x18 x19 n j :=
  (unit_v77 x0 x1 x2 x3 x4 x5 x6 x7 x8 x9 x10 x11 x12 x13 x14 x15 x16 x17 x18 x19 n j).trans (congrFun (congrArg unitv (funext fun k => db_apply x0 x1 x2 x3 x4 x5 x6 x7 x8 x9 x10 x11 x12 x13 x14 x15 x16 x17 x18 x19 n k)) j)

theorem lidx_v83 (n : Fin 262144) (j : Fin 128) (k : Fin 3) : lidx_main_v83 (ix2 n j) k = ix2 n k :=
  funext fun a => Fin.ext (by match a with | ⟨0, _⟩ => rfl | ⟨1, _⟩ => rfl)
theorem ridx_v83 (n : Fin 262144) (j : Fin 128) (k : Fin 3) : ridx_main_v83 (ix2 n j) k = ix2 k j :=
  funext fun a => Fin.ext (by match a with | ⟨0, _⟩ => rfl | ⟨1, _⟩ => rfl)
theorem idx_v85 (n : Fin 262144) (j : Fin 128) : idx_main_v84 (idx_main_v85 (ix2 n j)) = ix1 j :=
  funext fun a => Fin.ext (by match a with | ⟨0, _⟩ => rfl)
theorem layer_v87 (n : Fin 262144) (j : Fin 128) :
    val_main_v87 (F := Ideal) x0 x1 x2 x3 x4 x5 x6 x7 x8 x9 x10 x11 x12 x13 x20 x21 (ix2 n j) =
      relu (dense (fun k : Fin 3 => val_main_v82 (F := Ideal) x0 x1 x2 x3 x4 x5 x6 x7 x8 x9 x10 x11 x12 x13 (ix2 n k)) (fun (k : Fin 3) (j : Fin 128) => x20 (ix2 k j))
        (fun j : Fin 128 => x21 (ix1 j)) j) := by
  rw [val_main_v87_apply, val_main_call13_v0_apply, val_main_call13_cst_apply, val_main_v86_apply, val_main_v83_apply, val_main_v85_apply, val_main_v84_apply, idx_v85]
  simp only [lidx_v83, ridx_v83, Ideal.addf_def, dense, Ideal.maximumf_def, Ideal.ofBits_def, Ideal.ofBits_zero_f32, relu]

theorem lidx_v88 (n : Fin 262144) (j : Fin 128) (k : Fin 128) : lidx_main_v88 (ix2 n j) k = ix2 n k :=
  funext fun a => Fin.ext (by match a with | ⟨0, _⟩ => rfl | ⟨1, _⟩ => rfl)
theorem ridx_v88 (n : Fin 262144) (j : Fin 128) (k : Fin 128) : ridx_main_v88 (ix2 n j) k = ix2 k j :=
  funext fun a => Fin.ext (by match a with | ⟨0, _⟩ => rfl | ⟨1, _⟩ => rfl)
theorem idx_v90 (n : Fin 262144) (j : Fin 128) : idx_main_v89 (idx_main_v90 (ix2 n j)) = ix1 j :=
  funext fun a => Fin.ext (by match a with | ⟨0, _⟩ => rfl)
theorem layer_v92 (n : Fin 262144) (j : Fin 128) :
    val_main_v92 (F := Ideal) x0 x1 x2 x3 x4 x5 x6 x7 x8 x9 x10 x11 x12 x13 x20 x21 x22 x23 (ix2 n j) =
      relu (dense (fun k : Fin 128 => val_main_v87 (F := Ideal) x0 x1 x2 x3 x4 x5 x6 x7 x8 x9 x10 x11 x12 x13 x20 x21 (ix2 n k)) (fun (k : Fin 128) (j : Fin 128) => x22 (ix2 k j))
        (fun j : Fin 128 => x23 (ix1 j)) j) := by
  rw [val_main_v92_apply, val_main_call14_v0_apply, val_main_call14_cst_apply, val_main_v91_apply, val_main_v88_apply, val_main_v90_apply, val_main_v89_apply, idx_v90]
  simp only [lidx_v88, ridx_v88, Ideal.addf_def, dense, Ideal.maximumf_def, Ideal.ofBits_def, Ideal.ofBits_zero_f32, relu]

theorem lidx_v93 (n : Fin 262144) (j : Fin 3) (k : Fin 128) : lidx_main_v93 (ix2 n j) k = ix2 n k :=
  funext fun a => Fin.ext (by match a with | ⟨0, _⟩ => rfl | ⟨1, _⟩ => rfl)
theorem ridx_v93 (n : Fin 262144) (j : Fin 3) (k : Fin 128) : ridx_main_v93 (ix2 n j) k = ix2 k j :=
  funext fun a => Fin.ext (by match a with | ⟨0, _⟩ => rfl | ⟨1, _⟩ => rfl)
theorem idx_v95 (n : Fin 262144) (j : Fin 3) : idx_main_v94 (idx_main_v95 (ix2 n j)) = ix1 j :=
  funext fun a => Fin.ext (by match a with | ⟨0, _⟩ => rfl)
theorem layer_v96 (n : Fin 262144) (j : Fin 3) :
    val_main_v96 (F := Ideal) x0 x1 x2 x3 x4 x5 x6 x7 x8 x9 x10 x11 x12 x13 x20 x21 x22 x23 x24 x25 (ix2 n j) =
      dense (fun k : Fin 128 => val_main_v92 (F := Ideal) x0 x1 x2 x3 x4 x5 x6 x7 x8 x9 x10 x11 x12 x13 x20 x21 x22 x23 (ix2 n k)) (fun (k : Fin 128) (j : Fin 3) => x24 (ix2 k j))
        (fun j : Fin 3 => x25 (ix1 j)) j := by
  rw [val_main_v96_apply, val_main_v93_apply, val_main_v95_apply, val_main_v94_apply, idx_v95]
  simp only [lidx_v93, ridx_v93, Ideal.addf_def, dense]

/-- The three layers together are the specification's perceptron on the weights read off the six arrays. -/
theorem mlp_dc (n : Fin 262144) (j : Fin 3) :
    val_main_v96 (F := Ideal) x0 x1 x2 x3 x4 x5 x6 x7 x8 x9 x10 x11 x12 x13 x20 x21 x22 x23 x24 x25 (ix2 n j) = (mlpOf x20 x21 x22 x23 x24 x25).apply (fun k : Fin 3 => val_main_v82 (F := Ideal) x0 x1 x2 x3 x4 x5 x6 x7 x8 x9 x10 x11 x12 x13 (ix2 n k)) j := by
  rw [layer_v96]
  simp only [layer_v92, layer_v87]
  rfl

/-- The correction perceptron reads `θ` and the log-length. -/
theorem dc_apply (n : Fin 262144) (j : Fin 3) : val_main_v96 (F := Ideal) x0 x1 x2 x3 x4 x5 x6 x7 x8 x9 x10 x11 x12 x13 x20 x21 x22 x23 x24 x25 (ix2 n j) = (mlpOf x20 x21 x22 x23 x24 x25).apply (cir x0 x1 x2 x3 x4 x5 x6 x7 x8 x9 x10 x11 x12 x13 n) j :=
  (mlp_dc x0 x1 x2 x3 x4 x5 x6 x7 x8 x9 x10 x11 x12 x13 x20 x21 x22 x23 x24 x25 n j).trans (congrFun (congrArg (mlpOf x20 x21 x22 x23 x24 x25).apply (funext fun k => ci_apply x0 x1 x2 x3 x4 x5 x6 x7 x8 x9 x10 x11 x12 x13 n k)) j)

/-- Base direction plus correction. -/
theorem s_apply (n : Fin 262144) (j : Fin 3) : val_main_v97 (F := Ideal) x0 x1 x2 x3 x4 x5 x6 x7 x8 x9 x10 x11 x12 x13 x14 x15 x16 x17 x18 x19 x20 x21 x22 x23 x24 x25 (ix2 n j) = cbr x0 x1 x2 x3 x4 x5 x6 x7 x8 x9 x10 x11 x12 x13 x14 x15 x16 x17 x18 x19 n j + ccor x0 x1 x2 x3 x4 x5 x6 x7 x8 x9 x10 x11 x12 x13 x20 x21 x22 x23 x24 x25 n j := by
  rw [val_main_v97_apply, cb_apply, dc_apply]
  simp only [Ideal.addf_def, ccor]

theorem idx_call15_red (n : Fin 262144) (z : Fin 1) (k : Fin 3) :
    idx_main_call15_v1 (idx_main_call15_v2 (ix2 n z)) k = ix2 n k :=
  funext fun a => Fin.ext (by match a with | ⟨0, _⟩ => rfl | ⟨1, _⟩ => rfl)
theorem idx_v101 (n : Fin 262144) (j : Fin 3) : idx_main_v101 (ix2 n j) = ix2 n (0 : Fin 1) :=
  funext fun a => Fin.ext (by match a with | ⟨0, _⟩ => rfl | ⟨1, _⟩ => rfl)
/-- The length of row `n` of this stage's operand, as the keep-dimension norm computes it: the square root of
    (zero plus) the sum of the squares. -/
theorem nrm_v98 (n : Fin 262144) (z : Fin 1) :
    val_main_v98 (F := Ideal) x0 x1 x2 x3 x4 x5 x6 x7 x8 x9 x10 x11 x12 x13 x14 x15 x16 x17 x18 x19 x20 x21 x22 x23 x24 x25 (ix2 n z) = nrm (fun k : Fin 3 => val_main_v97 (F := Ideal) x0 x1 x2 x3 x4 x5 x6 x7 x8 x9 x10 x11 x12 x13 x14 x15 x16 x17 x18 x19 x20 x21 x22 x23 x24 x25 (ix2 n k)) := by
  rw [val_main_v98_apply, val_main_call15_v2_apply, val_main_call15_v1_apply, val_main_call15_cst_apply]
  simp only [idx_call15_red, val_main_call15_v0_apply, Ideal.ofBits_def, Ideal.ofBits_zero_f32, zero_add,
    Ideal.hostUnary_sqrt_def, Ideal.mulf_def, nrm, ssq]
/-- The row divided by (its length + ε). -/
theorem unit_v102 (n : Fin 262144) (j : Fin 3) :
    val_main_v102 (F := Ideal) x0 x1 x2 x3 x4 x5 x6 x7 x8 x9 x10 x11 x12 x13 x14 x15 x16 x17 x18 x19 x20 x21 x22 x23 x24 x25 (ix2 n j) = unitv (fun k : Fin 3 => val_main_v97 (F := Ideal) x0 x1 x2 x3 x4 x5 x6 x7 x8 x9 x10 x11 x12 x13 x14 x15 x16 x17 x18 x19 x20 x21 x22 x23 x24 x25 (ix2 n k)) j := by
  rw [val_main_v102_apply, val_main_v101_apply, idx_v101, val_main_v100_apply, nrm_v98, val_main_v99_apply, val_main_cst_6_apply]
  simp only [Ideal.hostDivf_def, Ideal.addf_def, Ideal.ofBits_def, unitv]

/-- The corrected direction. -/
theorem cc_apply (n : Fin 262144) (j : Fin 3) : val_main_v102 (F := Ideal) x0 x1 x2 x3 x4 x5 x6 x7 x8 x9 x10 x11 x12 x13 x14 x15 x16 x17 x18 x19 x20 x21 x22 x23 x24 x25 (ix2 n j) = ccr x0 x1 x2 x3 x4 x5 x6 x7 x8 x9 x10 x11 x12 x13 x14 x15 x16 x17 x18 x19 x20 x21 x22 x23 x24 x25 n j :=
  (unit_v102 x0 x1 x2 x3 x4 x5 x6 x7 x8 x9 x10 x11 x12 x13 x14 x15 x16 x17 x18 x19 x20 x21 x22 x23 x24 x25 n j).trans (congrFun (congrArg unitv (funext fun k => s_apply x0 x1 x2 x3 x4 x5 x6 x7 x8 x9 x10 x11 x12 x13 x14 x15 x16 x17 x18 x19 x20 x21 x22 x23 x24 x25 n k)) j)

theorem lidx_v103 (n : Fin 262144) (j : Fin 128) (k : Fin 2) : lidx_main_v103 (ix2 n j) k = ix2 n k :=
  funext fun a => Fin.ext (by match a with | ⟨0, _⟩ => rfl | ⟨1, _⟩ => rfl)
theorem ridx_v103 (n : Fin 262144) (j : Fin 128) (k : Fin 2) : ridx_main_v103 (ix2 n j) k = ix2 k j :=
  funext fun a => Fin.ext (by match a with | ⟨0, _⟩ => rfl | ⟨1, _⟩ => rfl)
theorem idx_v105 (n : Fin 262144) (j : Fin 128) : idx_main_v104 (idx_main_v105 (ix2 n j)) = ix1 j :=
  funext fun a => Fin.ext (by match a with | ⟨0, _⟩ => rfl)
theorem layer_v107 (n : Fin 262144) (j : Fin 128) :
    val_main_v107 (F := Ideal) x0 x1 x2 x3 x4 x5 x6 x7 x8 x9 x10 x11 x12 x13 x26 x27 (ix2 n j) =
      relu (dense (fun k : Fin 2 => val_main_v58 (F := Ideal) x0 x1 x2 x3 x4 x5 x6 x7 x8 x9 x10 x11 x12 x13 (ix2 n k)) (fun (k : Fin 2) (j : Fin 128) => x26 (ix2 k j))
        (fun j : Fin 128 => x27 (ix1 j)) j) := by
  rw [val_main_v107_apply, val_main_call16_v0_apply, val_main_call16_cst_apply, val_main_v106_apply, val_main_v103_apply, val_main_v105_apply, val_main_v104_apply, idx_v105]
  simp only [lidx_v103, ridx_v103, Ideal.addf_def, dense, Ideal.maximumf_def, Ideal.ofBits_def, Ideal.ofBits_zero_f32, relu]

theorem lidx_v108 (n : Fin 262144) (j : Fin 128) (k : Fin 128) : lidx_main_v108 (ix2 n j) k = ix2 n k :=
  funext fun a => Fin.ext (by match a with | ⟨0, _⟩ => rfl | ⟨1, _⟩ => rfl)
theorem ridx_v108 (n : Fin 262144) (j : Fin 128) (k : Fin 128) : ridx_main_v108 (ix2 n j) k = ix2 k j :=
  funext fun a => Fin.ext (by match a with | ⟨0, _⟩ => rfl | ⟨1, _⟩ => rfl)
theorem idx_v110 (n : Fin 262144) (j : Fin 128) : idx_main_v109 (idx_main_v110 (ix2 n j)) = ix1 j :=
  funext fun a => Fin.ext (by match a with | ⟨0, _⟩ => rfl)
theorem layer_v112 (n : Fin 262144) (j : Fin 128) :
    val_main_v112 (F := Ideal) x0 x1 x2 x3 x4 x5 x6 x7 x8 x9 x10 x11 x12 x13 x26 x27 x28 x29 (ix2 n j) =
      relu (dense (fun k : Fin 128 => val_main_v107 (F := Ideal) x0 x1 x2 x3 x4 x5 x6 x7 x8 x9 x10 x11 x12 x13 x26 x27 (ix2 n k)) (fun (k : Fin 128) (j : Fin 128) => x28 (ix2 k j))
        (fun j : Fin 128 => x29 (ix1 j)) j) := by
  rw [val_main_v112_apply, val_main_call17_v0_apply, val_main_call17_cst_apply, val_main_v111_apply, val_main_v108_apply, val_main_v110_apply, val_main_v109_apply, idx_v110]
  simp only [lidx_v108, ridx_v108, Ideal.addf_def, dense, Ideal.maximumf_def, Ideal.ofBits_def, Ideal.ofBits_zero_f32, relu]

theorem lidx_v113 (n : Fin 262144) (j : Fin 1) (k : Fin 128) : lidx_main_v113 (ix2 n j) k = ix2 n k :=
  funext fun a => Fin.ext (by match a with | ⟨0, _⟩ => rfl | ⟨1, _⟩ => rfl)
theorem ridx_v113 (n : Fin 262144) (j : Fin 1) (k : Fin 128) : ridx_main_v113 (ix2 n j) k = ix2 k j :=
  funext fun a => Fin.ext (by match a with | ⟨0, _⟩ => rfl | ⟨1, _⟩ => rfl)
theorem idx_v115 (n : Fin 262144) (j : Fin 1) : idx_main_v114 (idx_main_v115 (ix2 n j)) = ix1 j :=
  funext fun a => Fin.ext (by match a with | ⟨0, _⟩ => have := j.isLt; show (0 : ℕ) = j.val; omega)
theorem layer_v116 (n : Fin 262144) (j : Fin 1) :
    val_main_v116 (F := Ideal) x0 x1 x2 x3 x4 x5 x6 x7 x8 x9 x10 x11 x12 x13 x26 x27 x28 x29 x30 x31 (ix2 n j) =
      dense (fun k : Fin 128 => val_main_v112 (F := Ideal) x0 x1 x2 x3 x4 x5 x6 x7 x8 x9 x10 x11 x12 x13 x26 x27 x28 x29 (ix2 n k)) (fun (k : Fin 128) (j : Fin 1) => x30 (ix2 k j))
        (fun j : Fin 1 => x31 (ix1 j)) j := by
  rw [val_main_v116_apply, val_main_v113_apply, val_main_v115_apply, val_main_v114_apply, idx_v115]
  simp only [lidx_v113, ridx_v113, Ideal.addf_def, dense]

/-- The three layers together are the specification's perceptron on the weights read off the six arrays. -/
theorem mlp_dm (n : Fin 262144) (j : Fin 1) :
    val_main_v116 (F := Ideal) x0 x1 x2 x3 x4 x5 x6 x7 x8 x9 x10 x11 x12 x13 x26 x27 x28 x29 x30 x31 (ix2 n j) = (mlpOf x26 x27 x28 x29 x30 x31).apply (fun k : Fin 2 => val_main_v58 (F := Ideal) x0 x1 x2 x3 x4 x5 x6 x7 x8 x9 x10 x11 x12 x13 (ix2 n k)) j := by
  rw [layer_v116]
  simp only [layer_v112, layer_v107]
  rfl

/-- The gate perceptron reads `θ`. -/
theorem dm_apply (n : Fin 262144) (j : Fin 1) : val_main_v116 (F := Ideal) x0 x1 x2 x3 x4 x5 x6 x7 x8 x9 x10 x11 x12 x13 x26 x27 x28 x29 x30 x31 (ix2 n j) = (mlpOf x26 x27 x28 x29 x30 x31).apply (thr x0 x1 x2 x3 x4 x5 x6 x7 x8 x9 x10 x11 x12 x13 n) j :=
  (mlp_dm x0 x1 x2 x3 x4 x5 x6 x7 x8 x9 x10 x11 x12 x13 x26 x27 x28 x29 x30 x31 n j).trans (congrFun (congrArg (mlpOf x26 x27 x28 x29 x30 x31).apply (funext fun k => th_apply x0 x1 x2 x3 x4 x5 x6 x7 x8 x9 x10 x11 x12 x13 n k)) j)

theorem idx_v117 (n : Fin 262144) : idx_main_v117 (ix1 n) = ix2 n (0 : Fin 1) :=
  funext fun a => Fin.ext (by match a with | ⟨0, _⟩ => exact Nat.div_one _ | ⟨1, _⟩ => rfl)
/-- softplus of the single output column: the guard "the operand differs from itself" is false, so the select takes
    `max(z, 0) + log1p(exp(−|z − 0|))`, and `z − 0 = z`. -/
theorem sp_v118 (n : Fin 262144) :
    val_main_v118 (F := Ideal) x0 x1 x2 x3 x4 x5 x6 x7 x8 x9 x10 x11 x12 x13 x26 x27 x28 x29 x30 x31 (ix1 n) = softplus (val_main_v116 (F := Ideal) x0 x1 x2 x3 x4 x5 x6 x7 x8 x9 x10 x11 x12 x13 x26 x27 x28 x29 x30 x31 (ix2 n (0 : Fin 1))) := by
  simp only [val_main_v118_apply, val_main_call18_v4_apply, val_main_call18_v11_apply, val_main_call18_v1_apply, val_main_call18_v0_apply, val_main_call18_v10_apply, val_main_call18_v9_apply, val_main_call18_v8_apply, val_main_call18_v7_apply, val_main_call18_v3_apply, val_main_call18_v2_apply, val_main_call18_cst_apply, val_main_v117_apply, idx_v117,
    cmpf_une_self, select_zero, Ideal.ofBits_def, Ideal.ofBits_zero_f32, Ideal.subf_def, sub_zero, Ideal.addf_def,
    Ideal.maximumf_def, Ideal.hostUnary_log1p_def, Ideal.hostUnary_exp_def, Ideal.hostNegf_def, Ideal.negf_def,
    Ideal.hostAbsf_def, absf_eq, softplus]

/-- The gate, softplus of the gate perceptron. -/
theorem bg_apply (n : Fin 262144) : val_main_v118 (F := Ideal) x0 x1 x2 x3 x4 x5 x6 x7 x8 x9 x10 x11 x12 x13 x26 x27 x28 x29 x30 x31 (ix1 n) = bgr x0 x1 x2 x3 x4 x5 x6 x7 x8 x9 x10 x11 x12 x13 x26 x27 x28 x29 x30 x31 n :=
  (sp_v118 x0 x1 x2 x3 x4 x5 x6 x7 x8 x9 x10 x11 x12 x13 x26 x27 x28 x29 x30 x31 n).trans (congrArg softplus (dm_apply x0 x1 x2 x3 x4 x5 x6 x7 x8 x9 x10 x11 x12 x13 x26 x27 x28 x29 x30 x31 n 0))

/-! ## The rebuilt row -/

theorem idx_v120 (n : Fin 262144) (j : Fin 3) : idx_main_v119 (idx_main_v120 (ix2 n j)) = ix1 n :=
  funext fun a => Fin.ext (by match a with | ⟨0, _⟩ => rfl)
theorem idx_v123 (n : Fin 262144) (j : Fin 3) : idx_main_v122 (idx_main_v123 (ix2 n j)) = ix1 n :=
  funext fun a => Fin.ext (by match a with | ⟨0, _⟩ => rfl)
theorem idx_v126 (n : Fin 262144) (j : Fin 3) : idx_main_v125 (idx_main_v126 (ix2 n j)) = ix1 j :=
  funext fun a => Fin.ext (by match a with | ⟨0, _⟩ => rfl)
/-- `c + |w|^(1/2) · (gate · direction)`, in the program's grouping. -/
theorem out_apply (n : Fin 262144) (q : Fin 3) : val_main_v127 (F := Ideal) x0 x1 x2 x3 x4 x5 x6 x7 x8 x9 x10 x11 x12 x13 x14 x15 x16 x17 x18 x19 x20 x21 x22 x23 x24 x25 x26 x27 x28 x29 x30 x31 (ix2 n q) = outr x0 x1 x2 x3 x4 x5 x6 x7 x8 x9 x10 x11 x12 x13 x14 x15 x16 x17 x18 x19 x20 x21 x22 x23 x24 x25 x26 x27 x28 x29 x30 x31 n q := by
  rw [val_main_v127_apply, val_main_v126_apply, val_main_v125_apply, idx_v126, val_main_v124_apply, val_main_v123_apply, val_main_v122_apply, idx_v123, sq_apply,
    val_main_v121_apply, val_main_v120_apply, val_main_v119_apply, idx_v120, bg_apply, cc_apply]
  simp only [Ideal.addf_def, Ideal.mulf_def, outr]

/-- Entry `(n, q)` of the reference's result is entry `q` of the specification's row function at row `n`. -/
theorem ref_apply (n : Fin 262144) (q : Fin 3) :
    val_main_v127 (F := Ideal) x0 x1 x2 x3 x4 x5 x6 x7 x8 x9 x10 x11 x12 x13 x14 x15 x16 x17 x18 x19 x20 x21 x22 x23 x24 x25 x26 x27 x28 x29 x30 x31 (ix2 n q) =
      refRow (fun j => x0 (ix2 n j)) (fun j => x1 (ix1 j)) (mlpOf x2 x3 x4 x5 x6 x7) (mlpOf x8 x9 x10 x11 x12 x13)
        (mlpOf x14 x15 x16 x17 x18 x19) (mlpOf x20 x21 x22 x23 x24 x25) (mlpOf x26 x27 x28 x29 x30 x31) q :=
  out_apply x0 x1 x2 x3 x4 x5 x6 x7 x8 x9 x10 x11 x12 x13 x14 x15 x16 x17 x18 x19 x20 x21 x22 x23 x24 x25 x26 x27 x28 x29 x30 x31 n q

/-- The reference's result, as one function of the thirty-two arrays. -/
theorem ref_eq_G :
    val_main_v127 (F := Ideal) x0 x1 x2 x3 x4 x5 x6 x7 x8 x9 x10 x11 x12 x13 x14 x15 x16 x17 x18 x19 x20 x21 x22 x23 x24 x25 x26 x27 x28 x29 x30 x31 =
      G x0 x1 (mlpOf x2 x3 x4 x5 x6 x7) (mlpOf x8 x9 x10 x11 x12 x13)
        (mlpOf x14 x15 x16 x17 x18 x19) (mlpOf x20 x21 x22 x23 x24 x25) (mlpOf x26 x27 x28 x29 x30 x31) := by
  funext i
  obtain ⟨n, q, rfl⟩ : ∃ (n : Fin 262144) (q : Fin 3), i = ix2 n q := ⟨i 0, i 1, eq_ix2 i⟩
  exact ref_apply x0 x1 x2 x3 x4 x5 x6 x7 x8 x9 x10 x11 x12 x13 x14 x15 x16 x17 x18 x19 x20 x21 x22 x23 x24 x25 x26 x27 x28 x29 x30 x31 n q

end Cert.ReferenceIdeal.RefValue

end
-- ==== Proof.lean ====
/-
  The certificate's claim. Both programs compute, row by row, the same function of the arguments on the extended
  reals: centre the row, take its squared length `s` and direction, read two small perceptrons for a direction `e` and a
  magnitude `a`, form `w = (s·a)·e`; then from `w`'s direction and `log(|w| + ε)` read three more perceptrons and rebuild the
  row as `c + √|w| · (gate · dir)`. The kernel runs the five perceptrons as two fused towers whose weights the host lays
  side by side and block-diagonally with zero blocks; since `x · 0 = 0` for every extended real the zero blocks
  contribute nothing and each tower's output is the perceptrons' outputs side by side. The reference writes `s` as
  `(√s)²` and `√|w|` as `|w|^(1/2)`; on `[0, ∞]` these agree. The frames: each program terminates, faults nowhere and
  leaves its arguments as they were; the idealised kernel is the kernel read at the exact instance with no rewrite
  applied, so that conjunct is trivial.
-/
import proofs.«158485_j30597347016754_2_alg».proof.Defs
import proofs.«158485_j30597347016754_2_alg».proof.Proof.Gen.Kernel
import proofs.«158485_j30597347016754_2_alg».proof.Proof.Gen.KernelIdeal
import proofs.«158485_j30597347016754_2_alg».proof.Proof.Gen.ReferenceIdeal
import proofs.«158485_j30597347016754_2_alg».proof.Proof.Gen.Pre_finite_inputs
import proofs.«158485_j30597347016754_2_alg».proof.Proof.KFrame
import proofs.«158485_j30597347016754_2_alg».proof.Proof.KIFrame
import proofs.«158485_j30597347016754_2_alg».proof.Proof.KIValue
import proofs.«158485_j30597347016754_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.HFrame.frame m ρ

theorem frame_ki : Cert.frame_KernelIdeal (hKernelIdeal := Cert.KernelIdeal.Gen.facts) (hPre_finite_inputs := Cert.Pre_finite_inputs.Gen.facts) :=
  fun m ρ _ => Cert.KernelIdeal.HFrame.frame m ρ

/-- The reference has no region: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

set_option maxHeartbeats 4000000 in
/-- Both runs end with the result array at the one result function of the (agreeing) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.HValue.Gm m c, Cert.KernelIdeal.HValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26, h27, h28, h29, h30, h31⟩ := hagree c
  rw [Cert.ReferenceIdeal.Read.val_main_v127_eq, Cert.ReferenceIdeal.RefValue.ref_eq_G,
    h0, h1, h2, h3, h4, h5, h6, h7, h8, h9, h10, h11, h12, h13, h14, h15, h16, h17, h18, h19, h20, h21, h22, h23, h24, h25, h26, h27, h28, h29, h30, h31]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
